-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v324)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v324) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v325) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000x8000 : Shape := ⟨2, ![8000, 8000]⟩
abbrev S8000x64 : Shape := ⟨2, ![8000, 64]⟩
abbrev S4x64x64 : Shape := ⟨3, ![4, 64, 64]⟩
abbrev S4x64 : Shape := ⟨2, ![4, 64]⟩
abbrev S4x64x32 : Shape := ⟨3, ![4, 64, 32]⟩
abbrev S4x32 : Shape := ⟨2, ![4, 32]⟩
abbrev S32x32 : Shape := ⟨2, ![32, 32]⟩
abbrev S4x524288 : Shape := ⟨2, ![4, 524288]⟩
abbrev S_ : Shape := ⟨0, ![]⟩

class Facts : Prop where
  bcast_S_S8000x8000 : S_.BroadcastsInDim S8000x8000 (![] : Fin 0 → Fin S8000x8000.rank)
  reducesTo_S8000x8000_S_d0_1 : S8000x8000.ReducesTo [0, 1] S_
  h_S_ : 0 < S_.numel
  bcast_S_S8000x64 : S_.BroadcastsInDim S8000x64 (![] : Fin 0 → Fin S8000x64.rank)
  reducesTo_S8000x64_S_d0_1 : S8000x64.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S4x64x32 : S_.BroadcastsInDim S4x64x32 (![] : Fin 0 → Fin S4x64x32.rank)
  reducesTo_S4x64x32_S_d0_1_2 : S4x64x32.ReducesTo [0, 1, 2] S_
  bcast_S_S4x32 : S_.BroadcastsInDim S4x32 (![] : Fin 0 → Fin S4x32.rank)
  reducesTo_S4x32_S_d0_1 : S4x32.ReducesTo [0, 1] S_
  bcast_S_S32x32 : S_.BroadcastsInDim S32x32 (![] : Fin 0 → Fin S32x32.rank)
  reducesTo_S32x32_S_d0_1 : S32x32.ReducesTo [0, 1] S_

variable [Facts]

def fn_part2 {F : FTy → Type} [FloatOps F] (main_arg7 : FVec F S4x32 .f32) (main_arg8 : FVec F S32x32 .f32) (main_v33 : IVec S_ 1) : IVec S_ 1 :=
  let main_v34 : FVec F S4x32 .f32 := Host.absf main_arg7
  let main_cst_12 : FVec F S_ .f32 := constant S_ .f32 0x7F800000#32
  let main_v35 : FVec F S4x32 .f32 := broadcastInDim S4x32 ![] bcast_S_S4x32 main_cst_12
  let main_v36 : IVec S4x32 1 := cmpf .olt main_v34 main_v35
  let main_c_13 : IVec S_ 1 := constantI S_ 1 1#1
  let main_v37 : IVec S_ 1 := (fun x v => Host.reduce IntOp.andi x v reducesTo_S4x32_S_d0_1 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  main_v43

def fn_part1 {F : FTy → Type} [FloatOps F] (main_arg4 : FVec F S4x64x64 .f32) (main_arg5 : FVec F S4x64 .f32) (main_arg6 : FVec F S4x64x32 .f32) (main_arg7 : FVec F S4x32 .f32) (main_arg8 : FVec F S32x32 .f32) (main_v13 : IVec S_ 1) (main_v16 : IVec S8000x64 1) : IVec S_ 1 :=
  let main_c_5 : IVec S_ 1 := constantI S_ 1 1#1
  let main_v17 : IVec S_ 1 := (fun x v => Host.reduce IntOp.andi x v reducesTo_S8000x64_S_d0_1 h_S_) main_v16 main_c_5
  let main_v18 : IVec S_ 1 := andi main_v13 main_v17
  let main_v19 : FVec F S4x64x64 .f32 := Host.absf main_arg4
  let main_cst_6 : FVec F S_ .f32 := constant S_ .f32 0x7F800000#32
  let main_v20 : FVec F S4x64x64 .f32 := broadcastInDim S4x64x64 ![] bcast_S_S4x64x64 main_cst_6
  let main_v21 : IVec S4x64x64 1 := cmpf .olt main_v19 main_v20
  let main_c_7 : IVec S_ 1 := constantI S_ 1 1#1
  let main_v22 : IVec S_ 1 := (fun x v => Host.reduce IntOp.andi x v reducesTo_S4x64x64_S_d0_1_2 h_S_) main_v21 main_c_7
  let main_v23 : IVec S_ 1 := andi main_v18 main_v22
  let main_v24 : FVec F S4x64 .f32 := Host.absf main_arg5
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S4x64x32 .f32 := Host.absf main_arg6
  let main_cst_10 : FVec F S_ .f32 := constant S_ .f32 0x7F800000#32
  let main_v30 : FVec F S4x64x32 .f32 := broadcastInDim S4x64x32 ![] bcast_S_S4x64x32 main_cst_10
  let main_v31 : IVec S4x64x32 1 := cmpf .olt main_v29 main_v30
  let main_c_11 : IVec S_ 1 := constantI S_ 1 1#1
  let main_v32 : IVec S_ 1 := (fun x v => Host.reduce IntOp.andi x v reducesTo_S4x64x32_S_d0_1_2 h_S_) main_v31 main_c_11
  let main_v33 : IVec S_ 1 := andi main_v28 main_v32
  fn_part2 (F := F) main_arg7 main_arg8 main_v33

def fn {F : FTy → Type} [FloatOps F] (main_arg0 : FVec F S8000x8000 .f32) (main_arg1 : FVec F S8000x8000 .f32) (main_arg2 : FVec F S8000x64 .f32) (main_arg3 : FVec F S8000x64 .f32) (main_arg4 : FVec F S4x64x64 .f32) (main_arg5 : FVec F S4x64 .f32) (main_arg6 : FVec F S4x64x32 .f32) (main_arg7 : FVec F S4x32 .f32) (main_arg8 : FVec F S32x32 .f32) (main_arg9 : IVec S4x524288 32) (main_arg10 : IVec S4x524288 32) : IVec S_ 1 :=
  let main_v0 : FVec F S8000x8000 .f32 := Host.absf main_arg0
  let main_cst : FVec F S_ .f32 := constant S_ .f32 0x7F800000#32
  let main_v1 : FVec F S8000x8000 .f32 := broadcastInDim S8000x8000 ![] bcast_S_S8000x8000 main_cst
  let main_v2 : IVec S8000x8000 1 := cmpf .olt main_v0 main_v1
  let main_c : IVec S_ 1 := constantI S_ 1 1#1
  let main_v3 : IVec S_ 1 := (fun x v => Host.reduce IntOp.andi x v reducesTo_S8000x8000_S_d0_1 h_S_) main_v2 main_c
  let main_v4 : FVec F S8000x8000 .f32 := Host.absf main_arg1
  let main_cst_0 : FVec F S_ .f32 := constant S_ .f32 0x7F800000#32
  let main_v5 : FVec F S8000x8000 .f32 := broadcastInDim S8000x8000 ![] bcast_S_S8000x8000 main_cst_0
  let main_v6 : IVec S8000x8000 1 := cmpf .olt main_v4 main_v5
  let main_c_1 : IVec S_ 1 := constantI S_ 1 1#1
  let main_v7 : IVec S_ 1 := (fun x v => Host.reduce IntOp.andi x v reducesTo_S8000x8000_S_d0_1 h_S_) main_v6 main_c_1
  let main_v8 : IVec S_ 1 := andi main_v3 main_v7
  let main_v9 : FVec F S8000x64 .f32 := Host.absf main_arg2
  let main_cst_2 : FVec F S_ .f32 := constant S_ .f32 0x7F800000#32
  let main_v10 : FVec F S8000x64 .f32 := broadcastInDim S8000x64 ![] bcast_S_S8000x64 main_cst_2
  let main_v11 : IVec S8000x64 1 := cmpf .olt main_v9 main_v10
  let main_c_3 : IVec S_ 1 := constantI S_ 1 1#1
  let main_v12 : IVec S_ 1 := (fun x v => Host.reduce IntOp.andi x v reducesTo_S8000x64_S_d0_1 h_S_) main_v11 main_c_3
  let main_v13 : IVec S_ 1 := andi main_v8 main_v12
  let main_v14 : FVec F S8000x64 .f32 := Host.absf main_arg3
  let main_cst_4 : FVec F S_ .f32 := constant S_ .f32 0x7F800000#32
  let main_v15 : FVec F S8000x64 .f32 := broadcastInDim S8000x64 ![] bcast_S_S8000x64 main_cst_4
  let main_v16 : IVec S8000x64 1 := cmpf .olt main_v14 main_v15
  fn_part1 (F := F) main_arg4 main_arg5 main_arg6 main_arg7 main_arg8 main_v13 main_v16
-- ==== Kernel.lean ====
abbrev S8000x8000 : Shape := ⟨2, ![8000, 8000]⟩
abbrev S8000x64 : Shape := ⟨2, ![8000, 64]⟩
abbrev S4x64x64 : Shape := ⟨3, ![4, 64, 64]⟩
abbrev S4x64 : Shape := ⟨2, ![4, 64]⟩
abbrev S4x64x32 : Shape := ⟨3, ![4, 64, 32]⟩
abbrev S4x32 : Shape := ⟨2, ![4, 32]⟩
abbrev S32x32 : Shape := ⟨2, ![32, 32]⟩
abbrev S4x524288 : Shape := ⟨2, ![4, 524288]⟩
abbrev S400x8000 : Shape := ⟨2, ![400, 8000]⟩
abbrev S400x64 : Shape := ⟨2, ![400, 64]⟩
abbrev S1x524288 : Shape := ⟨2, ![1, 524288]⟩
abbrev S524288 : Shape := ⟨1, ![524288]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S_ : Shape := ⟨0, ![]⟩
abbrev S8000 : Shape := ⟨1, ![8000]⟩
abbrev S524288x1 : Shape := ⟨2, ![524288, 1]⟩
abbrev S8000x1 : Shape := ⟨2, ![8000, 1]⟩
abbrev S524288x64 : Shape := ⟨2, ![524288, 64]⟩
abbrev S1x64x32 : Shape := ⟨3, ![1, 64, 32]⟩
abbrev S64x32 : Shape := ⟨2, ![64, 32]⟩
abbrev S1x32 : Shape := ⟨2, ![1, 32]⟩
abbrev S32 : Shape := ⟨1, ![32]⟩
abbrev S8000x32 : Shape := ⟨2, ![8000, 32]⟩
abbrev S524288x32 : Shape := ⟨2, ![524288, 32]⟩
abbrev S400x32 : Shape := ⟨2, ![400, 32]⟩

abbrev nBuf : Space → Nat
  | .hbm => 440
  | .vmem => 15
  | .smem => 0
  | _ => 0

abbrev hbmTy0_0 (i : Nat) : BufTy := match i % 128 with
  | 0 => ⟨S8000x8000, .f32⟩
  | 1 => ⟨S8000x8000, .f32⟩
  | 2 => ⟨S8000x64, .f32⟩
  | 3 => ⟨S8000x64, .f32⟩
  | 4 => ⟨S4x64x64, .f32⟩
  | 5 => ⟨S4x64, .f32⟩
  | 6 => ⟨S4x64x32, .f32⟩
  | 7 => ⟨S4x32, .f32⟩
  | 8 => ⟨S32x32, .f32⟩
  | 9 => ⟨S4x524288, .i32⟩
  | 10 => ⟨S4x524288, .i32⟩
  | 11 => ⟨S8000x64, .f32⟩
  | 12 => ⟨S8000x64, .f32⟩
  | 13 => ⟨S1x524288, .i32⟩
  | 14 => ⟨S524288, .i32⟩
  | 15 => ⟨S1x524288, .i32⟩
  | 16 => ⟨S524288, .i32⟩
  | 17 => ⟨S1x64x64, .f32⟩
  | 18 => ⟨S64x64, .f32⟩
  | 19 => ⟨S1x64, .f32⟩
  | 20 => ⟨S64, .f32⟩
  | 21 => ⟨S_, .f32⟩
  | 22 => ⟨S524288, .f32⟩
  | 23 => ⟨S_, .f32⟩
  | 24 => ⟨S8000, .f32⟩
  | 25 => ⟨S524288x1, .i32⟩
  | 26 => ⟨S8000, .f32⟩
  | 27 => ⟨S_, .f32⟩
  | 28 => ⟨S_, .f32⟩
  | 29 => ⟨S8000, .f32⟩
  | 30 => ⟨S8000, .f32⟩
  | 31 => ⟨S_, .f32⟩
  | 32 => ⟨S8000, .f32⟩
  | 33 => ⟨S524288x1, .i32⟩
  | 34 => ⟨S8000, .f32⟩
  | 35 => ⟨S_, .f32⟩
  | 36 => ⟨S_, .f32⟩
  | 37 => ⟨S8000, .f32⟩
  | 38 => ⟨S8000, .f32⟩
  | 39 => ⟨S8000, .f32⟩
  | 40 => ⟨S8000x1, .f32⟩
  | 41 => ⟨S8000x64, .f32⟩
  | 42 => ⟨S8000x64, .f32⟩
  | 43 => ⟨S8000x64, .f32⟩
  | 44 => ⟨S_, .i32⟩
  | 45 => ⟨S524288, .i32⟩
  | 46 => ⟨S524288, .i1⟩
  | 47 => ⟨S_, .i32⟩
  | 48 => ⟨S524288, .i32⟩
  | 49 => ⟨S524288, .i32⟩
  | 50 => ⟨S524288, .i32⟩
  | 51 => ⟨S524288x1, .i32⟩
  | 52 => ⟨S524288x64, .f32⟩
  | 53 => ⟨S_, .f32⟩
  | 54 => ⟨S8000x64, .f32⟩
  | 55 => ⟨S524288x1, .i32⟩
  | 56 => ⟨S8000x64, .f32⟩
  | 57 => ⟨S8000, .f32⟩
  | 58 => ⟨S8000x1, .f32⟩
  | 59 => ⟨S8000x64, .f32⟩
  | 60 => ⟨S8000x64, .f32⟩
  | 61 => ⟨S1x64, .f32⟩
  | 62 => ⟨S8000x64, .f32⟩
  | 63 => ⟨S8000x64, .f32⟩
  | 64 => ⟨S1x524288, .i32⟩
  | 65 => ⟨S524288, .i32⟩
  | 66 => ⟨S1x524288, .i32⟩
  | 67 => ⟨S524288, .i32⟩
  | 68 => ⟨S1x64x64, .f32⟩
  | 69 => ⟨S64x64, .f32⟩
  | 70 => ⟨S1x64, .f32⟩
  | 71 => ⟨S64, .f32⟩
  | 72 => ⟨S_, .f32⟩
  | 73 => ⟨S524288, .f32⟩
  | 74 => ⟨S_, .f32⟩
  | 75 => ⟨S8000, .f32⟩
  | 76 => ⟨S524288x1, .i32⟩
  | 77 => ⟨S8000, .f32⟩
  | 78 => ⟨S_, .f32⟩
  | 79 => ⟨S_, .f32⟩
  | 80 => ⟨S8000, .f32⟩
  | 81 => ⟨S8000, .f32⟩
  | 82 => ⟨S_, .f32⟩
  | 83 => ⟨S8000, .f32⟩
  | 84 => ⟨S524288x1, .i32⟩
  | 85 => ⟨S8000, .f32⟩
  | 86 => ⟨S_, .f32⟩
  | 87 => ⟨S_, .f32⟩
  | 88 => ⟨S8000, .f32⟩
  | 89 => ⟨S8000, .f32⟩
  | 90 => ⟨S8000, .f32⟩
  | 91 => ⟨S8000x1, .f32⟩
  | 92 => ⟨S8000x64, .f32⟩
  | 93 => ⟨S8000x64, .f32⟩
  | 94 => ⟨S8000x64, .f32⟩
  | 95 => ⟨S_, .i32⟩
  | 96 => ⟨S524288, .i32⟩
  | 97 => ⟨S524288, .i1⟩
  | 98 => ⟨S_, .i32⟩
  | 99 => ⟨S524288, .i32⟩
  | 100 => ⟨S524288, .i32⟩
  | 101 => ⟨S524288, .i32⟩
  | 102 => ⟨S524288x1, .i32⟩
  | 103 => ⟨S524288x64, .f32⟩
  | 104 => ⟨S_, .f32⟩
  | 105 => ⟨S8000x64, .f32⟩
  | 106 => ⟨S524288x1, .i32⟩
  | 107 => ⟨S8000x64, .f32⟩
  | 108 => ⟨S8000, .f32⟩
  | 109 => ⟨S8000x1, .f32⟩
  | 110 => ⟨S8000x64, .f32⟩
  | 111 => ⟨S8000x64, .f32⟩
  | 112 => ⟨S1x64, .f32⟩
  | 113 => ⟨S8000x64, .f32⟩
  | 114 => ⟨S8000x64, .f32⟩
  | 115 => ⟨S8000x64, .f32⟩
  | 116 => ⟨S1x524288, .i32⟩
  | 117 => ⟨S524288, .i32⟩
  | 118 => ⟨S1x524288, .i32⟩
  | 119 => ⟨S524288, .i32⟩
  | 120 => ⟨S1x64x64, .f32⟩
  | 121 => ⟨S64x64, .f32⟩
  | 122 => ⟨S1x64, .f32⟩
  | 123 => ⟨S64, .f32⟩
  | 124 => ⟨S_, .f32⟩
  | 125 => ⟨S524288, .f32⟩
  | 126 => ⟨S_, .f32⟩
  | 127 => ⟨S8000, .f32⟩
  | _ => ⟨S8000x8000, .f32⟩

abbrev hbmTy0_1 (i : Nat) : BufTy := match i % 128 with
  | 0 => ⟨S524288x1, .i32⟩
  | 1 => ⟨S8000, .f32⟩
  | 2 => ⟨S_, .f32⟩
  | 3 => ⟨S_, .f32⟩
  | 4 => ⟨S8000, .f32⟩
  | 5 => ⟨S8000, .f32⟩
  | 6 => ⟨S_, .f32⟩
  | 7 => ⟨S8000, .f32⟩
  | 8 => ⟨S524288x1, .i32⟩
  | 9 => ⟨S8000, .f32⟩
  | 10 => ⟨S_, .f32⟩
  | 11 => ⟨S_, .f32⟩
  | 12 => ⟨S8000, .f32⟩
  | 13 => ⟨S8000, .f32⟩
  | 14 => ⟨S8000, .f32⟩
  | 15 => ⟨S8000x1, .f32⟩
  | 16 => ⟨S8000x64, .f32⟩
  | 17 => ⟨S8000x64, .f32⟩
  | 18 => ⟨S8000x64, .f32⟩
  | 19 => ⟨S_, .i32⟩
  | 20 => ⟨S524288, .i32⟩
  | 21 => ⟨S524288, .i1⟩
  | 22 => ⟨S_, .i32⟩
  | 23 => ⟨S524288, .i32⟩
  | 24 => ⟨S524288, .i32⟩
  | 25 => ⟨S524288, .i32⟩
  | 26 => ⟨S524288x1, .i32⟩
  | 27 => ⟨S524288x64, .f32⟩
  | 28 => ⟨S_, .f32⟩
  | 29 => ⟨S8000x64, .f32⟩
  | 30 => ⟨S524288x1, .i32⟩
  | 31 => ⟨S8000x64, .f32⟩
  | 32 => ⟨S8000, .f32⟩
  | 33 => ⟨S8000x1, .f32⟩
  | 34 => ⟨S8000x64, .f32⟩
  | 35 => ⟨S8000x64, .f32⟩
  | 36 => ⟨S1x64, .f32⟩
  | 37 => ⟨S8000x64, .f32⟩
  | 38 => ⟨S8000x64, .f32⟩
  | 39 => ⟨S1x524288, .i32⟩
  | 40 => ⟨S524288, .i32⟩
  | 41 => ⟨S1x524288, .i32⟩
  | 42 => ⟨S524288, .i32⟩
  | 43 => ⟨S1x64x64, .f32⟩
  | 44 => ⟨S64x64, .f32⟩
  | 45 => ⟨S1x64, .f32⟩
  | 46 => ⟨S64, .f32⟩
  | 47 => ⟨S_, .f32⟩
  | 48 => ⟨S524288, .f32⟩
  | 49 => ⟨S_, .f32⟩
  | 50 => ⟨S8000, .f32⟩
  | 51 => ⟨S524288x1, .i32⟩
  | 52 => ⟨S8000, .f32⟩
  | 53 => ⟨S_, .f32⟩
  | 54 => ⟨S_, .f32⟩
  | 55 => ⟨S8000, .f32⟩
  | 56 => ⟨S8000, .f32⟩
  | 57 => ⟨S_, .f32⟩
  | 58 => ⟨S8000, .f32⟩
  | 59 => ⟨S524288x1, .i32⟩
  | 60 => ⟨S8000, .f32⟩
  | 61 => ⟨S_, .f32⟩
  | 62 => ⟨S_, .f32⟩
  | 63 => ⟨S8000, .f32⟩
  | 64 => ⟨S8000, .f32⟩
  | 65 => ⟨S8000, .f32⟩
  | 66 => ⟨S8000x1, .f32⟩
  | 67 => ⟨S8000x64, .f32⟩
  | 68 => ⟨S8000x64, .f32⟩
  | 69 => ⟨S8000x64, .f32⟩
  | 70 => ⟨S_, .i32⟩
  | 71 => ⟨S524288, .i32⟩
  | 72 => ⟨S524288, .i1⟩
  | 73 => ⟨S_, .i32⟩
  | 74 => ⟨S524288, .i32⟩
  | 75 => ⟨S524288, .i32⟩
  | 76 => ⟨S524288, .i32⟩
  | 77 => ⟨S524288x1, .i32⟩
  | 78 => ⟨S524288x64, .f32⟩
  | 79 => ⟨S_, .f32⟩
  | 80 => ⟨S8000x64, .f32⟩
  | 81 => ⟨S524288x1, .i32⟩
  | 82 => ⟨S8000x64, .f32⟩
  | 83 => ⟨S8000, .f32⟩
  | 84 => ⟨S8000x1, .f32⟩
  | 85 => ⟨S8000x64, .f32⟩
  | 86 => ⟨S8000x64, .f32⟩
  | 87 => ⟨S1x64, .f32⟩
  | 88 => ⟨S8000x64, .f32⟩
  | 89 => ⟨S8000x64, .f32⟩
  | 90 => ⟨S8000x64, .f32⟩
  | 91 => ⟨S_, .f32⟩
  | 92 => ⟨S8000x64, .f32⟩
  | 93 => ⟨S8000x64, .f32⟩
  | 94 => ⟨S_, .f32⟩
  | 95 => ⟨S8000x64, .f32⟩
  | 96 => ⟨S8000x64, .f32⟩
  | 97 => ⟨S1x524288, .i32⟩
  | 98 => ⟨S524288, .i32⟩
  | 99 => ⟨S1x524288, .i32⟩
  | 100 => ⟨S524288, .i32⟩
  | 101 => ⟨S1x64x32, .f32⟩
  | 102 => ⟨S64x32, .f32⟩
  | 103 => ⟨S1x32, .f32⟩
  | 104 => ⟨S32, .f32⟩
  | 105 => ⟨S_, .f32⟩
  | 106 => ⟨S524288, .f32⟩
  | 107 => ⟨S_, .f32⟩
  | 108 => ⟨S8000, .f32⟩
  | 109 => ⟨S524288x1, .i32⟩
  | 110 => ⟨S8000, .f32⟩
  | 111 => ⟨S_, .f32⟩
  | 112 => ⟨S_, .f32⟩
  | 113 => ⟨S8000, .f32⟩
  | 114 => ⟨S8000, .f32⟩
  | 115 => ⟨S_, .f32⟩
  | 116 => ⟨S8000, .f32⟩
  | 117 => ⟨S524288x1, .i32⟩
  | 118 => ⟨S8000, .f32⟩
  | 119 => ⟨S_, .f32⟩
  | 120 => ⟨S_, .f32⟩
  | 121 => ⟨S8000, .f32⟩
  | 122 => ⟨S8000, .f32⟩
  | 123 => ⟨S8000, .f32⟩
  | 124 => ⟨S8000x1, .f32⟩
  | 125 => ⟨S8000x64, .f32⟩
  | 126 => ⟨S8000x64, .f32⟩
  | 127 => ⟨S8000x32, .f32⟩
  | _ => ⟨S8000x8000, .f32⟩

abbrev hbmTy0_2 (i : Nat) : BufTy := match i % 128 with
  | 0 => ⟨S_, .i32⟩
  | 1 => ⟨S524288, .i32⟩
  | 2 => ⟨S524288, .i1⟩
  | 3 => ⟨S_, .i32⟩
  | 4 => ⟨S524288, .i32⟩
  | 5 => ⟨S524288, .i32⟩
  | 6 => ⟨S524288, .i32⟩
  | 7 => ⟨S524288x1, .i32⟩
  | 8 => ⟨S524288x32, .f32⟩
  | 9 => ⟨S_, .f32⟩
  | 10 => ⟨S8000x32, .f32⟩
  | 11 => ⟨S524288x1, .i32⟩
  | 12 => ⟨S8000x32, .f32⟩
  | 13 => ⟨S8000, .f32⟩
  | 14 => ⟨S8000x1, .f32⟩
  | 15 => ⟨S8000x32, .f32⟩
  | 16 => ⟨S8000x32, .f32⟩
  | 17 => ⟨S1x32, .f32⟩
  | 18 => ⟨S8000x32, .f32⟩
  | 19 => ⟨S8000x32, .f32⟩
  | 20 => ⟨S1x524288, .i32⟩
  | 21 => ⟨S524288, .i32⟩
  | 22 => ⟨S1x524288, .i32⟩
  | 23 => ⟨S524288, .i32⟩
  | 24 => ⟨S1x64x32, .f32⟩
  | 25 => ⟨S64x32, .f32⟩
  | 26 => ⟨S1x32, .f32⟩
  | 27 => ⟨S32, .f32⟩
  | 28 => ⟨S_, .f32⟩
  | 29 => ⟨S524288, .f32⟩
  | 30 => ⟨S_, .f32⟩
  | 31 => ⟨S8000, .f32⟩
  | 32 => ⟨S524288x1, .i32⟩
  | 33 => ⟨S8000, .f32⟩
  | 34 => ⟨S_, .f32⟩
  | 35 => ⟨S_, .f32⟩
  | 36 => ⟨S8000, .f32⟩
  | 37 => ⟨S8000, .f32⟩
  | 38 => ⟨S_, .f32⟩
  | 39 => ⟨S8000, .f32⟩
  | 40 => ⟨S524288x1, .i32⟩
  | 41 => ⟨S8000, .f32⟩
  | 42 => ⟨S_, .f32⟩
  | 43 => ⟨S_, .f32⟩
  | 44 => ⟨S8000, .f32⟩
  | 45 => ⟨S8000, .f32⟩
  | 46 => ⟨S8000, .f32⟩
  | 47 => ⟨S8000x1, .f32⟩
  | 48 => ⟨S8000x64, .f32⟩
  | 49 => ⟨S8000x64, .f32⟩
  | 50 => ⟨S8000x32, .f32⟩
  | 51 => ⟨S_, .i32⟩
  | 52 => ⟨S524288, .i32⟩
  | 53 => ⟨S524288, .i1⟩
  | 54 => ⟨S_, .i32⟩
  | 55 => ⟨S524288, .i32⟩
  | 56 => ⟨S524288, .i32⟩
  | 57 => ⟨S524288, .i32⟩
  | 58 => ⟨S524288x1, .i32⟩
  | 59 => ⟨S524288x32, .f32⟩
  | 60 => ⟨S_, .f32⟩
  | 61 => ⟨S8000x32, .f32⟩
  | 62 => ⟨S524288x1, .i32⟩
  | 63 => ⟨S8000x32, .f32⟩
  | 64 => ⟨S8000, .f32⟩
  | 65 => ⟨S8000x1, .f32⟩
  | 66 => ⟨S8000x32, .f32⟩
  | 67 => ⟨S8000x32, .f32⟩
  | 68 => ⟨S1x32, .f32⟩
  | 69 => ⟨S8000x32, .f32⟩
  | 70 => ⟨S8000x32, .f32⟩
  | 71 => ⟨S8000x32, .f32⟩
  | 72 => ⟨S1x524288, .i32⟩
  | 73 => ⟨S524288, .i32⟩
  | 74 => ⟨S1x524288, .i32⟩
  | 75 => ⟨S524288, .i32⟩
  | 76 => ⟨S1x64x32, .f32⟩
  | 77 => ⟨S64x32, .f32⟩
  | 78 => ⟨S1x32, .f32⟩
  | 79 => ⟨S32, .f32⟩
  | 80 => ⟨S_, .f32⟩
  | 81 => ⟨S524288, .f32⟩
  | 82 => ⟨S_, .f32⟩
  | 83 => ⟨S8000, .f32⟩
  | 84 => ⟨S524288x1, .i32⟩
  | 85 => ⟨S8000, .f32⟩
  | 86 => ⟨S_, .f32⟩
  | 87 => ⟨S_, .f32⟩
  | 88 => ⟨S8000, .f32⟩
  | 89 => ⟨S8000, .f32⟩
  | 90 => ⟨S_, .f32⟩
  | 91 => ⟨S8000, .f32⟩
  | 92 => ⟨S524288x1, .i32⟩
  | 93 => ⟨S8000, .f32⟩
  | 94 => ⟨S_, .f32⟩
  | 95 => ⟨S_, .f32⟩
  | 96 => ⟨S8000, .f32⟩
  | 97 => ⟨S8000, .f32⟩
  | 98 => ⟨S8000, .f32⟩
  | 99 => ⟨S8000x1, .f32⟩
  | 100 => ⟨S8000x64, .f32⟩
  | 101 => ⟨S8000x64, .f32⟩
  | 102 => ⟨S8000x32, .f32⟩
  | 103 => ⟨S_, .i32⟩
  | 104 => ⟨S524288, .i32⟩
  | 105 => ⟨S524288, .i1⟩
  | 106 => ⟨S_, .i32⟩
  | 107 => ⟨S524288, .i32⟩
  | 108 => ⟨S524288, .i32⟩
  | 109 => ⟨S524288, .i32⟩
  | 110 => ⟨S524288x1, .i32⟩
  | 111 => ⟨S524288x32, .f32⟩
  | 112 => ⟨S_, .f32⟩
  | 113 => ⟨S8000x32, .f32⟩
  | 114 => ⟨S524288x1, .i32⟩
  | 115 => ⟨S8000x32, .f32⟩
  | 116 => ⟨S8000, .f32⟩
  | 117 => ⟨S8000x1, .f32⟩
  | 118 => ⟨S8000x32, .f32⟩
  | 119 => ⟨S8000x32, .f32⟩
  | 120 => ⟨S1x32, .f32⟩
  | 121 => ⟨S8000x32, .f32⟩
  | 122 => ⟨S8000x32, .f32⟩
  | 123 => ⟨S1x524288, .i32⟩
  | 124 => ⟨S524288, .i32⟩
  | 125 => ⟨S1x524288, .i32⟩
  | 126 => ⟨S524288, .i32⟩
  | 127 => ⟨S1x64x32, .f32⟩
  | _ => ⟨S8000x8000, .f32⟩

abbrev hbmTy0_3 (i : Nat) : BufTy := match i % 128 with
  | 0 => ⟨S64x32, .f32⟩
  | 1 => ⟨S1x32, .f32⟩
  | 2 => ⟨S32, .f32⟩
  | 3 => ⟨S_, .f32⟩
  | 4 => ⟨S524288, .f32⟩
  | 5 => ⟨S_, .f32⟩
  | 6 => ⟨S8000, .f32⟩
  | 7 => ⟨S524288x1, .i32⟩
  | 8 => ⟨S8000, .f32⟩
  | 9 => ⟨S_, .f32⟩
  | 10 => ⟨S_, .f32⟩
  | 11 => ⟨S8000, .f32⟩
  | 12 => ⟨S8000, .f32⟩
  | 13 => ⟨S_, .f32⟩
  | 14 => ⟨S8000, .f32⟩
  | 15 => ⟨S524288x1, .i32⟩
  | 16 => ⟨S8000, .f32⟩
  | 17 => ⟨S_, .f32⟩
  | 18 => ⟨S_, .f32⟩
  | 19 => ⟨S8000, .f32⟩
  | 20 => ⟨S8000, .f32⟩
  | 21 => ⟨S8000, .f32⟩
  | 22 => ⟨S8000x1, .f32⟩
  | 23 => ⟨S8000x64, .f32⟩
  | 24 => ⟨S8000x64, .f32⟩
  | 25 => ⟨S8000x32, .f32⟩
  | 26 => ⟨S_, .i32⟩
  | 27 => ⟨S524288, .i32⟩
  | 28 => ⟨S524288, .i1⟩
  | 29 => ⟨S_, .i32⟩
  | 30 => ⟨S524288, .i32⟩
  | 31 => ⟨S524288, .i32⟩
  | 32 => ⟨S524288, .i32⟩
  | 33 => ⟨S524288x1, .i32⟩
  | 34 => ⟨S524288x32, .f32⟩
  | 35 => ⟨S_, .f32⟩
  | 36 => ⟨S8000x32, .f32⟩
  | 37 => ⟨S524288x1, .i32⟩
  | 38 => ⟨S8000x32, .f32⟩
  | 39 => ⟨S8000, .f32⟩
  | 40 => ⟨S8000x1, .f32⟩
  | 41 => ⟨S8000x32, .f32⟩
  | 42 => ⟨S8000x32, .f32⟩
  | 43 => ⟨S1x32, .f32⟩
  | 44 => ⟨S8000x32, .f32⟩
  | 45 => ⟨S8000x32, .f32⟩
  | 46 => ⟨S8000x32, .f32⟩
  | 47 => ⟨S_, .f32⟩
  | 48 => ⟨S8000x32, .f32⟩
  | 49 => ⟨S8000x32, .f32⟩
  | 50 => ⟨S_, .f32⟩
  | 51 => ⟨S8000x32, .f32⟩
  | 52 => ⟨S8000x32, .f32⟩
  | 53 => ⟨S32x32, .f32⟩
  | 54 => ⟨S8000x32, .f32⟩
  | 55 => ⟨S8000x8000, .f32⟩
  | _ => ⟨S8000x8000, .f32⟩

abbrev hbmTy (i : Nat) : BufTy := match i / 128 with
  | 0 => hbmTy0_0 i
  | 1 => hbmTy0_1 i
  | 2 => hbmTy0_2 i
  | 3 => hbmTy0_3 i
  | _ => ⟨S8000x8000, .f32⟩

abbrev bufTy : (tb : Table) → Fin (tcTables nBuf tb) → BufTy
  | .hbm, ⟨i, _⟩ => hbmTy i
  | .local _ .vmem, ⟨0, _⟩ => ⟨S400x8000, .f32⟩
  | .local _ .vmem, ⟨1, _⟩ => ⟨S400x8000, .f32⟩
  | .local _ .vmem, ⟨2, _⟩ => ⟨S8000x64, .f32⟩
  | .local _ .vmem, ⟨3, _⟩ => ⟨S400x64, .f32⟩
  | .local _ .vmem, ⟨4, _⟩ => ⟨S400x64, .f32⟩
  | .local _ .vmem, ⟨5, _⟩ => ⟨S400x8000, .f32⟩
  | .local _ .vmem, ⟨6, _⟩ => ⟨S400x8000, .f32⟩
  | .local _ .vmem, ⟨7, _⟩ => ⟨S8000x64, .f32⟩
  | .local _ .vmem, ⟨8, _⟩ => ⟨S400x64, .f32⟩
  | .local _ .vmem, ⟨9, _⟩ => ⟨S400x64, .f32⟩
  | .local _ .vmem, ⟨10, _⟩ => ⟨S400x32, .f32⟩
  | .local _ .vmem, ⟨11, _⟩ => ⟨S400x32, .f32⟩
  | .local _ .vmem, ⟨12, _⟩ => ⟨S8000x32, .f32⟩
  | .local _ .vmem, ⟨13, _⟩ => ⟨S400x8000, .f32⟩
  | .local _ .vmem, ⟨14, _⟩ => ⟨S400x8000, .f32⟩
  | _, _ => ⟨S8000x8000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c : Ref sig .tc := ⟨.hbm, 44, rfl⟩
abbrev main_v24 : Ref sig .tc := ⟨.hbm, 45, rfl⟩
abbrev main_v25 : Ref sig .tc := ⟨.hbm, 46, rfl⟩
abbrev main_c_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_6 : Ref sig .tc := ⟨.hbm, 72, rfl⟩
abbrev main_v49 : Ref sig .tc := ⟨.hbm, 73, rfl⟩
abbrev main_cst_7 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_8 : Ref sig .tc := ⟨.hbm, 78, rfl⟩
abbrev main_call2_v0 : Ref sig .tc := ⟨.hbm, 79, rfl⟩
abbrev main_call2_v1 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_10 : Ref sig .tc := ⟨.hbm, 86, rfl⟩
abbrev main_call3_v0 : Ref sig .tc := ⟨.hbm, 87, rfl⟩
abbrev main_call3_v1 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_11 : Ref sig .tc := ⟨.hbm, 95, rfl⟩
abbrev main_v63 : Ref sig .tc := ⟨.hbm, 96, rfl⟩
abbrev main_v64 : Ref sig .tc := ⟨.hbm, 97, rfl⟩
abbrev main_c_12 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_13 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_14 : Ref sig .tc := ⟨.hbm, 124, rfl⟩
abbrev main_v89 : Ref sig .tc := ⟨.hbm, 125, rfl⟩
abbrev main_cst_15 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_16 : Ref sig .tc := ⟨.hbm, 130, rfl⟩
abbrev main_call4_v0 : Ref sig .tc := ⟨.hbm, 131, rfl⟩
abbrev main_call4_v1 : Ref sig .tc := ⟨.hbm, 132, rfl⟩
abbrev main_v93 : Ref sig .tc := ⟨.hbm, 133, rfl⟩
abbrev main_cst_17 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_18 : Ref sig .tc := ⟨.hbm, 138, rfl⟩
abbrev main_call5_v0 : Ref sig .tc := ⟨.hbm, 139, rfl⟩
abbrev main_call5_v1 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_c_19 : Ref sig .tc := ⟨.hbm, 147, rfl⟩
abbrev main_v103 : Ref sig .tc := ⟨.hbm, 148, rfl⟩
abbrev main_v104 : Ref sig .tc := ⟨.hbm, 149, rfl⟩
abbrev main_c_20 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_21 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_cst_22 : Ref sig .tc := ⟨.hbm, 175, rfl⟩
abbrev main_v128 : Ref sig .tc := ⟨.hbm, 176, rfl⟩
abbrev main_cst_23 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_cst_24 : Ref sig .tc := ⟨.hbm, 181, rfl⟩
abbrev main_call6_v0 : Ref sig .tc := ⟨.hbm, 182, rfl⟩
abbrev main_call6_v1 : Ref sig .tc := ⟨.hbm, 183, rfl⟩
abbrev main_v132 : Ref sig .tc := ⟨.hbm, 184, rfl⟩
abbrev main_cst_25 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_cst_26 : Ref sig .tc := ⟨.hbm, 189, rfl⟩
abbrev main_call7_v0 : Ref sig .tc := ⟨.hbm, 190, rfl⟩
abbrev main_call7_v1 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_c_27 : Ref sig .tc := ⟨.hbm, 198, rfl⟩
abbrev main_v142 : Ref sig .tc := ⟨.hbm, 199, rfl⟩
abbrev main_v143 : Ref sig .tc := ⟨.hbm, 200, rfl⟩
abbrev main_c_28 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_cst_29 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_call8_cst : Ref sig .tc := ⟨.hbm, 219, rfl⟩
abbrev main_call8_v0 : Ref sig .tc := ⟨.hbm, 220, rfl⟩
abbrev main_v160 : Ref sig .tc := ⟨.hbm, 221, rfl⟩
abbrev main_call9_cst : Ref sig .tc := ⟨.hbm, 222, rfl⟩
abbrev main_call9_v0 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_cst_30 : Ref sig .tc := ⟨.hbm, 233, rfl⟩
abbrev main_v170 : Ref sig .tc := ⟨.hbm, 234, rfl⟩
abbrev main_cst_31 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_cst_32 : Ref sig .tc := ⟨.hbm, 239, rfl⟩
abbrev main_call10_v0 : Ref sig .tc := ⟨.hbm, 240, rfl⟩
abbrev main_call10_v1 : Ref sig .tc := ⟨.hbm, 241, rfl⟩
abbrev main_v174 : Ref sig .tc := ⟨.hbm, 242, rfl⟩
abbrev main_cst_33 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_cst_34 : Ref sig .tc := ⟨.hbm, 247, rfl⟩
abbrev main_call11_v0 : Ref sig .tc := ⟨.hbm, 248, rfl⟩
abbrev main_call11_v1 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_c_35 : Ref sig .tc := ⟨.hbm, 256, rfl⟩
abbrev main_v184 : Ref sig .tc := ⟨.hbm, 257, rfl⟩
abbrev main_v185 : Ref sig .tc := ⟨.hbm, 258, rfl⟩
abbrev main_c_36 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_cst_37 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_v203 : Ref sig .tc := ⟨.hbm, 278, rfl⟩
abbrev main_v204 : Ref sig .tc := ⟨.hbm, 279, rfl⟩
abbrev main_v205 : Ref sig .tc := ⟨.hbm, 280, rfl⟩
abbrev main_v206 : Ref sig .tc := ⟨.hbm, 281, rfl⟩
abbrev main_v207 : Ref sig .tc := ⟨.hbm, 282, rfl⟩
abbrev main_v208 : Ref sig .tc := ⟨.hbm, 283, rfl⟩
abbrev main_cst_38 : Ref sig .tc := ⟨.hbm, 284, rfl⟩
abbrev main_v209 : Ref sig .tc := ⟨.hbm, 285, rfl⟩
abbrev main_cst_39 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_cst_40 : Ref sig .tc := ⟨.hbm, 290, rfl⟩
abbrev main_call12_v0 : Ref sig .tc := ⟨.hbm, 291, rfl⟩
abbrev main_call12_v1 : Ref sig .tc := ⟨.hbm, 292, rfl⟩
abbrev main_v213 : Ref sig .tc := ⟨.hbm, 293, rfl⟩
abbrev main_cst_41 : Ref sig .tc := ⟨.hbm, 294, rfl⟩
abbrev main_v214 : Ref sig .tc := ⟨.hbm, 295, rfl⟩
abbrev main_v215 : Ref sig .tc := ⟨.hbm, 296, rfl⟩
abbrev main_v216 : Ref sig .tc := ⟨.hbm, 297, rfl⟩
abbrev main_cst_42 : Ref sig .tc := ⟨.hbm, 298, rfl⟩
abbrev main_call13_v0 : Ref sig .tc := ⟨.hbm, 299, rfl⟩
abbrev main_call13_v1 : Ref sig .tc := ⟨.hbm, 300, rfl⟩
abbrev main_v217 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_v222 : Ref sig .tc := ⟨.hbm, 306, rfl⟩
abbrev main_c_43 : Ref sig .tc := ⟨.hbm, 307, rfl⟩
abbrev main_v223 : Ref sig .tc := ⟨.hbm, 308, rfl⟩
abbrev main_v224 : Ref sig .tc := ⟨.hbm, 309, rfl⟩
abbrev main_c_44 : Ref sig .tc := ⟨.hbm, 310, rfl⟩
abbrev main_v225 : Ref sig .tc := ⟨.hbm, 311, rfl⟩
abbrev main_v226 : Ref sig .tc := ⟨.hbm, 312, rfl⟩
abbrev main_v227 : Ref sig .tc := ⟨.hbm, 313, rfl⟩
abbrev main_v228 : Ref sig .tc := ⟨.hbm, 314, rfl⟩
abbrev main_v229 : Ref sig .tc := ⟨.hbm, 315, rfl⟩
abbrev main_cst_45 : Ref sig .tc := ⟨.hbm, 316, rfl⟩
abbrev main_v230 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_v234 : Ref sig .tc := ⟨.hbm, 321, rfl⟩
abbrev main_v235 : Ref sig .tc := ⟨.hbm, 322, rfl⟩
abbrev main_v236 : Ref sig .tc := ⟨.hbm, 323, rfl⟩
abbrev main_v237 : Ref sig .tc := ⟨.hbm, 324, rfl⟩
abbrev main_v238 : Ref sig .tc := ⟨.hbm, 325, rfl⟩
abbrev main_v239 : Ref sig .tc := ⟨.hbm, 326, rfl⟩
abbrev main_v240 : Ref sig .tc := ⟨.hbm, 327, rfl⟩
abbrev main_v241 : Ref sig .tc := ⟨.hbm, 328, rfl⟩
abbrev main_v242 : Ref sig .tc := ⟨.hbm, 329, rfl⟩
abbrev main_v243 : Ref sig .tc := ⟨.hbm, 330, rfl⟩
abbrev main_v244 : Ref sig .tc := ⟨.hbm, 331, rfl⟩
abbrev main_v245 : Ref sig .tc := ⟨.hbm, 332, rfl⟩
abbrev main_v246 : Ref sig .tc := ⟨.hbm, 333, rfl⟩
abbrev main_v247 : Ref sig .tc := ⟨.hbm, 334, rfl⟩
abbrev main_v248 : Ref sig .tc := ⟨.hbm, 335, rfl⟩
abbrev main_cst_46 : Ref sig .tc := ⟨.hbm, 336, rfl⟩
abbrev main_v249 : Ref sig .tc := ⟨.hbm, 337, rfl⟩
abbrev main_cst_47 : Ref sig .tc := ⟨.hbm, 338, rfl⟩
abbrev main_v250 : Ref sig .tc := ⟨.hbm, 339, rfl⟩
abbrev main_v251 : Ref sig .tc := ⟨.hbm, 340, rfl⟩
abbrev main_v252 : Ref sig .tc := ⟨.hbm, 341, rfl⟩
abbrev main_cst_48 : Ref sig .tc := ⟨.hbm, 342, rfl⟩
abbrev main_call14_v0 : Ref sig .tc := ⟨.hbm, 343, rfl⟩
abbrev main_call14_v1 : Ref sig .tc := ⟨.hbm, 344, rfl⟩
abbrev main_v253 : Ref sig .tc := ⟨.hbm, 345, rfl⟩
abbrev main_cst_49 : Ref sig .tc := ⟨.hbm, 346, rfl⟩
abbrev main_v254 : Ref sig .tc := ⟨.hbm, 347, rfl⟩
abbrev main_v255 : Ref sig .tc := ⟨.hbm, 348, rfl⟩
abbrev main_v256 : Ref sig .tc := ⟨.hbm, 349, rfl⟩
abbrev main_cst_50 : Ref sig .tc := ⟨.hbm, 350, rfl⟩
abbrev main_call15_v0 : Ref sig .tc := ⟨.hbm, 351, rfl⟩
abbrev main_call15_v1 : Ref sig .tc := ⟨.hbm, 352, rfl⟩
abbrev main_v257 : Ref sig .tc := ⟨.hbm, 353, rfl⟩
abbrev main_v258 : Ref sig .tc := ⟨.hbm, 354, rfl⟩
abbrev main_v259 : Ref sig .tc := ⟨.hbm, 355, rfl⟩
abbrev main_v260 : Ref sig .tc := ⟨.hbm, 356, rfl⟩
abbrev main_v261 : Ref sig .tc := ⟨.hbm, 357, rfl⟩
abbrev main_v262 : Ref sig .tc := ⟨.hbm, 358, rfl⟩
abbrev main_c_51 : Ref sig .tc := ⟨.hbm, 359, rfl⟩
abbrev main_v263 : Ref sig .tc := ⟨.hbm, 360, rfl⟩
abbrev main_v264 : Ref sig .tc := ⟨.hbm, 361, rfl⟩
abbrev main_c_52 : Ref sig .tc := ⟨.hbm, 362, rfl⟩
abbrev main_v265 : Ref sig .tc := ⟨.hbm, 363, rfl⟩
abbrev main_v266 : Ref sig .tc := ⟨.hbm, 364, rfl⟩
abbrev main_v267 : Ref sig .tc := ⟨.hbm, 365, rfl⟩
abbrev main_v268 : Ref sig .tc := ⟨.hbm, 366, rfl⟩
abbrev main_v269 : Ref sig .tc := ⟨.hbm, 367, rfl⟩
abbrev main_cst_53 : Ref sig .tc := ⟨.hbm, 368, rfl⟩
abbrev main_v270 : Ref sig .tc := ⟨.hbm, 369, rfl⟩
abbrev main_v271 : Ref sig .tc := ⟨.hbm, 370, rfl⟩
abbrev main_v272 : Ref sig .tc := ⟨.hbm, 371, rfl⟩
abbrev main_v273 : Ref sig .tc := ⟨.hbm, 372, rfl⟩
abbrev main_v274 : Ref sig .tc := ⟨.hbm, 373, rfl⟩
abbrev main_v275 : Ref sig .tc := ⟨.hbm, 374, rfl⟩
abbrev main_v276 : Ref sig .tc := ⟨.hbm, 375, rfl⟩
abbrev main_v277 : Ref sig .tc := ⟨.hbm, 376, rfl⟩
abbrev main_v278 : Ref sig .tc := ⟨.hbm, 377, rfl⟩
abbrev main_v279 : Ref sig .tc := ⟨.hbm, 378, rfl⟩
abbrev main_v280 : Ref sig .tc := ⟨.hbm, 379, rfl⟩
abbrev main_v281 : Ref sig .tc := ⟨.hbm, 380, rfl⟩
abbrev main_v282 : Ref sig .tc := ⟨.hbm, 381, rfl⟩
abbrev main_v283 : Ref sig .tc := ⟨.hbm, 382, rfl⟩
abbrev main_v284 : Ref sig .tc := ⟨.hbm, 383, rfl⟩
abbrev main_v285 : Ref sig .tc := ⟨.hbm, 384, rfl⟩
abbrev main_v286 : Ref sig .tc := ⟨.hbm, 385, rfl⟩
abbrev main_v287 : Ref sig .tc := ⟨.hbm, 386, rfl⟩
abbrev main_cst_54 : Ref sig .tc := ⟨.hbm, 387, rfl⟩
abbrev main_v288 : Ref sig .tc := ⟨.hbm, 388, rfl⟩
abbrev main_cst_55 : Ref sig .tc := ⟨.hbm, 389, rfl⟩
abbrev main_v289 : Ref sig .tc := ⟨.hbm, 390, rfl⟩
abbrev main_v290 : Ref sig .tc := ⟨.hbm, 391, rfl⟩
abbrev main_v291 : Ref sig .tc := ⟨.hbm, 392, rfl⟩
abbrev main_cst_56 : Ref sig .tc := ⟨.hbm, 393, rfl⟩
abbrev main_call16_v0 : Ref sig .tc := ⟨.hbm, 394, rfl⟩
abbrev main_call16_v1 : Ref sig .tc := ⟨.hbm, 395, rfl⟩
abbrev main_v292 : Ref sig .tc := ⟨.hbm, 396, rfl⟩
abbrev main_cst_57 : Ref sig .tc := ⟨.hbm, 397, rfl⟩
abbrev main_v293 : Ref sig .tc := ⟨.hbm, 398, rfl⟩
abbrev main_v294 : Ref sig .tc := ⟨.hbm, 399, rfl⟩
abbrev main_v295 : Ref sig .tc := ⟨.hbm, 400, rfl⟩
abbrev main_cst_58 : Ref sig .tc := ⟨.hbm, 401, rfl⟩
abbrev main_call17_v0 : Ref sig .tc := ⟨.hbm, 402, rfl⟩
abbrev main_call17_v1 : Ref sig .tc := ⟨.hbm, 403, rfl⟩
abbrev main_v296 : Ref sig .tc := ⟨.hbm, 404, rfl⟩
abbrev main_v297 : Ref sig .tc := ⟨.hbm, 405, rfl⟩
abbrev main_v298 : Ref sig .tc := ⟨.hbm, 406, rfl⟩
abbrev main_v299 : Ref sig .tc := ⟨.hbm, 407, rfl⟩
abbrev main_v300 : Ref sig .tc := ⟨.hbm, 408, rfl⟩
abbrev main_v301 : Ref sig .tc := ⟨.hbm, 409, rfl⟩
abbrev main_c_59 : Ref sig .tc := ⟨.hbm, 410, rfl⟩
abbrev main_v302 : Ref sig .tc := ⟨.hbm, 411, rfl⟩
abbrev main_v303 : Ref sig .tc := ⟨.hbm, 412, rfl⟩
abbrev main_c_60 : Ref sig .tc := ⟨.hbm, 413, rfl⟩
abbrev main_v304 : Ref sig .tc := ⟨.hbm, 414, rfl⟩
abbrev main_v305 : Ref sig .tc := ⟨.hbm, 415, rfl⟩
abbrev main_v306 : Ref sig .tc := ⟨.hbm, 416, rfl⟩
abbrev main_v307 : Ref sig .tc := ⟨.hbm, 417, rfl⟩
abbrev main_v308 : Ref sig .tc := ⟨.hbm, 418, rfl⟩
abbrev main_cst_61 : Ref sig .tc := ⟨.hbm, 419, rfl⟩
abbrev main_v309 : Ref sig .tc := ⟨.hbm, 420, rfl⟩
abbrev main_v310 : Ref sig .tc := ⟨.hbm, 421, rfl⟩
abbrev main_v311 : Ref sig .tc := ⟨.hbm, 422, rfl⟩
abbrev main_v312 : Ref sig .tc := ⟨.hbm, 423, rfl⟩
abbrev main_v313 : Ref sig .tc := ⟨.hbm, 424, rfl⟩
abbrev main_v314 : Ref sig .tc := ⟨.hbm, 425, rfl⟩
abbrev main_v315 : Ref sig .tc := ⟨.hbm, 426, rfl⟩
abbrev main_v316 : Ref sig .tc := ⟨.hbm, 427, rfl⟩
abbrev main_v317 : Ref sig .tc := ⟨.hbm, 428, rfl⟩
abbrev main_v318 : Ref sig .tc := ⟨.hbm, 429, rfl⟩
abbrev main_v319 : Ref sig .tc := ⟨.hbm, 430, rfl⟩
abbrev main_call18_cst : Ref sig .tc := ⟨.hbm, 431, rfl⟩
abbrev main_call18_v0 : Ref sig .tc := ⟨.hbm, 432, rfl⟩
abbrev main_v320 : Ref sig .tc := ⟨.hbm, 433, rfl⟩
abbrev main_call19_cst : Ref sig .tc := ⟨.hbm, 434, rfl⟩
abbrev main_call19_v0 : Ref sig .tc := ⟨.hbm, 435, rfl⟩
abbrev main_v321 : Ref sig .tc := ⟨.hbm, 436, rfl⟩
abbrev main_v322 : Ref sig .tc := ⟨.hbm, 437, rfl⟩
abbrev main_v323 : Ref sig .tc := ⟨.hbm, 438, rfl⟩
abbrev main_v324 : Ref sig .tc := ⟨.hbm, 439, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x8000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8000x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x8000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8000x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x8000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S400x8000_S400x8000_0_0 : ∀ a, (![0, 0] : Fin 2 → Nat) a + S400x8000.size a ≤ S400x8000.size a
  h_S400x8000 : 0 < S400x8000.numel
  bitsLt_bf16_f32 : FTy.bits .bf16 < FTy.bits .f32
  inb_S8000x64_S8000x64_0_0 : ∀ a, (![0, 0] : Fin 2 → Nat) a + S8000x64.size a ≤ S8000x64.size a
  h_S8000x64 : 0 < S8000x64.numel
  inb_S400x64_S400x64_0_0 : ∀ a, (![0, 0] : Fin 2 → Nat) a + S400x64.size a ≤ S400x64.size a
  h_S400x64 : 0 < S400x64.numel
  slices_S4x524288_S1x524288_0_0 : S4x524288.Slices ![0, 0] S1x524288
  shapeCasts_S1x524288_S524288 : S1x524288.ShapeCasts S524288
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  bcast_S_S524288 : S_.BroadcastsInDim S524288 (![] : Fin 0 → Fin S524288.rank)
  bcast_S_S8000 : S_.BroadcastsInDim S8000 (![] : Fin 0 → Fin S8000.rank)
  bcast_S524288_S524288x1_0 : S524288.BroadcastsInDim S524288x1 (![0] : Fin 1 → Fin S524288x1.rank)
  bcast_S8000_S8000x1_0 : S8000.BroadcastsInDim S8000x1 (![0] : Fin 1 → Fin S8000x1.rank)
  bcast_S8000x1_S8000x64_0_1 : S8000x1.BroadcastsInDim S8000x64 (![0, 1] : Fin 2 → Fin S8000x64.rank)
  bcast_S_S8000x64 : S_.BroadcastsInDim S8000x64 (![] : Fin 0 → Fin S8000x64.rank)
  bcast_S64_S1x64_1 : S64.BroadcastsInDim S1x64 (![1] : Fin 1 → Fin S1x64.rank)
  bcast_S1x64_S8000x64_0_1 : S1x64.BroadcastsInDim S8000x64 (![0, 1] : Fin 2 → Fin S8000x64.rank)
  slices_S4x524288_S1x524288_2_0 : S4x524288.Slices ![2, 0] S1x524288
  slices_S4x64x64_S1x64x64_2_0_0 : S4x64x64.Slices ![2, 0, 0] S1x64x64
  slices_S4x64_S1x64_2_0 : S4x64.Slices ![2, 0] S1x64
  slices_S4x524288_S1x524288_1_0 : S4x524288.Slices ![1, 0] S1x524288
  slices_S4x64x64_S1x64x64_1_0_0 : S4x64x64.Slices ![1, 0, 0] S1x64x64
  slices_S4x64_S1x64_1_0 : S4x64.Slices ![1, 0] S1x64
  slices_S4x524288_S1x524288_3_0 : S4x524288.Slices ![3, 0] S1x524288
  slices_S4x64x64_S1x64x64_3_0_0 : S4x64x64.Slices ![3, 0, 0] S1x64x64
  slices_S4x64_S1x64_3_0 : S4x64.Slices ![3, 0] S1x64
  slices_S4x64x32_S1x64x32_0_0_0 : S4x64x32.Slices ![0, 0, 0] S1x64x32
  shapeCasts_S1x64x32_S64x32 : S1x64x32.ShapeCasts S64x32
  slices_S4x32_S1x32_0_0 : S4x32.Slices ![0, 0] S1x32
  shapeCasts_S1x32_S32 : S1x32.ShapeCasts S32
  bcast_S_S8000x32 : S_.BroadcastsInDim S8000x32 (![] : Fin 0 → Fin S8000x32.rank)
  bcast_S8000x1_S8000x32_0_1 : S8000x1.BroadcastsInDim S8000x32 (![0, 1] : Fin 2 → Fin S8000x32.rank)
  bcast_S32_S1x32_1 : S32.BroadcastsInDim S1x32 (![1] : Fin 1 → Fin S1x32.rank)
  bcast_S1x32_S8000x32_0_1 : S1x32.BroadcastsInDim S8000x32 (![0, 1] : Fin 2 → Fin S8000x32.rank)
  slices_S4x64x32_S1x64x32_2_0_0 : S4x64x32.Slices ![2, 0, 0] S1x64x32
  slices_S4x32_S1x32_2_0 : S4x32.Slices ![2, 0] S1x32
  slices_S4x64x32_S1x64x32_1_0_0 : S4x64x32.Slices ![1, 0, 0] S1x64x32
  slices_S4x32_S1x32_1_0 : S4x32.Slices ![1, 0] S1x32
  slices_S4x64x32_S1x64x32_3_0_0 : S4x64x32.Slices ![3, 0, 0] S1x64x32
  slices_S4x32_S1x32_3_0 : S4x32.Slices ![3, 0] S1x32
  transposes_S32x32_S32x32_1_0 : S32x32.Transposes [1, 0] S32x32
  inb_S400x32_S400x32_0_0 : ∀ a, (![0, 0] : Fin 2 → Nat) a + S400x32.size a ≤ S400x32.size a
  h_S400x32 : 0 < S400x32.numel
  shapeCasts_S400x32_S400x32 : S400x32.ShapeCasts S400x32
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  dot_S400x8000_S8000x64_S400x64_1_0_0_1_n_n_wf : DotDims.WF S400x8000 S8000x64 S400x64 [1] [0] [0] [1] [] []
  scatter_S8000_S524288x1_S524288_n_0_0_1_wf : ScatterDims.WF S8000 S524288x1 S524288 [] [0] [0] 1
  dot_S8000x64_S64x64_S8000x64_1_0_0_1_n_n_wf : DotDims.WF S8000x64 S64x64 S8000x64 [1] [0] [0] [1] [] []
  gather_S8000x64_S524288x1_S524288x64_1_0_n_n_0_1_164_wf : GatherDims.WF S8000x64 S524288x1 S524288x64 [1] [0] [] [0] [] 1 ![1, 64]
  scatter_S8000x64_S524288x1_S524288x64_1_0_0_1_wf : ScatterDims.WF S8000x64 S524288x1 S524288x64 [1] [0] [0] 1
  dot_S8000x64_S64x32_S8000x32_1_0_0_1_n_n_wf : DotDims.WF S8000x64 S64x32 S8000x32 [1] [0] [0] [1] [] []
  gather_S8000x32_S524288x1_S524288x32_1_0_n_n_0_1_132_wf : GatherDims.WF S8000x32 S524288x1 S524288x32 [1] [0] [] [0] [] 1 ![1, 32]
  scatter_S8000x32_S524288x1_S524288x32_1_0_0_1_wf : ScatterDims.WF S8000x32 S524288x1 S524288x32 [1] [0] [0] 1
  dot_S8000x32_S32x32_S8000x32_1_0_0_1_n_n_wf : DotDims.WF S8000x32 S32x32 S8000x32 [1] [0] [0] [1] [] []
  dot_S400x32_S8000x32_S400x8000_1_1_0_0_n_n_wf : DotDims.WF S400x32 S8000x32 S400x8000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x8000.size a ≤ S8000x8000.size a
  hwx0_0 : ∀ i : grid0.Coords, EltTy.bits .f32 = 32 ∨ (Rect.block (s := S8000x8000) S400x8000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S8000x64.size a
  hwx0_1 : ∀ i : grid0.Coords, EltTy.bits .f32 = 32 ∨ (Rect.block (s := S8000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x64.size a ≤ S8000x64.size a
  hwx0_2 : ∀ i : grid0.Coords, EltTy.bits .f32 = 32 ∨ (Rect.block (s := S8000x64) S400x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x8000.size a ≤ S8000x8000.size a
  hwx1_0 : ∀ i : grid1.Coords, EltTy.bits .f32 = 32 ∨ (Rect.block (s := S8000x8000) S400x8000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S8000x64.size a
  hwx1_1 : ∀ i : grid1.Coords, EltTy.bits .f32 = 32 ∨ (Rect.block (s := S8000x64) S8000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x64.size a ≤ S8000x64.size a
  hwx1_2 : ∀ i : grid1.Coords, EltTy.bits .f32 = 32 ∨ (Rect.block (s := S8000x64) S400x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x32.size a ≤ S8000x32.size a
  hwx2_0 : ∀ i : grid2.Coords, EltTy.bits .f32 = 32 ∨ (Rect.block (s := S8000x32) S400x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8000x32.size a ≤ S8000x32.size a
  hwx2_1 : ∀ i : grid2.Coords, EltTy.bits .f32 = 32 ∨ (Rect.block (s := S8000x32) S8000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x8000.size a ≤ S8000x8000.size a
  hwx2_2 : ∀ i : grid2.Coords, EltTy.bits .f32 = 32 ∨ (Rect.block (s := S8000x8000) S400x8000.size (cc2_transform_2 i) (hinb2_2 i)).WholeWords (EltTy.packing .f32)

variable [Facts₀]

def dot_S400x8000_S8000x64_S400x64_1_0_0_1_n_n : DotDims S400x8000 S8000x64 S400x64 where
  lhsContracting := [1]
  rhsContracting := [0]
  lhsNonContracting := [0]
  rhsNonContracting := [1]
  lhsBatch := []
  rhsBatch := []
  wf := dot_S400x8000_S8000x64_S400x64_1_0_0_1_n_n_wf
def scatter_S8000_S524288x1_S524288_n_0_0_1 : ScatterDims S8000 S524288x1 S524288 where
  updateWindowDims := []
  insertedWindowDims := [0]
  scatterDimsToOperandDims := [0]
  indexVectorDim := 1
  wf := scatter_S8000_S524288x1_S524288_n_0_0_1_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def gather_S8000x64_S524288x1_S524288x64_1_0_n_n_0_1_164 : GatherDims S8000x64 S524288x1 S524288x64 where
  offsetDims := [1]
  collapsedSliceDims := [0]
  operandBatchingDims := []
  startIndicesBatchingDims := []
  startIndexMap := [0]
  indexVectorDim := 1
  sliceSizes := ![1, 64]
  wf := gather_S8000x64_S524288x1_S524288x64_1_0_n_n_0_1_164_wf
def scatter_S8000x64_S524288x1_S524288x64_1_0_0_1 : ScatterDims S8000x64 S524288x1 S524288x64 where
  updateWindowDims := [1]
  insertedWindowDims := [0]
  scatterDimsToOperandDims := [0]
  indexVectorDim := 1
  wf := scatter_S8000x64_S524288x1_S524288x64_1_0_0_1_wf
def dot_S8000x64_S64x32_S8000x32_1_0_0_1_n_n : DotDims S8000x64 S64x32 S8000x32 where
  lhsContracting := [1]
  rhsContracting := [0]
  lhsNonContracting := [0]
  rhsNonContracting := [1]
  lhsBatch := []
  rhsBatch := []
  wf := dot_S8000x64_S64x32_S8000x32_1_0_0_1_n_n_wf
def gather_S8000x32_S524288x1_S524288x32_1_0_n_n_0_1_132 : GatherDims S8000x32 S524288x1 S524288x32 where
  offsetDims := [1]
  collapsedSliceDims := [0]
  operandBatchingDims := []
  startIndicesBatchingDims := []
  startIndexMap := [0]
  indexVectorDim := 1
  sliceSizes := ![1, 32]
  wf := gather_S8000x32_S524288x1_S524288x32_1_0_n_n_0_1_132_wf
def scatter_S8000x32_S524288x1_S524288x32_1_0_0_1 : ScatterDims S8000x32 S524288x1 S524288x32 where
  updateWindowDims := [1]
  insertedWindowDims := [0]
  scatterDimsToOperandDims := [0]
  indexVectorDim := 1
  wf := scatter_S8000x32_S524288x1_S524288x32_1_0_0_1_wf
def dot_S8000x32_S32x32_S8000x32_1_0_0_1_n_n : DotDims S8000x32 S32x32 S8000x32 where
  lhsContracting := [1]
  rhsContracting := [0]
  lhsNonContracting := [0]
  rhsNonContracting := [1]
  lhsBatch := []
  rhsBatch := []
  wf := dot_S8000x32_S32x32_S8000x32_1_0_0_1_n_n_wf
def dot_S400x32_S8000x32_S400x8000_1_1_0_0_n_n : DotDims S400x32 S8000x32 S400x8000 where
  lhsContracting := [1]
  rhsContracting := [1]
  lhsNonContracting := [0]
  rhsNonContracting := [0]
  lhsBatch := []
  rhsBatch := []
  wf := dot_S400x32_S8000x32_S400x8000_1_1_0_0_n_n_wf

abbrev win0_0 : Pipeline.Window sig grid0 :=
  Pipeline.Window.ofSpec (Memref.whole main_arg0) S400x8000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S400x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x8000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S8000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S400x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v323) S400x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v321) S8000x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v324) S400x8000.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8000x8000 : Shape := ⟨2, ![8000, 8000]⟩
abbrev S8000x64 : Shape := ⟨2, ![8000, 64]⟩
abbrev S4x64x64 : Shape := ⟨3, ![4, 64, 64]⟩
abbrev S4x64 : Shape := ⟨2, ![4, 64]⟩
abbrev S4x64x32 : Shape := ⟨3, ![4, 64, 32]⟩
abbrev S4x32 : Shape := ⟨2, ![4, 32]⟩
abbrev S32x32 : Shape := ⟨2, ![32, 32]⟩
abbrev S4x524288 : Shape := ⟨2, ![4, 524288]⟩
abbrev S1x524288 : Shape := ⟨2, ![1, 524288]⟩
abbrev S524288 : Shape := ⟨1, ![524288]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S_ : Shape := ⟨0, ![]⟩
abbrev S8000 : Shape := ⟨1, ![8000]⟩
abbrev S524288x1 : Shape := ⟨2, ![524288, 1]⟩
abbrev S8000x1 : Shape := ⟨2, ![8000, 1]⟩
abbrev S524288x64 : Shape := ⟨2, ![524288, 64]⟩
abbrev S1x64x32 : Shape := ⟨3, ![1, 64, 32]⟩
abbrev S64x32 : Shape := ⟨2, ![64, 32]⟩
abbrev S1x32 : Shape := ⟨2, ![1, 32]⟩
abbrev S32 : Shape := ⟨1, ![32]⟩
abbrev S8000x32 : Shape := ⟨2, ![8000, 32]⟩
abbrev S524288x32 : Shape := ⟨2, ![524288, 32]⟩
abbrev S32x8000 : Shape := ⟨2, ![32, 8000]⟩

abbrev nBuf : Space → Nat
  | .hbm => 441
  | .vmem => 0
  | .smem => 0
  | _ => 0

abbrev hbmTy0_0 (i : Nat) : BufTy := match i % 128 with
  | 0 => ⟨S8000x8000, .f32⟩
  | 1 => ⟨S8000x8000, .f32⟩
  | 2 => ⟨S8000x64, .f32⟩
  | 3 => ⟨S8000x64, .f32⟩
  | 4 => ⟨S4x64x64, .f32⟩
  | 5 => ⟨S4x64, .f32⟩
  | 6 => ⟨S4x64x32, .f32⟩
  | 7 => ⟨S4x32, .f32⟩
  | 8 => ⟨S32x32, .f32⟩
  | 9 => ⟨S4x524288, .i32⟩
  | 10 => ⟨S4x524288, .i32⟩
  | 11 => ⟨S8000x64, .f32⟩
  | 12 => ⟨S8000x64, .f32⟩
  | 13 => ⟨S1x524288, .i32⟩
  | 14 => ⟨S524288, .i32⟩
  | 15 => ⟨S1x524288, .i32⟩
  | 16 => ⟨S524288, .i32⟩
  | 17 => ⟨S1x64x64, .f32⟩
  | 18 => ⟨S64x64, .f32⟩
  | 19 => ⟨S1x64, .f32⟩
  | 20 => ⟨S64, .f32⟩
  | 21 => ⟨S_, .f32⟩
  | 22 => ⟨S524288, .f32⟩
  | 23 => ⟨S_, .f32⟩
  | 24 => ⟨S8000, .f32⟩
  | 25 => ⟨S524288x1, .i32⟩
  | 26 => ⟨S8000, .f32⟩
  | 27 => ⟨S_, .f32⟩
  | 28 => ⟨S_, .f32⟩
  | 29 => ⟨S8000, .f32⟩
  | 30 => ⟨S8000, .f32⟩
  | 31 => ⟨S_, .f32⟩
  | 32 => ⟨S8000, .f32⟩
  | 33 => ⟨S524288x1, .i32⟩
  | 34 => ⟨S8000, .f32⟩
  | 35 => ⟨S_, .f32⟩
  | 36 => ⟨S_, .f32⟩
  | 37 => ⟨S8000, .f32⟩
  | 38 => ⟨S8000, .f32⟩
  | 39 => ⟨S8000, .f32⟩
  | 40 => ⟨S8000x1, .f32⟩
  | 41 => ⟨S8000x64, .f32⟩
  | 42 => ⟨S8000x64, .f32⟩
  | 43 => ⟨S8000x64, .f32⟩
  | 44 => ⟨S_, .i32⟩
  | 45 => ⟨S524288, .i32⟩
  | 46 => ⟨S524288, .i1⟩
  | 47 => ⟨S_, .i32⟩
  | 48 => ⟨S524288, .i32⟩
  | 49 => ⟨S524288, .i32⟩
  | 50 => ⟨S524288, .i32⟩
  | 51 => ⟨S524288x1, .i32⟩
  | 52 => ⟨S524288x64, .f32⟩
  | 53 => ⟨S_, .f32⟩
  | 54 => ⟨S8000x64, .f32⟩
  | 55 => ⟨S524288x1, .i32⟩
  | 56 => ⟨S8000x64, .f32⟩
  | 57 => ⟨S8000, .f32⟩
  | 58 => ⟨S8000x1, .f32⟩
  | 59 => ⟨S8000x64, .f32⟩
  | 60 => ⟨S8000x64, .f32⟩
  | 61 => ⟨S1x64, .f32⟩
  | 62 => ⟨S8000x64, .f32⟩
  | 63 => ⟨S8000x64, .f32⟩
  | 64 => ⟨S1x524288, .i32⟩
  | 65 => ⟨S524288, .i32⟩
  | 66 => ⟨S1x524288, .i32⟩
  | 67 => ⟨S524288, .i32⟩
  | 68 => ⟨S1x64x64, .f32⟩
  | 69 => ⟨S64x64, .f32⟩
  | 70 => ⟨S1x64, .f32⟩
  | 71 => ⟨S64, .f32⟩
  | 72 => ⟨S_, .f32⟩
  | 73 => ⟨S524288, .f32⟩
  | 74 => ⟨S_, .f32⟩
  | 75 => ⟨S8000, .f32⟩
  | 76 => ⟨S524288x1, .i32⟩
  | 77 => ⟨S8000, .f32⟩
  | 78 => ⟨S_, .f32⟩
  | 79 => ⟨S_, .f32⟩
  | 80 => ⟨S8000, .f32⟩
  | 81 => ⟨S8000, .f32⟩
  | 82 => ⟨S_, .f32⟩
  | 83 => ⟨S8000, .f32⟩
  | 84 => ⟨S524288x1, .i32⟩
  | 85 => ⟨S8000, .f32⟩
  | 86 => ⟨S_, .f32⟩
  | 87 => ⟨S_, .f32⟩
  | 88 => ⟨S8000, .f32⟩
  | 89 => ⟨S8000, .f32⟩
  | 90 => ⟨S8000, .f32⟩
  | 91 => ⟨S8000x1, .f32⟩
  | 92 => ⟨S8000x64, .f32⟩
  | 93 => ⟨S8000x64, .f32⟩
  | 94 => ⟨S8000x64, .f32⟩
  | 95 => ⟨S_, .i32⟩
  | 96 => ⟨S524288, .i32⟩
  | 97 => ⟨S524288, .i1⟩
  | 98 => ⟨S_, .i32⟩
  | 99 => ⟨S524288, .i32⟩
  | 100 => ⟨S524288, .i32⟩
  | 101 => ⟨S524288, .i32⟩
  | 102 => ⟨S524288x1, .i32⟩
  | 103 => ⟨S524288x64, .f32⟩
  | 104 => ⟨S_, .f32⟩
  | 105 => ⟨S8000x64, .f32⟩
  | 106 => ⟨S524288x1, .i32⟩
  | 107 => ⟨S8000x64, .f32⟩
  | 108 => ⟨S8000, .f32⟩
  | 109 => ⟨S8000x1, .f32⟩
  | 110 => ⟨S8000x64, .f32⟩
  | 111 => ⟨S8000x64, .f32⟩
  | 112 => ⟨S1x64, .f32⟩
  | 113 => ⟨S8000x64, .f32⟩
  | 114 => ⟨S8000x64, .f32⟩
  | 115 => ⟨S8000x64, .f32⟩
  | 116 => ⟨S1x524288, .i32⟩
  | 117 => ⟨S524288, .i32⟩
  | 118 => ⟨S1x524288, .i32⟩
  | 119 => ⟨S524288, .i32⟩
  | 120 => ⟨S1x64x64, .f32⟩
  | 121 => ⟨S64x64, .f32⟩
  | 122 => ⟨S1x64, .f32⟩
  | 123 => ⟨S64, .f32⟩
  | 124 => ⟨S_, .f32⟩
  | 125 => ⟨S524288, .f32⟩
  | 126 => ⟨S_, .f32⟩
  | 127 => ⟨S8000, .f32⟩
  | _ => ⟨S8000x8000, .f32⟩

abbrev hbmTy0_1 (i : Nat) : BufTy := match i % 128 with
  | 0 => ⟨S524288x1, .i32⟩
  | 1 => ⟨S8000, .f32⟩
  | 2 => ⟨S_, .f32⟩
  | 3 => ⟨S_, .f32⟩
  | 4 => ⟨S8000, .f32⟩
  | 5 => ⟨S8000, .f32⟩
  | 6 => ⟨S_, .f32⟩
  | 7 => ⟨S8000, .f32⟩
  | 8 => ⟨S524288x1, .i32⟩
  | 9 => ⟨S8000, .f32⟩
  | 10 => ⟨S_, .f32⟩
  | 11 => ⟨S_, .f32⟩
  | 12 => ⟨S8000, .f32⟩
  | 13 => ⟨S8000, .f32⟩
  | 14 => ⟨S8000, .f32⟩
  | 15 => ⟨S8000x1, .f32⟩
  | 16 => ⟨S8000x64, .f32⟩
  | 17 => ⟨S8000x64, .f32⟩
  | 18 => ⟨S8000x64, .f32⟩
  | 19 => ⟨S_, .i32⟩
  | 20 => ⟨S524288, .i32⟩
  | 21 => ⟨S524288, .i1⟩
  | 22 => ⟨S_, .i32⟩
  | 23 => ⟨S524288, .i32⟩
  | 24 => ⟨S524288, .i32⟩
  | 25 => ⟨S524288, .i32⟩
  | 26 => ⟨S524288x1, .i32⟩
  | 27 => ⟨S524288x64, .f32⟩
  | 28 => ⟨S_, .f32⟩
  | 29 => ⟨S8000x64, .f32⟩
  | 30 => ⟨S524288x1, .i32⟩
  | 31 => ⟨S8000x64, .f32⟩
  | 32 => ⟨S8000, .f32⟩
  | 33 => ⟨S8000x1, .f32⟩
  | 34 => ⟨S8000x64, .f32⟩
  | 35 => ⟨S8000x64, .f32⟩
  | 36 => ⟨S1x64, .f32⟩
  | 37 => ⟨S8000x64, .f32⟩
  | 38 => ⟨S8000x64, .f32⟩
  | 39 => ⟨S1x524288, .i32⟩
  | 40 => ⟨S524288, .i32⟩
  | 41 => ⟨S1x524288, .i32⟩
  | 42 => ⟨S524288, .i32⟩
  | 43 => ⟨S1x64x64, .f32⟩
  | 44 => ⟨S64x64, .f32⟩
  | 45 => ⟨S1x64, .f32⟩
  | 46 => ⟨S64, .f32⟩
  | 47 => ⟨S_, .f32⟩
  | 48 => ⟨S524288, .f32⟩
  | 49 => ⟨S_, .f32⟩
  | 50 => ⟨S8000, .f32⟩
  | 51 => ⟨S524288x1, .i32⟩
  | 52 => ⟨S8000, .f32⟩
  | 53 => ⟨S_, .f32⟩
  | 54 => ⟨S_, .f32⟩
  | 55 => ⟨S8000, .f32⟩
  | 56 => ⟨S8000, .f32⟩
  | 57 => ⟨S_, .f32⟩
  | 58 => ⟨S8000, .f32⟩
  | 59 => ⟨S524288x1, .i32⟩
  | 60 => ⟨S8000, .f32⟩
  | 61 => ⟨S_, .f32⟩
  | 62 => ⟨S_, .f32⟩
  | 63 => ⟨S8000, .f32⟩
  | 64 => ⟨S8000, .f32⟩
  | 65 => ⟨S8000, .f32⟩
  | 66 => ⟨S8000x1, .f32⟩
  | 67 => ⟨S8000x64, .f32⟩
  | 68 => ⟨S8000x64, .f32⟩
  | 69 => ⟨S8000x64, .f32⟩
  | 70 => ⟨S_, .i32⟩
  | 71 => ⟨S524288, .i32⟩
  | 72 => ⟨S524288, .i1⟩
  | 73 => ⟨S_, .i32⟩
  | 74 => ⟨S524288, .i32⟩
  | 75 => ⟨S524288, .i32⟩
  | 76 => ⟨S524288, .i32⟩
  | 77 => ⟨S524288x1, .i32⟩
  | 78 => ⟨S524288x64, .f32⟩
  | 79 => ⟨S_, .f32⟩
  | 80 => ⟨S8000x64, .f32⟩
  | 81 => ⟨S524288x1, .i32⟩
  | 82 => ⟨S8000x64, .f32⟩
  | 83 => ⟨S8000, .f32⟩
  | 84 => ⟨S8000x1, .f32⟩
  | 85 => ⟨S8000x64, .f32⟩
  | 86 => ⟨S8000x64, .f32⟩
  | 87 => ⟨S1x64, .f32⟩
  | 88 => ⟨S8000x64, .f32⟩
  | 89 => ⟨S8000x64, .f32⟩
  | 90 => ⟨S8000x64, .f32⟩
  | 91 => ⟨S_, .f32⟩
  | 92 => ⟨S8000x64, .f32⟩
  | 93 => ⟨S8000x64, .f32⟩
  | 94 => ⟨S_, .f32⟩
  | 95 => ⟨S8000x64, .f32⟩
  | 96 => ⟨S8000x64, .f32⟩
  | 97 => ⟨S1x524288, .i32⟩
  | 98 => ⟨S524288, .i32⟩
  | 99 => ⟨S1x524288, .i32⟩
  | 100 => ⟨S524288, .i32⟩
  | 101 => ⟨S1x64x32, .f32⟩
  | 102 => ⟨S64x32, .f32⟩
  | 103 => ⟨S1x32, .f32⟩
  | 104 => ⟨S32, .f32⟩
  | 105 => ⟨S_, .f32⟩
  | 106 => ⟨S524288, .f32⟩
  | 107 => ⟨S_, .f32⟩
  | 108 => ⟨S8000, .f32⟩
  | 109 => ⟨S524288x1, .i32⟩
  | 110 => ⟨S8000, .f32⟩
  | 111 => ⟨S_, .f32⟩
  | 112 => ⟨S_, .f32⟩
  | 113 => ⟨S8000, .f32⟩
  | 114 => ⟨S8000, .f32⟩
  | 115 => ⟨S_, .f32⟩
  | 116 => ⟨S8000, .f32⟩
  | 117 => ⟨S524288x1, .i32⟩
  | 118 => ⟨S8000, .f32⟩
  | 119 => ⟨S_, .f32⟩
  | 120 => ⟨S_, .f32⟩
  | 121 => ⟨S8000, .f32⟩
  | 122 => ⟨S8000, .f32⟩
  | 123 => ⟨S8000, .f32⟩
  | 124 => ⟨S8000x1, .f32⟩
  | 125 => ⟨S8000x64, .f32⟩
  | 126 => ⟨S8000x64, .f32⟩
  | 127 => ⟨S8000x32, .f32⟩
  | _ => ⟨S8000x8000, .f32⟩

abbrev hbmTy0_2 (i : Nat) : BufTy := match i % 128 with
  | 0 => ⟨S_, .i32⟩
  | 1 => ⟨S524288, .i32⟩
  | 2 => ⟨S524288, .i1⟩
  | 3 => ⟨S_, .i32⟩
  | 4 => ⟨S524288, .i32⟩
  | 5 => ⟨S524288, .i32⟩
  | 6 => ⟨S524288, .i32⟩
  | 7 => ⟨S524288x1, .i32⟩
  | 8 => ⟨S524288x32, .f32⟩
  | 9 => ⟨S_, .f32⟩
  | 10 => ⟨S8000x32, .f32⟩
  | 11 => ⟨S524288x1, .i32⟩
  | 12 => ⟨S8000x32, .f32⟩
  | 13 => ⟨S8000, .f32⟩
  | 14 => ⟨S8000x1, .f32⟩
  | 15 => ⟨S8000x32, .f32⟩
  | 16 => ⟨S8000x32, .f32⟩
  | 17 => ⟨S1x32, .f32⟩
  | 18 => ⟨S8000x32, .f32⟩
  | 19 => ⟨S8000x32, .f32⟩
  | 20 => ⟨S1x524288, .i32⟩
  | 21 => ⟨S524288, .i32⟩
  | 22 => ⟨S1x524288, .i32⟩
  | 23 => ⟨S524288, .i32⟩
  | 24 => ⟨S1x64x32, .f32⟩
  | 25 => ⟨S64x32, .f32⟩
  | 26 => ⟨S1x32, .f32⟩
  | 27 => ⟨S32, .f32⟩
  | 28 => ⟨S_, .f32⟩
  | 29 => ⟨S524288, .f32⟩
  | 30 => ⟨S_, .f32⟩
  | 31 => ⟨S8000, .f32⟩
  | 32 => ⟨S524288x1, .i32⟩
  | 33 => ⟨S8000, .f32⟩
  | 34 => ⟨S_, .f32⟩
  | 35 => ⟨S_, .f32⟩
  | 36 => ⟨S8000, .f32⟩
  | 37 => ⟨S8000, .f32⟩
  | 38 => ⟨S_, .f32⟩
  | 39 => ⟨S8000, .f32⟩
  | 40 => ⟨S524288x1, .i32⟩
  | 41 => ⟨S8000, .f32⟩
  | 42 => ⟨S_, .f32⟩
  | 43 => ⟨S_, .f32⟩
  | 44 => ⟨S8000, .f32⟩
  | 45 => ⟨S8000, .f32⟩
  | 46 => ⟨S8000, .f32⟩
  | 47 => ⟨S8000x1, .f32⟩
  | 48 => ⟨S8000x64, .f32⟩
  | 49 => ⟨S8000x64, .f32⟩
  | 50 => ⟨S8000x32, .f32⟩
  | 51 => ⟨S_, .i32⟩
  | 52 => ⟨S524288, .i32⟩
  | 53 => ⟨S524288, .i1⟩
  | 54 => ⟨S_, .i32⟩
  | 55 => ⟨S524288, .i32⟩
  | 56 => ⟨S524288, .i32⟩
  | 57 => ⟨S524288, .i32⟩
  | 58 => ⟨S524288x1, .i32⟩
  | 59 => ⟨S524288x32, .f32⟩
  | 60 => ⟨S_, .f32⟩
  | 61 => ⟨S8000x32, .f32⟩
  | 62 => ⟨S524288x1, .i32⟩
  | 63 => ⟨S8000x32, .f32⟩
  | 64 => ⟨S8000, .f32⟩
  | 65 => ⟨S8000x1, .f32⟩
  | 66 => ⟨S8000x32, .f32⟩
  | 67 => ⟨S8000x32, .f32⟩
  | 68 => ⟨S1x32, .f32⟩
  | 69 => ⟨S8000x32, .f32⟩
  | 70 => ⟨S8000x32, .f32⟩
  | 71 => ⟨S8000x32, .f32⟩
  | 72 => ⟨S1x524288, .i32⟩
  | 73 => ⟨S524288, .i32⟩
  | 74 => ⟨S1x524288, .i32⟩
  | 75 => ⟨S524288, .i32⟩
  | 76 => ⟨S1x64x32, .f32⟩
  | 77 => ⟨S64x32, .f32⟩
  | 78 => ⟨S1x32, .f32⟩
  | 79 => ⟨S32, .f32⟩
  | 80 => ⟨S_, .f32⟩
  | 81 => ⟨S524288, .f32⟩
  | 82 => ⟨S_, .f32⟩
  | 83 => ⟨S8000, .f32⟩
  | 84 => ⟨S524288x1, .i32⟩
  | 85 => ⟨S8000, .f32⟩
  | 86 => ⟨S_, .f32⟩
  | 87 => ⟨S_, .f32⟩
  | 88 => ⟨S8000, .f32⟩
  | 89 => ⟨S8000, .f32⟩
  | 90 => ⟨S_, .f32⟩
  | 91 => ⟨S8000, .f32⟩
  | 92 => ⟨S524288x1, .i32⟩
  | 93 => ⟨S8000, .f32⟩
  | 94 => ⟨S_, .f32⟩
  | 95 => ⟨S_, .f32⟩
  | 96 => ⟨S8000, .f32⟩
  | 97 => ⟨S8000, .f32⟩
  | 98 => ⟨S8000, .f32⟩
  | 99 => ⟨S8000x1, .f32⟩
  | 100 => ⟨S8000x64, .f32⟩
  | 101 => ⟨S8000x64, .f32⟩
  | 102 => ⟨S8000x32, .f32⟩
  | 103 => ⟨S_, .i32⟩
  | 104 => ⟨S524288, .i32⟩
  | 105 => ⟨S524288, .i1⟩
  | 106 => ⟨S_, .i32⟩
  | 107 => ⟨S524288, .i32⟩
  | 108 => ⟨S524288, .i32⟩
  | 109 => ⟨S524288, .i32⟩
  | 110 => ⟨S524288x1, .i32⟩
  | 111 => ⟨S524288x32, .f32⟩
  | 112 => ⟨S_, .f32⟩
  | 113 => ⟨S8000x32, .f32⟩
  | 114 => ⟨S524288x1, .i32⟩
  | 115 => ⟨S8000x32, .f32⟩
  | 116 => ⟨S8000, .f32⟩
  | 117 => ⟨S8000x1, .f32⟩
  | 118 => ⟨S8000x32, .f32⟩
  | 119 => ⟨S8000x32, .f32⟩
  | 120 => ⟨S1x32, .f32⟩
  | 121 => ⟨S8000x32, .f32⟩
  | 122 => ⟨S8000x32, .f32⟩
  | 123 => ⟨S1x524288, .i32⟩
  | 124 => ⟨S524288, .i32⟩
  | 125 => ⟨S1x524288, .i32⟩
  | 126 => ⟨S524288, .i32⟩
  | 127 => ⟨S1x64x32, .f32⟩
  | _ => ⟨S8000x8000, .f32⟩

abbrev hbmTy0_3 (i : Nat) : BufTy := match i % 128 with
  | 0 => ⟨S64x32, .f32⟩
  | 1 => ⟨S1x32, .f32⟩
  | 2 => ⟨S32, .f32⟩
  | 3 => ⟨S_, .f32⟩
  | 4 => ⟨S524288, .f32⟩
  | 5 => ⟨S_, .f32⟩
  | 6 => ⟨S8000, .f32⟩
  | 7 => ⟨S524288x1, .i32⟩
  | 8 => ⟨S8000, .f32⟩
  | 9 => ⟨S_, .f32⟩
  | 10 => ⟨S_, .f32⟩
  | 11 => ⟨S8000, .f32⟩
  | 12 => ⟨S8000, .f32⟩
  | 13 => ⟨S_, .f32⟩
  | 14 => ⟨S8000, .f32⟩
  | 15 => ⟨S524288x1, .i32⟩
  | 16 => ⟨S8000, .f32⟩
  | 17 => ⟨S_, .f32⟩
  | 18 => ⟨S_, .f32⟩
  | 19 => ⟨S8000, .f32⟩
  | 20 => ⟨S8000, .f32⟩
  | 21 => ⟨S8000, .f32⟩
  | 22 => ⟨S8000x1, .f32⟩
  | 23 => ⟨S8000x64, .f32⟩
  | 24 => ⟨S8000x64, .f32⟩
  | 25 => ⟨S8000x32, .f32⟩
  | 26 => ⟨S_, .i32⟩
  | 27 => ⟨S524288, .i32⟩
  | 28 => ⟨S524288, .i1⟩
  | 29 => ⟨S_, .i32⟩
  | 30 => ⟨S524288, .i32⟩
  | 31 => ⟨S524288, .i32⟩
  | 32 => ⟨S524288, .i32⟩
  | 33 => ⟨S524288x1, .i32⟩
  | 34 => ⟨S524288x32, .f32⟩
  | 35 => ⟨S_, .f32⟩
  | 36 => ⟨S8000x32, .f32⟩
  | 37 => ⟨S524288x1, .i32⟩
  | 38 => ⟨S8000x32, .f32⟩
  | 39 => ⟨S8000, .f32⟩
  | 40 => ⟨S8000x1, .f32⟩
  | 41 => ⟨S8000x32, .f32⟩
  | 42 => ⟨S8000x32, .f32⟩
  | 43 => ⟨S1x32, .f32⟩
  | 44 => ⟨S8000x32, .f32⟩
  | 45 => ⟨S8000x32, .f32⟩
  | 46 => ⟨S8000x32, .f32⟩
  | 47 => ⟨S_, .f32⟩
  | 48 => ⟨S8000x32, .f32⟩
  | 49 => ⟨S8000x32, .f32⟩
  | 50 => ⟨S_, .f32⟩
  | 51 => ⟨S8000x32, .f32⟩
  | 52 => ⟨S8000x32, .f32⟩
  | 53 => ⟨S32x32, .f32⟩
  | 54 => ⟨S8000x32, .f32⟩
  | 55 => ⟨S32x8000, .f32⟩
  | 56 => ⟨S8000x8000, .f32⟩
  | _ => ⟨S8000x8000, .f32⟩

abbrev hbmTy (i : Nat) : BufTy := match i / 128 with
  | 0 => hbmTy0_0 i
  | 1 => hbmTy0_1 i
  | 2 => hbmTy0_2 i
  | 3 => hbmTy0_3 i
  | _ => ⟨S8000x8000, .f32⟩

abbrev bufTy : (tb : Table) → Fin (tcTables nBuf tb) → BufTy
  | .hbm, ⟨i, _⟩ => hbmTy i
  | _, _ => ⟨S8000x8000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c : Ref sig .tc := ⟨.hbm, 44, rfl⟩
abbrev main_v24 : Ref sig .tc := ⟨.hbm, 45, rfl⟩
abbrev main_v25 : Ref sig .tc := ⟨.hbm, 46, rfl⟩
abbrev main_c_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_6 : Ref sig .tc := ⟨.hbm, 72, rfl⟩
abbrev main_v49 : Ref sig .tc := ⟨.hbm, 73, rfl⟩
abbrev main_cst_7 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_8 : Ref sig .tc := ⟨.hbm, 78, rfl⟩
abbrev main_call2_v0 : Ref sig .tc := ⟨.hbm, 79, rfl⟩
abbrev main_call2_v1 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_10 : Ref sig .tc := ⟨.hbm, 86, rfl⟩
abbrev main_call3_v0 : Ref sig .tc := ⟨.hbm, 87, rfl⟩
abbrev main_call3_v1 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_11 : Ref sig .tc := ⟨.hbm, 95, rfl⟩
abbrev main_v63 : Ref sig .tc := ⟨.hbm, 96, rfl⟩
abbrev main_v64 : Ref sig .tc := ⟨.hbm, 97, rfl⟩
abbrev main_c_12 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_13 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_14 : Ref sig .tc := ⟨.hbm, 124, rfl⟩
abbrev main_v89 : Ref sig .tc := ⟨.hbm, 125, rfl⟩
abbrev main_cst_15 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_16 : Ref sig .tc := ⟨.hbm, 130, rfl⟩
abbrev main_call4_v0 : Ref sig .tc := ⟨.hbm, 131, rfl⟩
abbrev main_call4_v1 : Ref sig .tc := ⟨.hbm, 132, rfl⟩
abbrev main_v93 : Ref sig .tc := ⟨.hbm, 133, rfl⟩
abbrev main_cst_17 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_18 : Ref sig .tc := ⟨.hbm, 138, rfl⟩
abbrev main_call5_v0 : Ref sig .tc := ⟨.hbm, 139, rfl⟩
abbrev main_call5_v1 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_c_19 : Ref sig .tc := ⟨.hbm, 147, rfl⟩
abbrev main_v103 : Ref sig .tc := ⟨.hbm, 148, rfl⟩
abbrev main_v104 : Ref sig .tc := ⟨.hbm, 149, rfl⟩
abbrev main_c_20 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_21 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_cst_22 : Ref sig .tc := ⟨.hbm, 175, rfl⟩
abbrev main_v128 : Ref sig .tc := ⟨.hbm, 176, rfl⟩
abbrev main_cst_23 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_cst_24 : Ref sig .tc := ⟨.hbm, 181, rfl⟩
abbrev main_call6_v0 : Ref sig .tc := ⟨.hbm, 182, rfl⟩
abbrev main_call6_v1 : Ref sig .tc := ⟨.hbm, 183, rfl⟩
abbrev main_v132 : Ref sig .tc := ⟨.hbm, 184, rfl⟩
abbrev main_cst_25 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_cst_26 : Ref sig .tc := ⟨.hbm, 189, rfl⟩
abbrev main_call7_v0 : Ref sig .tc := ⟨.hbm, 190, rfl⟩
abbrev main_call7_v1 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_c_27 : Ref sig .tc := ⟨.hbm, 198, rfl⟩
abbrev main_v142 : Ref sig .tc := ⟨.hbm, 199, rfl⟩
abbrev main_v143 : Ref sig .tc := ⟨.hbm, 200, rfl⟩
abbrev main_c_28 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_cst_29 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_call8_cst : Ref sig .tc := ⟨.hbm, 219, rfl⟩
abbrev main_call8_v0 : Ref sig .tc := ⟨.hbm, 220, rfl⟩
abbrev main_v160 : Ref sig .tc := ⟨.hbm, 221, rfl⟩
abbrev main_call9_cst : Ref sig .tc := ⟨.hbm, 222, rfl⟩
abbrev main_call9_v0 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_cst_30 : Ref sig .tc := ⟨.hbm, 233, rfl⟩
abbrev main_v170 : Ref sig .tc := ⟨.hbm, 234, rfl⟩
abbrev main_cst_31 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_cst_32 : Ref sig .tc := ⟨.hbm, 239, rfl⟩
abbrev main_call10_v0 : Ref sig .tc := ⟨.hbm, 240, rfl⟩
abbrev main_call10_v1 : Ref sig .tc := ⟨.hbm, 241, rfl⟩
abbrev main_v174 : Ref sig .tc := ⟨.hbm, 242, rfl⟩
abbrev main_cst_33 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_cst_34 : Ref sig .tc := ⟨.hbm, 247, rfl⟩
abbrev main_call11_v0 : Ref sig .tc := ⟨.hbm, 248, rfl⟩
abbrev main_call11_v1 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_c_35 : Ref sig .tc := ⟨.hbm, 256, rfl⟩
abbrev main_v184 : Ref sig .tc := ⟨.hbm, 257, rfl⟩
abbrev main_v185 : Ref sig .tc := ⟨.hbm, 258, rfl⟩
abbrev main_c_36 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_cst_37 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_v203 : Ref sig .tc := ⟨.hbm, 278, rfl⟩
abbrev main_v204 : Ref sig .tc := ⟨.hbm, 279, rfl⟩
abbrev main_v205 : Ref sig .tc := ⟨.hbm, 280, rfl⟩
abbrev main_v206 : Ref sig .tc := ⟨.hbm, 281, rfl⟩
abbrev main_v207 : Ref sig .tc := ⟨.hbm, 282, rfl⟩
abbrev main_v208 : Ref sig .tc := ⟨.hbm, 283, rfl⟩
abbrev main_cst_38 : Ref sig .tc := ⟨.hbm, 284, rfl⟩
abbrev main_v209 : Ref sig .tc := ⟨.hbm, 285, rfl⟩
abbrev main_cst_39 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_cst_40 : Ref sig .tc := ⟨.hbm, 290, rfl⟩
abbrev main_call12_v0 : Ref sig .tc := ⟨.hbm, 291, rfl⟩
abbrev main_call12_v1 : Ref sig .tc := ⟨.hbm, 292, rfl⟩
abbrev main_v213 : Ref sig .tc := ⟨.hbm, 293, rfl⟩
abbrev main_cst_41 : Ref sig .tc := ⟨.hbm, 294, rfl⟩
abbrev main_v214 : Ref sig .tc := ⟨.hbm, 295, rfl⟩
abbrev main_v215 : Ref sig .tc := ⟨.hbm, 296, rfl⟩
abbrev main_v216 : Ref sig .tc := ⟨.hbm, 297, rfl⟩
abbrev main_cst_42 : Ref sig .tc := ⟨.hbm, 298, rfl⟩
abbrev main_call13_v0 : Ref sig .tc := ⟨.hbm, 299, rfl⟩
abbrev main_call13_v1 : Ref sig .tc := ⟨.hbm, 300, rfl⟩
abbrev main_v217 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_v222 : Ref sig .tc := ⟨.hbm, 306, rfl⟩
abbrev main_c_43 : Ref sig .tc := ⟨.hbm, 307, rfl⟩
abbrev main_v223 : Ref sig .tc := ⟨.hbm, 308, rfl⟩
abbrev main_v224 : Ref sig .tc := ⟨.hbm, 309, rfl⟩
abbrev main_c_44 : Ref sig .tc := ⟨.hbm, 310, rfl⟩
abbrev main_v225 : Ref sig .tc := ⟨.hbm, 311, rfl⟩
abbrev main_v226 : Ref sig .tc := ⟨.hbm, 312, rfl⟩
abbrev main_v227 : Ref sig .tc := ⟨.hbm, 313, rfl⟩
abbrev main_v228 : Ref sig .tc := ⟨.hbm, 314, rfl⟩
abbrev main_v229 : Ref sig .tc := ⟨.hbm, 315, rfl⟩
abbrev main_cst_45 : Ref sig .tc := ⟨.hbm, 316, rfl⟩
abbrev main_v230 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_v234 : Ref sig .tc := ⟨.hbm, 321, rfl⟩
abbrev main_v235 : Ref sig .tc := ⟨.hbm, 322, rfl⟩
abbrev main_v236 : Ref sig .tc := ⟨.hbm, 323, rfl⟩
abbrev main_v237 : Ref sig .tc := ⟨.hbm, 324, rfl⟩
abbrev main_v238 : Ref sig .tc := ⟨.hbm, 325, rfl⟩
abbrev main_v239 : Ref sig .tc := ⟨.hbm, 326, rfl⟩
abbrev main_v240 : Ref sig .tc := ⟨.hbm, 327, rfl⟩
abbrev main_v241 : Ref sig .tc := ⟨.hbm, 328, rfl⟩
abbrev main_v242 : Ref sig .tc := ⟨.hbm, 329, rfl⟩
abbrev main_v243 : Ref sig .tc := ⟨.hbm, 330, rfl⟩
abbrev main_v244 : Ref sig .tc := ⟨.hbm, 331, rfl⟩
abbrev main_v245 : Ref sig .tc := ⟨.hbm, 332, rfl⟩
abbrev main_v246 : Ref sig .tc := ⟨.hbm, 333, rfl⟩
abbrev main_v247 : Ref sig .tc := ⟨.hbm, 334, rfl⟩
abbrev main_v248 : Ref sig .tc := ⟨.hbm, 335, rfl⟩
abbrev main_cst_46 : Ref sig .tc := ⟨.hbm, 336, rfl⟩
abbrev main_v249 : Ref sig .tc := ⟨.hbm, 337, rfl⟩
abbrev main_cst_47 : Ref sig .tc := ⟨.hbm, 338, rfl⟩
abbrev main_v250 : Ref sig .tc := ⟨.hbm, 339, rfl⟩
abbrev main_v251 : Ref sig .tc := ⟨.hbm, 340, rfl⟩
abbrev main_v252 : Ref sig .tc := ⟨.hbm, 341, rfl⟩
abbrev main_cst_48 : Ref sig .tc := ⟨.hbm, 342, rfl⟩
abbrev main_call14_v0 : Ref sig .tc := ⟨.hbm, 343, rfl⟩
abbrev main_call14_v1 : Ref sig .tc := ⟨.hbm, 344, rfl⟩
abbrev main_v253 : Ref sig .tc := ⟨.hbm, 345, rfl⟩
abbrev main_cst_49 : Ref sig .tc := ⟨.hbm, 346, rfl⟩
abbrev main_v254 : Ref sig .tc := ⟨.hbm, 347, rfl⟩
abbrev main_v255 : Ref sig .tc := ⟨.hbm, 348, rfl⟩
abbrev main_v256 : Ref sig .tc := ⟨.hbm, 349, rfl⟩
abbrev main_cst_50 : Ref sig .tc := ⟨.hbm, 350, rfl⟩
abbrev main_call15_v0 : Ref sig .tc := ⟨.hbm, 351, rfl⟩
abbrev main_call15_v1 : Ref sig .tc := ⟨.hbm, 352, rfl⟩
abbrev main_v257 : Ref sig .tc := ⟨.hbm, 353, rfl⟩
abbrev main_v258 : Ref sig .tc := ⟨.hbm, 354, rfl⟩
abbrev main_v259 : Ref sig .tc := ⟨.hbm, 355, rfl⟩
abbrev main_v260 : Ref sig .tc := ⟨.hbm, 356, rfl⟩
abbrev main_v261 : Ref sig .tc := ⟨.hbm, 357, rfl⟩
abbrev main_v262 : Ref sig .tc := ⟨.hbm, 358, rfl⟩
abbrev main_c_51 : Ref sig .tc := ⟨.hbm, 359, rfl⟩
abbrev main_v263 : Ref sig .tc := ⟨.hbm, 360, rfl⟩
abbrev main_v264 : Ref sig .tc := ⟨.hbm, 361, rfl⟩
abbrev main_c_52 : Ref sig .tc := ⟨.hbm, 362, rfl⟩
abbrev main_v265 : Ref sig .tc := ⟨.hbm, 363, rfl⟩
abbrev main_v266 : Ref sig .tc := ⟨.hbm, 364, rfl⟩
abbrev main_v267 : Ref sig .tc := ⟨.hbm, 365, rfl⟩
abbrev main_v268 : Ref sig .tc := ⟨.hbm, 366, rfl⟩
abbrev main_v269 : Ref sig .tc := ⟨.hbm, 367, rfl⟩
abbrev main_cst_53 : Ref sig .tc := ⟨.hbm, 368, rfl⟩
abbrev main_v270 : Ref sig .tc := ⟨.hbm, 369, rfl⟩
abbrev main_v271 : Ref sig .tc := ⟨.hbm, 370, rfl⟩
abbrev main_v272 : Ref sig .tc := ⟨.hbm, 371, rfl⟩
abbrev main_v273 : Ref sig .tc := ⟨.hbm, 372, rfl⟩
abbrev main_v274 : Ref sig .tc := ⟨.hbm, 373, rfl⟩
abbrev main_v275 : Ref sig .tc := ⟨.hbm, 374, rfl⟩
abbrev main_v276 : Ref sig .tc := ⟨.hbm, 375, rfl⟩
abbrev main_v277 : Ref sig .tc := ⟨.hbm, 376, rfl⟩
abbrev main_v278 : Ref sig .tc := ⟨.hbm, 377, rfl⟩
abbrev main_v279 : Ref sig .tc := ⟨.hbm, 378, rfl⟩
abbrev main_v280 : Ref sig .tc := ⟨.hbm, 379, rfl⟩
abbrev main_v281 : Ref sig .tc := ⟨.hbm, 380, rfl⟩
abbrev main_v282 : Ref sig .tc := ⟨.hbm, 381, rfl⟩
abbrev main_v283 : Ref sig .tc := ⟨.hbm, 382, rfl⟩
abbrev main_v284 : Ref sig .tc := ⟨.hbm, 383, rfl⟩
abbrev main_v285 : Ref sig .tc := ⟨.hbm, 384, rfl⟩
abbrev main_v286 : Ref sig .tc := ⟨.hbm, 385, rfl⟩
abbrev main_v287 : Ref sig .tc := ⟨.hbm, 386, rfl⟩
abbrev main_cst_54 : Ref sig .tc := ⟨.hbm, 387, rfl⟩
abbrev main_v288 : Ref sig .tc := ⟨.hbm, 388, rfl⟩
abbrev main_cst_55 : Ref sig .tc := ⟨.hbm, 389, rfl⟩
abbrev main_v289 : Ref sig .tc := ⟨.hbm, 390, rfl⟩
abbrev main_v290 : Ref sig .tc := ⟨.hbm, 391, rfl⟩
abbrev main_v291 : Ref sig .tc := ⟨.hbm, 392, rfl⟩
abbrev main_cst_56 : Ref sig .tc := ⟨.hbm, 393, rfl⟩
abbrev main_call16_v0 : Ref sig .tc := ⟨.hbm, 394, rfl⟩
abbrev main_call16_v1 : Ref sig .tc := ⟨.hbm, 395, rfl⟩
abbrev main_v292 : Ref sig .tc := ⟨.hbm, 396, rfl⟩
abbrev main_cst_57 : Ref sig .tc := ⟨.hbm, 397, rfl⟩
abbrev main_v293 : Ref sig .tc := ⟨.hbm, 398, rfl⟩
abbrev main_v294 : Ref sig .tc := ⟨.hbm, 399, rfl⟩
abbrev main_v295 : Ref sig .tc := ⟨.hbm, 400, rfl⟩
abbrev main_cst_58 : Ref sig .tc := ⟨.hbm, 401, rfl⟩
abbrev main_call17_v0 : Ref sig .tc := ⟨.hbm, 402, rfl⟩
abbrev main_call17_v1 : Ref sig .tc := ⟨.hbm, 403, rfl⟩
abbrev main_v296 : Ref sig .tc := ⟨.hbm, 404, rfl⟩
abbrev main_v297 : Ref sig .tc := ⟨.hbm, 405, rfl⟩
abbrev main_v298 : Ref sig .tc := ⟨.hbm, 406, rfl⟩
abbrev main_v299 : Ref sig .tc := ⟨.hbm, 407, rfl⟩
abbrev main_v300 : Ref sig .tc := ⟨.hbm, 408, rfl⟩
abbrev main_v301 : Ref sig .tc := ⟨.hbm, 409, rfl⟩
abbrev main_c_59 : Ref sig .tc := ⟨.hbm, 410, rfl⟩
abbrev main_v302 : Ref sig .tc := ⟨.hbm, 411, rfl⟩
abbrev main_v303 : Ref sig .tc := ⟨.hbm, 412, rfl⟩
abbrev main_c_60 : Ref sig .tc := ⟨.hbm, 413, rfl⟩
abbrev main_v304 : Ref sig .tc := ⟨.hbm, 414, rfl⟩
abbrev main_v305 : Ref sig .tc := ⟨.hbm, 415, rfl⟩
abbrev main_v306 : Ref sig .tc := ⟨.hbm, 416, rfl⟩
abbrev main_v307 : Ref sig .tc := ⟨.hbm, 417, rfl⟩
abbrev main_v308 : Ref sig .tc := ⟨.hbm, 418, rfl⟩
abbrev main_cst_61 : Ref sig .tc := ⟨.hbm, 419, rfl⟩
abbrev main_v309 : Ref sig .tc := ⟨.hbm, 420, rfl⟩
abbrev main_v310 : Ref sig .tc := ⟨.hbm, 421, rfl⟩
abbrev main_v311 : Ref sig .tc := ⟨.hbm, 422, rfl⟩
abbrev main_v312 : Ref sig .tc := ⟨.hbm, 423, rfl⟩
abbrev main_v313 : Ref sig .tc := ⟨.hbm, 424, rfl⟩
abbrev main_v314 : Ref sig .tc := ⟨.hbm, 425, rfl⟩
abbrev main_v315 : Ref sig .tc := ⟨.hbm, 426, rfl⟩
abbrev main_v316 : Ref sig .tc := ⟨.hbm, 427, rfl⟩
abbrev main_v317 : Ref sig .tc := ⟨.hbm, 428, rfl⟩
abbrev main_v318 : Ref sig .tc := ⟨.hbm, 429, rfl⟩
abbrev main_v319 : Ref sig .tc := ⟨.hbm, 430, rfl⟩
abbrev main_call18_cst : Ref sig .tc := ⟨.hbm, 431, rfl⟩
abbrev main_call18_v0 : Ref sig .tc := ⟨.hbm, 432, rfl⟩
abbrev main_v320 : Ref sig .tc := ⟨.hbm, 433, rfl⟩
abbrev main_call19_cst : Ref sig .tc := ⟨.hbm, 434, rfl⟩
abbrev main_call19_v0 : Ref sig .tc := ⟨.hbm, 435, rfl⟩
abbrev main_v321 : Ref sig .tc := ⟨.hbm, 436, rfl⟩
abbrev main_v322 : Ref sig .tc := ⟨.hbm, 437, rfl⟩
abbrev main_v323 : Ref sig .tc := ⟨.hbm, 438, rfl⟩
abbrev main_v324 : Ref sig .tc := ⟨.hbm, 439, rfl⟩
abbrev main_v325 : Ref sig .tc := ⟨.hbm, 440, rfl⟩

abbrev nD : Nat := 1
abbrev τ : Topo := Topo.v7x

variable {F : FTy → Type} [FloatOps F]

class Facts₀ : Prop where
  slices_S4x524288_S1x524288_0_0 : S4x524288.Slices ![0, 0] S1x524288
  shapeCasts_S1x524288_S524288 : S1x524288.ShapeCasts S524288
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  bcast_S_S524288 : S_.BroadcastsInDim S524288 (![] : Fin 0 → Fin S524288.rank)
  bcast_S_S8000 : S_.BroadcastsInDim S8000 (![] : Fin 0 → Fin S8000.rank)
  bcast_S524288_S524288x1_0 : S524288.BroadcastsInDim S524288x1 (![0] : Fin 1 → Fin S524288x1.rank)
  bcast_S8000_S8000x1_0 : S8000.BroadcastsInDim S8000x1 (![0] : Fin 1 → Fin S8000x1.rank)
  bcast_S8000x1_S8000x64_0_1 : S8000x1.BroadcastsInDim S8000x64 (![0, 1] : Fin 2 → Fin S8000x64.rank)
  bcast_S_S8000x64 : S_.BroadcastsInDim S8000x64 (![] : Fin 0 → Fin S8000x64.rank)
  bcast_S64_S1x64_1 : S64.BroadcastsInDim S1x64 (![1] : Fin 1 → Fin S1x64.rank)
  bcast_S1x64_S8000x64_0_1 : S1x64.BroadcastsInDim S8000x64 (![0, 1] : Fin 2 → Fin S8000x64.rank)
  slices_S4x524288_S1x524288_2_0 : S4x524288.Slices ![2, 0] S1x524288
  slices_S4x64x64_S1x64x64_2_0_0 : S4x64x64.Slices ![2, 0, 0] S1x64x64
  slices_S4x64_S1x64_2_0 : S4x64.Slices ![2, 0] S1x64
  slices_S4x524288_S1x524288_1_0 : S4x524288.Slices ![1, 0] S1x524288
  slices_S4x64x64_S1x64x64_1_0_0 : S4x64x64.Slices ![1, 0, 0] S1x64x64
  slices_S4x64_S1x64_1_0 : S4x64.Slices ![1, 0] S1x64
  slices_S4x524288_S1x524288_3_0 : S4x524288.Slices ![3, 0] S1x524288
  slices_S4x64x64_S1x64x64_3_0_0 : S4x64x64.Slices ![3, 0, 0] S1x64x64
  slices_S4x64_S1x64_3_0 : S4x64.Slices ![3, 0] S1x64
  slices_S4x64x32_S1x64x32_0_0_0 : S4x64x32.Slices ![0, 0, 0] S1x64x32
  shapeCasts_S1x64x32_S64x32 : S1x64x32.ShapeCasts S64x32
  slices_S4x32_S1x32_0_0 : S4x32.Slices ![0, 0] S1x32
  shapeCasts_S1x32_S32 : S1x32.ShapeCasts S32
  bcast_S_S8000x32 : S_.BroadcastsInDim S8000x32 (![] : Fin 0 → Fin S8000x32.rank)
  bcast_S8000x1_S8000x32_0_1 : S8000x1.BroadcastsInDim S8000x32 (![0, 1] : Fin 2 → Fin S8000x32.rank)
  bcast_S32_S1x32_1 : S32.BroadcastsInDim S1x32 (![1] : Fin 1 → Fin S1x32.rank)
  bcast_S1x32_S8000x32_0_1 : S1x32.BroadcastsInDim S8000x32 (![0, 1] : Fin 2 → Fin S8000x32.rank)
  slices_S4x64x32_S1x64x32_2_0_0 : S4x64x32.Slices ![2, 0, 0] S1x64x32
  slices_S4x32_S1x32_2_0 : S4x32.Slices ![2, 0] S1x32
  slices_S4x64x32_S1x64x32_1_0_0 : S4x64x32.Slices ![1, 0, 0] S1x64x32
  slices_S4x32_S1x32_1_0 : S4x32.Slices ![1, 0] S1x32
  slices_S4x64x32_S1x64x32_3_0_0 : S4x64x32.Slices ![3, 0, 0] S1x64x32
  slices_S4x32_S1x32_3_0 : S4x32.Slices ![3, 0] S1x32
  transposes_S32x32_S32x32_1_0 : S32x32.Transposes [1, 0] S32x32
  transposes_S8000x32_S32x8000_1_0 : S8000x32.Transposes [1, 0] S32x8000
  dot_S8000x8000_S8000x64_S8000x64_1_0_0_1_n_n_wf : DotDims.WF S8000x8000 S8000x64 S8000x64 [1] [0] [0] [1] [] []
  scatter_S8000_S524288x1_S524288_n_0_0_1_wf : ScatterDims.WF S8000 S524288x1 S524288 [] [0] [0] 1
  dot_S8000x64_S64x64_S8000x64_1_0_0_1_n_n_wf : DotDims.WF S8000x64 S64x64 S8000x64 [1] [0] [0] [1] [] []
  gather_S8000x64_S524288x1_S524288x64_1_0_n_n_0_1_164_wf : GatherDims.WF S8000x64 S524288x1 S524288x64 [1] [0] [] [0] [] 1 ![1, 64]
  scatter_S8000x64_S524288x1_S524288x64_1_0_0_1_wf : ScatterDims.WF S8000x64 S524288x1 S524288x64 [1] [0] [0] 1
  dot_S8000x64_S64x32_S8000x32_1_0_0_1_n_n_wf : DotDims.WF S8000x64 S64x32 S8000x32 [1] [0] [0] [1] [] []
  gather_S8000x32_S524288x1_S524288x32_1_0_n_n_0_1_132_wf : GatherDims.WF S8000x32 S524288x1 S524288x32 [1] [0] [] [0] [] 1 ![1, 32]
  scatter_S8000x32_S524288x1_S524288x32_1_0_0_1_wf : ScatterDims.WF S8000x32 S524288x1 S524288x32 [1] [0] [0] 1
  dot_S8000x32_S32x32_S8000x32_1_0_0_1_n_n_wf : DotDims.WF S8000x32 S32x32 S8000x32 [1] [0] [0] [1] [] []
  dot_S8000x32_S32x8000_S8000x8000_1_0_0_1_n_n_wf : DotDims.WF S8000x32 S32x8000 S8000x8000 [1] [0] [0] [1] [] []

variable [Facts₀]

def dot_S8000x8000_S8000x64_S8000x64_1_0_0_1_n_n : DotDims S8000x8000 S8000x64 S8000x64 where
  lhsContracting := [1]
  rhsContracting := [0]
  lhsNonContracting := [0]
  rhsNonContracting := [1]
  lhsBatch := []
  rhsBatch := []
  wf := dot_S8000x8000_S8000x64_S8000x64_1_0_0_1_n_n_wf
def scatter_S8000_S524288x1_S524288_n_0_0_1 : ScatterDims S8000 S524288x1 S524288 where
  updateWindowDims := []
  insertedWindowDims := [0]
  scatterDimsToOperandDims := [0]
  indexVectorDim := 1
  wf := scatter_S8000_S524288x1_S524288_n_0_0_1_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def gather_S8000x64_S524288x1_S524288x64_1_0_n_n_0_1_164 : GatherDims S8000x64 S524288x1 S524288x64 where
  offsetDims := [1]
  collapsedSliceDims := [0]
  operandBatchingDims := []
  startIndicesBatchingDims := []
  startIndexMap := [0]
  indexVectorDim := 1
  sliceSizes := ![1, 64]
  wf := gather_S8000x64_S524288x1_S524288x64_1_0_n_n_0_1_164_wf
def scatter_S8000x64_S524288x1_S524288x64_1_0_0_1 : ScatterDims S8000x64 S524288x1 S524288x64 where
  updateWindowDims := [1]
  insertedWindowDims := [0]
  scatterDimsToOperandDims := [0]
  indexVectorDim := 1
  wf := scatter_S8000x64_S524288x1_S524288x64_1_0_0_1_wf
def dot_S8000x64_S64x32_S8000x32_1_0_0_1_n_n : DotDims S8000x64 S64x32 S8000x32 where
  lhsContracting := [1]
  rhsContracting := [0]
  lhsNonContracting := [0]
  rhsNonContracting := [1]
  lhsBatch := []
  rhsBatch := []
  wf := dot_S8000x64_S64x32_S8000x32_1_0_0_1_n_n_wf
def gather_S8000x32_S524288x1_S524288x32_1_0_n_n_0_1_132 : GatherDims S8000x32 S524288x1 S524288x32 where
  offsetDims := [1]
  collapsedSliceDims := [0]
  operandBatchingDims := []
  startIndicesBatchingDims := []
  startIndexMap := [0]
  indexVectorDim := 1
  sliceSizes := ![1, 32]
  wf := gather_S8000x32_S524288x1_S524288x32_1_0_n_n_0_1_132_wf
def scatter_S8000x32_S524288x1_S524288x32_1_0_0_1 : ScatterDims S8000x32 S524288x1 S524288x32 where
  updateWindowDims := [1]
  insertedWindowDims := [0]
  scatterDimsToOperandDims := [0]
  indexVectorDim := 1
  wf := scatter_S8000x32_S524288x1_S524288x32_1_0_0_1_wf
def dot_S8000x32_S32x32_S8000x32_1_0_0_1_n_n : DotDims S8000x32 S32x32 S8000x32 where
  lhsContracting := [1]
  rhsContracting := [0]
  lhsNonContracting := [0]
  rhsNonContracting := [1]
  lhsBatch := []
  rhsBatch := []
  wf := dot_S8000x32_S32x32_S8000x32_1_0_0_1_n_n_wf
def dot_S8000x32_S32x8000_S8000x8000_1_0_0_1_n_n : DotDims S8000x32 S32x8000 S8000x8000 where
  lhsContracting := [1]
  rhsContracting := [0]
  lhsNonContracting := [0]
  rhsNonContracting := [1]
  lhsBatch := []
  rhsBatch := []
  wf := dot_S8000x32_S32x8000_S8000x8000_1_0_0_1_n_n_wf

class Facts : Prop extends Facts₀ where

variable [Facts]
-- ==== Proof.KernelRun.lean ====
/-
  The whole program's run, with its result named.

  The program is three launches among stretches of array operations. Run from any memory, every weakly fair execution
  terminates without a fault, and the memory it ends in holds, at every unscoped buffer, the contents obtained by folding
  the segments in order from the launch memory: a stretch of array operations rewrites the buffers it computes, a launch
  leaves its arrays at what its write-backs leave. Read at the result buffer this names the program's result; read at
  an argument it walks back to the launch memory, since nothing writes an argument.
-/
import proofs.«175275_j39522289058323_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    and the arguments as launched. -/
theorem run_out : θ_run defs (onTc (τ := τ) (main (F := F))) ⟨m, fun _ => 0, ρ⟩ (fun r => ∀ c : Dev nD,
      r.2.mem ((c.tc : Thread nD τ).loc main_v324) = W42 m ρ c (Proc.devRef .tc main_v324)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W42 m ρ c b)
    (hfin := fun c s' => by
      iintro ⟨⟨Hh, -⟩, HSI⟩
      unfold StableHlo.held
      imodintro
      iapply (pointsTo_read_all (Pipeline.ucRefs τ sig) (fun b => (((c : Thread nD τ)).1, b)) (W42 m ρ c) s')
      isplitl [Hh] <;> iassumption)
    (hQ := fun s h c =>
      ⟨h c _ (mem_uc main_v324 (by decide)),
       (h c _ (mem_uc main_arg0 (by decide))).trans (W42_main_arg0 m ρ c),
       (h c _ (mem_uc main_arg1 (by decide))).trans (W42_main_arg1 m ρ c),
       (h c _ (mem_uc main_arg2 (by decide))).trans (W42_main_arg2 m ρ c),
       (h c _ (mem_uc main_arg3 (by decide))).trans (W42_main_arg3 m ρ c),
       (h c _ (mem_uc main_arg4 (by decide))).trans (W42_main_arg4 m ρ c),
       (h c _ (mem_uc main_arg5 (by decide))).trans (W42_main_arg5 m ρ c),
       (h c _ (mem_uc main_arg6 (by decide))).trans (W42_main_arg6 m ρ c),
       (h c _ (mem_uc main_arg7 (by decide))).trans (W42_main_arg7 m ρ c),
       (h c _ (mem_uc main_arg8 (by decide))).trans (W42_main_arg8 m ρ c),
       (h c _ (mem_uc main_arg9 (by decide))).trans (W42_main_arg9 m ρ c),
       (h c _ (mem_uc main_arg10 (by decide))).trans (W42_main_arg10 m ρ c)⟩)

end Cert.KernelIdeal.Whole

end
-- ==== Proof.ReferenceRun.lean ====
/-
  The reference program's run.

  The reference is a straight line of 430 array operations: the two embedding products, the two graph-convolution layers
  (degree counts, normalisations, gathers and segment sums, biases, rectifiers), and the score product of the left
  factor with the transposed right factor. Every weakly fair execution terminates, and each buffer ends at the fold of
  the operations' results over the launch memory. The line is cut here into the two embedding products, eleven
  stretches of the layers, and the two operations of the score, so that the fold is the score's two operations applied
  to the layers' fold over the embeddings'. No operation writes an argument array, so each argument ends as launched.
-/
import proofs.«175275_j39522289058323_1_alg».proof.Proof.Gen.ReferenceIdeal
import Idealize.ShloMosaic.Lib.StableHlo.Run

set_option maxRecDepth 16384

noncomputable section

namespace Cert.ReferenceIdeal.Whole

open Cert.ReferenceIdeal Cert.ReferenceIdeal.Gen Idealize.ShloMosaic Idealize.ShloMosaic.TcCoe Idealize.SL.Sem Idealize.ShloMosaic.StableHlo

variable {F : FTy → Type} [FloatOps F]

/-- The argument arrays. -/
abbrev argRefs : List (Ref sig .tc) := [main_arg0, main_arg1, main_arg2, main_arg3, main_arg4, main_arg5, main_arg6, main_arg7, main_arg8, main_arg9, main_arg10]

/-- Two lines run one after the other fold as the second over the first. -/
theorem fold_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, fold_append l₁ l₂]

/-- Operations 1 … 2 of the program, in order. -/
abbrev embedOps : List (HloOp τ sig (Elt F)) :=
  [ binary main_arg0 main_arg2 main_v0 ((fun l r => Host.dotGeneral dot_S8000x8000_S8000x64_S8000x64_1_0_0_1_n_n none l r) : (⟨S8000x8000, .f32⟩ : BufTy).Contents (Elt F) → (⟨S8000x64, .f32⟩ : BufTy).Contents (Elt F) → (⟨S8000x64, .f32⟩ : BufTy).Contents (Elt F)),
    binary main_arg1 main_arg3 main_v1 ((fun l r => Host.dotGeneral dot_S8000x8000_S8000x64_S8000x64_1_0_0_1_n_n none l r) : (⟨S8000x8000, .f32⟩ : BufTy).Contents (Elt F) → (⟨S8000x64, .f32⟩ : BufTy).Contents (Elt F) → (⟨S8000x64, .f32⟩ : BufTy).Contents (Elt F)) ]
theorem embedOps_sub : (embedOps : List (HloOp τ sig (Elt F))).Forall fun op => op.bufs ⊆ tcRefs τ sig :=
  ⟨binary_bufs_sub .., binary_bufs_sub ..⟩
theorem embedOps_fresh : (embedOps : List (HloOp τ sig (Elt F))).Forall fun op => op.fresh = ∅ := by
  simp only [List.Forall]; repeat' constructor
theorem embedOps_keeps (V : Valuation τ sig (Elt F)) (r : Ref sig .tc) (hr : r ∈ argRefs) :
    after embedOps V (Proc.devRef .tc r) = V (Proc.devRef .tc r) := by
  simp only [argRefs, List.mem_cons, List.not_mem_nil, or_false] at hr
  rcases hr with rfl | rfl | rfl | rfl | rfl | rfl | rfl | rfl | rfl | rfl | rfl <;>
    (refine after_of_forall_not_mem _ _ (List.forall_iff_forall_mem.mp ?_)
     simp only [embedOps, List.Forall, StableHlo.nullary_writes, StableHlo.unary_writes, StableHlo.binary_writes, StableHlo.ternary_writes, StableHlo.quaternary_writes, StableHlo.reshape_writes, StableHlo.binaryIndexed_writes, Finset.mem_singleton]
     repeat' apply And.intro
     all_goals exact devRef_ne_of_ne (by decide))

/-- Operations 3 … 42 of the program, in order. -/
abbrev midOps0 : List (HloOp τ sig (Elt F)) :=
  [ unary main_arg9 main_v2 ((extractStridedSlice S1x524288 ![0, 0] · slices_S4x524288_S1x524288_0_0) : (⟨S4x524288, .i32⟩ : BufTy).Contents (Elt F) → (⟨S1x524288, .i32⟩ : BufTy).Contents (Elt F)),
    reshape main_v2 main_v3 rfl shapeCasts_S1x524288_S524288,
    unary main_arg10 main_v4 ((extractStridedSlice S1x524288 ![0, 0] · slices_S4x524288_S1x524288_0_0) : (⟨S4x524288, .i32⟩ : BufTy).Contents (Elt F) → (⟨S1x524288, .i32⟩ : BufTy).Contents (Elt F)),
    reshape main_v4 main_v5 rfl shapeCasts_S1x524288_S524288,
    unary main_arg4 main_v6 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v6 main_v7 rfl shapeCasts_S1x64x64_S64x64,
    unary main_arg5 main_v8 ((extractStridedSlice S1x64 ![0, 0] · slices_S4x64_S1x64_0_0) : (⟨S4x64, .f32⟩ : BufTy).Contents (Elt F) → (⟨S1x64, .f32⟩ : BufTy).Contents (Elt F)),
    reshape main_v8 main_v9 rfl shapeCasts_S1x64_S64,
    nullary main_cst (constant S_ .f32 0x3F800000#32),
    unary main_cst main_v10 (broadcastInDim S524288 ![] bcast_S_S524288 : (⟨S_, .f32⟩ : BufTy).Contents (Elt F) → (⟨S524288, .f32⟩ : BufTy).Contents (Elt F)),
    nullary main_cst_0 (constant S_ .f32 0x00000000#32),
    unary main_cst_0 main_v11 (broadcastInDim S8000 ![] bcast_S_S8000 : (⟨S_, .f32⟩ : BufTy).Contents (Elt F) → (⟨S8000, .f32⟩ : BufTy).Contents (Elt F)),
    unary main_v3 main_v12 (broadcastInDim S524288x1 ![0] bcast_S524288_S524288x1_0 : (⟨S524288, .i32⟩ : BufTy).Contents (Elt F) → (⟨S524288x1, .i32⟩ : BufTy).Contents (Elt F)),
    ternary main_v11 main_v12 main_v10 main_v13 ((fun x i u => Host.scatterAdd scatter_S8000_S524288x1_S524288_n_0_0_1 x i u) : (⟨S8000, .f32⟩ : BufTy).Contents (Elt F) → (⟨S524288x1, .i32⟩ : BufTy).Contents (Elt F) → (⟨S524288, .f32⟩ : BufTy).Contents (Elt F) → (⟨S8000, .f32⟩ : BufTy).Contents (Elt F)),
    nullary main_cst_1 (constant S_ .f32 0x3F800000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S8000, .f32⟩) main_call0_v1) (broadcastInDim S8000 ![] bcast_S_S8000),
    TRef.binary (TRef.of (T := ⟨S8000, .f32⟩) main_call0_v1) (TRef.of (T := ⟨S8000, .f32⟩) main_v13) (TRef.of (T := ⟨S8000, .f32⟩) main_v14) maximumf,
    nullary main_cst_2 (constant S_ .f32 0x00000000#32),
    unary main_cst_2 main_v15 (broadcastInDim S8000 ![] bcast_S_S8000 : (⟨S_, .f32⟩ : BufTy).Contents (Elt F) → (⟨S8000, .f32⟩ : BufTy).Contents (Elt F)),
    unary main_v5 main_v16 (broadcastInDim S524288x1 ![0] bcast_S524288_S524288x1_0 : (⟨S524288, .i32⟩ : BufTy).Contents (Elt F) → (⟨S524288x1, .i32⟩ : BufTy).Contents (Elt F)),
    ternary main_v15 main_v16 main_v10 main_v17 ((fun x i u => Host.scatterAdd scatter_S8000_S524288x1_S524288_n_0_0_1 x i u) : (⟨S8000, .f32⟩ : BufTy).Contents (Elt F) → (⟨S524288x1, .i32⟩ : BufTy).Contents (Elt F) → (⟨S524288, .f32⟩ : BufTy).Contents (Elt F) → (⟨S8000, .f32⟩ : BufTy).Contents (Elt F)),
    nullary main_cst_3 (constant S_ .f32 0x3F800000#32),
    TRef.unary (TRef.of (T := ⟨S_, .f32⟩) main_cst_3) (TRef.of (T := ⟨S_, .f32⟩) main_call1_v0) id,
    TRef.unary (TRef.of (T := ⟨S_, .f32⟩) main_call1_v0) (TRef.of (T := ⟨S8000, .f32⟩) main_call1_v1) (broadcastInDim S8000 ![] bcast_S_S8000),
    TRef.binary (TRef.of (T := ⟨S8000, .f32⟩) main_call1_v1) (TRef.of (T := ⟨S8000, .f32⟩) main_v17) (TRef.of (T := ⟨S8000, .f32⟩) main_v18) maximumf,
    unary main_v14 main_v19 (Host.rsqrt : (⟨S8000, .f32⟩ : BufTy).Contents (Elt F) → (⟨S8000, .f32⟩ : BufTy).Contents (Elt F)),
    unary main_v19 main_v20 (broadcastInDim S8000x1 ![0] bcast_S8000_S8000x1_0 : (⟨S8000, .f32⟩ : BufTy).Contents (Elt F) → (⟨S8000x1, .f32⟩ : BufTy).Contents (Elt F)),
    unary main_v20 main_v21 (broadcastInDim S8000x64 ![0, 1] bcast_S8000x1_S8000x64_0_1 : (⟨S8000x1, .f32⟩ : BufTy).Contents (Elt F) → (⟨S8000x64, .f32⟩ : BufTy).Contents (Elt F)),
    binary main_v0 main_v21 main_v22 (mulf : (⟨S8000x64, .f32⟩ : BufTy).Contents (Elt F) → (⟨S8000x64, .f32⟩ : BufTy).Contents (Elt F) → (⟨S8000x64, .f32⟩ : BufTy).Contents (Elt F)),
    binary main_v22 main_v7 main_v23 ((fun l r => Host.dotGeneral dot_S8000x64_S64x64_S8000x64_1_0_0_1_n_n none l r) : (⟨S8000x64, .f32⟩ : BufTy).Contents (Elt F) → (⟨S64x64, .f32⟩ : BufTy).Contents (Elt F) → (⟨S8000x64, .f32⟩ : BufTy).Contents (Elt F)),
    nullary main_c (constantI S_ 32 0#32),
    unary main_c main_v24 (broadcastInDim S524288 ![] bcast_S_S524288 : (⟨S_, .i32⟩ : BufTy).Contents (Elt F) → (⟨S524288, .i32⟩ : BufTy).Contents (Elt F)),
    binary main_v3 main_v24 main_v25 (cmpi .slt : (⟨S524288, .i32⟩ : BufTy).Contents (Elt F) → (⟨S524288, .i32⟩ : BufTy).Contents (Elt F) → (⟨S524288, .i1⟩ : BufTy).Contents (Elt F)),
    nullary main_c_4 (constantI S_ 32 8000#32),
    unary main_c_4 main_v26 (broadcastInDim S524288 ![] bcast_S_S524288 : (⟨S_, .i32⟩ : BufTy).Contents (Elt F) → (⟨S524288, .i32⟩ : BufTy).Contents (Elt F)),
    binary main_v3 main_v26 main_v27 (addi : (⟨S524288, .i32⟩ : BufTy).Contents (Elt F) → (⟨S524288, .i32⟩ : BufTy).Contents (Elt F) → (⟨S524288, .i32⟩ : BufTy).Contents (Elt F)),
    ternary main_v25 main_v27 main_v3 main_v28 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v28 main_v29 (broadcastInDim S524288x1 ![0] bcast_S524288_S524288x1_0 : (⟨S524288, .i32⟩ : BufTy).Contents (Elt F) → (⟨S524288x1, .i32⟩ : BufTy).Contents (Elt F)),
    binary main_v23 main_v29 main_v30 ((fun x i => Host.gather gather_S8000x64_S524288x1_S524288x64_1_0_n_n_0_1_164 x i) : (⟨S8000x64, .f32⟩ : BufTy).Contents (Elt F) → (⟨S524288x1, .i32⟩ : BufTy).Contents (Elt F) → (⟨S524288x64, .f32⟩ : BufTy).Contents (Elt F)) ]
theorem midOps0_sub : (midOps0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem midOps0_fresh : (midOps0 : List (HloOp τ sig (Elt F))).Forall fun op => op.fresh = ∅ := by
  simp only [List.Forall]; repeat' constructor
theorem midOps0_keeps (V : Valuation τ sig (Elt F)) (r : Ref sig .tc) (hr : r ∈ argRefs) :
    after midOps0 V (Proc.devRef .tc r) = V (Proc.devRef .tc r) := by
  simp only [argRefs, List.mem_cons, List.not_mem_nil, or_false] at hr
  rcases hr with rfl | rfl | rfl | rfl | rfl | rfl | rfl | rfl | rfl | rfl | rfl <;>
    (refine after_of_forall_not_mem _ _ (List.forall_iff_forall_mem.mp ?_)
     simp only [midOps0, List.Forall, StableHlo.nullary_writes, StableHlo.unary_writes, StableHlo.binary_writes, StableHlo.ternary_writes, StableHlo.quaternary_writes, StableHlo.reshape_writes, StableHlo.binaryIndexed_writes, Finset.mem_singleton]
     repeat' apply And.intro
     all_goals exact devRef_ne_of_ne (by decide))

/-- Operations 43 … 82 of the program, in order. -/
abbrev midOps1 : List (HloOp τ sig (Elt F)) :=
  [ nullary main_cst_5 (constant S_ .f32 0x00000000#32),
    unary main_cst_5 main_v31 (broadcastInDim S8000x64 ![] bcast_S_S8000x64 : (⟨S_, .f32⟩ : BufTy).Contents (Elt F) → (⟨S8000x64, .f32⟩ : BufTy).Contents (Elt F)),
    unary main_v5 main_v32 (broadcastInDim S524288x1 ![0] bcast_S524288_S524288x1_0 : (⟨S524288, .i32⟩ : BufTy).Contents (Elt F) → (⟨S524288x1, .i32⟩ : BufTy).Contents (Elt F)),
    ternary main_v31 main_v32 main_v30 main_v33 ((fun x i u => Host.scatterAdd scatter_S8000x64_S524288x1_S524288x64_1_0_0_1 x i u) : (⟨S8000x64, .f32⟩ : BufTy).Contents (Elt F) → (⟨S524288x1, .i32⟩ : BufTy).Contents (Elt F) → (⟨S524288x64, .f32⟩ : BufTy).Contents (Elt F) → (⟨S8000x64, .f32⟩ : BufTy).Contents (Elt F)),
    unary main_v18 main_v34 (Host.rsqrt : (⟨S8000, .f32⟩ : BufTy).Contents (Elt F) → (⟨S8000, .f32⟩ : BufTy).Contents (Elt F)),
    unary main_v34 main_v35 (broadcastInDim S8000x1 ![0] bcast_S8000_S8000x1_0 : (⟨S8000, .f32⟩ : BufTy).Contents (Elt F) → (⟨S8000x1, .f32⟩ : BufTy).Contents (Elt F)),
    unary main_v35 main_v36 (broadcastInDim S8000x64 ![0, 1] bcast_S8000x1_S8000x64_0_1 : (⟨S8000x1, .f32⟩ : BufTy).Contents (Elt F) → (⟨S8000x64, .f32⟩ : BufTy).Contents (Elt F)),
    binary main_v33 main_v36 main_v37 (mulf : (⟨S8000x64, .f32⟩ : BufTy).Contents (Elt F) → (⟨S8000x64, .f32⟩ : BufTy).Contents (Elt F) → (⟨S8000x64, .f32⟩ : BufTy).Contents (Elt F)),
    unary main_v9 main_v38 (broadcastInDim S1x64 ![1] bcast_S64_S1x64_1 : (⟨S64, .f32⟩ : BufTy).Contents (Elt F) → (⟨S1x64, .f32⟩ : BufTy).Contents (Elt F)),
    unary main_v38 main_v39 (broadcastInDim S8000x64 ![0, 1] bcast_S1x64_S8000x64_0_1 : (⟨S1x64, .f32⟩ : BufTy).Contents (Elt F) → (⟨S8000x64, .f32⟩ : BufTy).Contents (Elt F)),
    binary main_v37 main_v39 main_v40 (addf : (⟨S8000x64, .f32⟩ : BufTy).Contents (Elt F) → (⟨S8000x64, .f32⟩ : BufTy).Contents (Elt F) → (⟨S8000x64, .f32⟩ : BufTy).Contents (Elt F)),
    unary main_arg9 main_v41 ((extractStridedSlice S1x524288 ![2, 0] · slices_S4x524288_S1x524288_2_0) : (⟨S4x524288, .i32⟩ : BufTy).Contents (Elt F) → (⟨S1x524288, .i32⟩ : BufTy).Contents (Elt F)),
    reshape main_v41 main_v42 rfl shapeCasts_S1x524288_S524288,
    unary main_arg10 main_v43 ((extractStridedSlice S1x524288 ![2, 0] · slices_S4x524288_S1x524288_2_0) : (⟨S4x524288, .i32⟩ : BufTy).Contents (Elt F) → (⟨S1x524288, .i32⟩ : BufTy).Contents (Elt F)),
    reshape main_v43 main_v44 rfl shapeCasts_S1x524288_S524288,
    unary main_arg4 main_v45 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v45 main_v46 rfl shapeCasts_S1x64x64_S64x64,
    unary main_arg5 main_v47 ((extractStridedSlice S1x64 ![2, 0] · slices_S4x64_S1x64_2_0) : (⟨S4x64, .f32⟩ : BufTy).Contents (Elt F) → (⟨S1x64, .f32⟩ : BufTy).Contents (Elt F)),
    reshape main_v47 main_v48 rfl shapeCasts_S1x64_S64,
    nullary main_cst_6 (constant S_ .f32 0x3F800000#32),
    unary main_cst_6 main_v49 (broadcastInDim S524288 ![] bcast_S_S524288 : (⟨S_, .f32⟩ : BufTy).Contents (Elt F) → (⟨S524288, .f32⟩ : BufTy).Contents (Elt F)),
    nullary main_cst_7 (constant S_ .f32 0x00000000#32),
    unary main_cst_7 main_v50 (broadcastInDim S8000 ![] bcast_S_S8000 : (⟨S_, .f32⟩ : BufTy).Contents (Elt F) → (⟨S8000, .f32⟩ : BufTy).Contents (Elt F)),
    unary main_v42 main_v51 (broadcastInDim S524288x1 ![0] bcast_S524288_S524288x1_0 : (⟨S524288, .i32⟩ : BufTy).Contents (Elt F) → (⟨S524288x1, .i32⟩ : BufTy).Contents (Elt F)),
    ternary main_v50 main_v51 main_v49 main_v52 ((fun x i u => Host.scatterAdd scatter_S8000_S524288x1_S524288_n_0_0_1 x i u) : (⟨S8000, .f32⟩ : BufTy).Contents (Elt F) → (⟨S524288x1, .i32⟩ : BufTy).Contents (Elt F) → (⟨S524288, .f32⟩ : BufTy).Contents (Elt F) → (⟨S8000, .f32⟩ : BufTy).Contents (Elt F)),
    nullary main_cst_8 (constant S_ .f32 0x3F800000#32),
    TRef.unary (TRef.of (T := ⟨S_, .f32⟩) main_cst_8) (TRef.of (T := ⟨S_, .f32⟩) main_call2_v0) id,
    TRef.unary (TRef.of (T := ⟨S_, .f32⟩) main_call2_v0) (TRef.of (T := ⟨S8000, .f32⟩) main_call2_v1) (broadcastInDim S8000 ![] bcast_S_S8000),
    TRef.binary (TRef.of (T := ⟨S8000, .f32⟩) main_call2_v1) (TRef.of (T := ⟨S8000, .f32⟩) main_v52) (TRef.of (T := ⟨S8000, .f32⟩) main_v53) maximumf,
    nullary main_cst_9 (constant S_ .f32 0x00000000#32),
    unary main_cst_9 main_v54 (broadcastInDim S8000 ![] bcast_S_S8000 : (⟨S_, .f32⟩ : BufTy).Contents (Elt F) → (⟨S8000, .f32⟩ : BufTy).Contents (Elt F)),
    unary main_v44 main_v55 (broadcastInDim S524288x1 ![0] bcast_S524288_S524288x1_0 : (⟨S524288, .i32⟩ : BufTy).Contents (Elt F) → (⟨S524288x1, .i32⟩ : BufTy).Contents (Elt F)),
    ternary main_v54 main_v55 main_v49 main_v56 ((fun x i u => Host.scatterAdd scatter_S8000_S524288x1_S524288_n_0_0_1 x i u) : (⟨S8000, .f32⟩ : BufTy).Contents (Elt F) → (⟨S524288x1, .i32⟩ : BufTy).Contents (Elt F) → (⟨S524288, .f32⟩ : BufTy).Contents (Elt F) → (⟨S8000, .f32⟩ : BufTy).Contents (Elt F)),
    nullary main_cst_10 (constant S_ .f32 0x3F800000#32),
    TRef.unary (TRef.of (T := ⟨S_, .f32⟩) main_cst_10) (TRef.of (T := ⟨S_, .f32⟩) main_call3_v0) id,
    TRef.unary (TRef.of (T := ⟨S_, .f32⟩) main_call3_v0) (TRef.of (T := ⟨S8000, .f32⟩) main_call3_v1) (broadcastInDim S8000 ![] bcast_S_S8000),
    TRef.binary (TRef.of (T := ⟨S8000, .f32⟩) main_call3_v1) (TRef.of (T := ⟨S8000, .f32⟩) main_v56) (TRef.of (T := ⟨S8000, .f32⟩) main_v57) maximumf,
    unary main_v53 main_v58 (Host.rsqrt : (⟨S8000, .f32⟩ : BufTy).Contents (Elt F) → (⟨S8000, .f32⟩ : BufTy).Contents (Elt F)),
    unary main_v58 main_v59 (broadcastInDim S8000x1 ![0] bcast_S8000_S8000x1_0 : (⟨S8000, .f32⟩ : BufTy).Contents (Elt F) → (⟨S8000x1, .f32⟩ : BufTy).Contents (Elt F)),
    unary main_v59 main_v60 (broadcastInDim S8000x64 ![0, 1] bcast_S8000x1_S8000x64_0_1 : (⟨S8000x1, .f32⟩ : BufTy).Contents (Elt F) → (⟨S8000x64, .f32⟩ : BufTy).Contents (Elt F)) ]
theorem midOps1_sub : (midOps1 : List (HloOp τ sig (Elt F))).Forall fun op => op.bufs ⊆ tcRefs τ sig :=
  ⟨nullary_bufs_sub .., unary_bufs_sub .., unary_bufs_sub .., ternary_bufs_sub .., unary_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub ..⟩
theorem midOps1_fresh : (midOps1 : List (HloOp τ sig (Elt F))).Forall fun op => op.fresh = ∅ := by
  simp only [List.Forall]; repeat' constructor
theorem midOps1_keeps (V : Valuation τ sig (Elt F)) (r : Ref sig .tc) (hr : r ∈ argRefs) :
    after midOps1 V (Proc.devRef .tc r) = V (Proc.devRef .tc r) := by
  simp only [argRefs, List.mem_cons, List.not_mem_nil, or_false] at hr
  rcases hr with rfl | rfl | rfl | rfl | rfl | rfl | rfl | rfl | rfl | rfl | rfl <;>
    (refine after_of_forall_not_mem _ _ (List.forall_iff_forall_mem.mp ?_)
     simp only [midOps1, List.Forall, StableHlo.nullary_writes, StableHlo.unary_writes, StableHlo.binary_writes, StableHlo.ternary_writes, StableHlo.quaternary_writes, StableHlo.reshape_writes, StableHlo.binaryIndexed_writes, Finset.mem_singleton]
     repeat' apply And.intro
     all_goals exact devRef_ne_of_ne (by decide))

/-- Operations 83 … 122 of the program, in order. -/
abbrev midOps2 : List (HloOp τ sig (Elt F)) :=
  [ binary main_v1 main_v60 main_v61 (mulf : (⟨S8000x64, .f32⟩ : BufTy).Contents (Elt F) → (⟨S8000x64, .f32⟩ : BufTy).Contents (Elt F) → (⟨S8000x64, .f32⟩ : BufTy).Contents (Elt F)),
    binary main_v61 main_v46 main_v62 ((fun l r => Host.dotGeneral dot_S8000x64_S64x64_S8000x64_1_0_0_1_n_n none l r) : (⟨S8000x64, .f32⟩ : BufTy).Contents (Elt F) → (⟨S64x64, .f32⟩ : BufTy).Contents (Elt F) → (⟨S8000x64, .f32⟩ : BufTy).Contents (Elt F)),
    nullary main_c_11 (constantI S_ 32 0#32),
    unary main_c_11 main_v63 (broadcastInDim S524288 ![] bcast_S_S524288 : (⟨S_, .i32⟩ : BufTy).Contents (Elt F) → (⟨S524288, .i32⟩ : BufTy).Contents (Elt F)),
    binary main_v42 main_v63 main_v64 (cmpi .slt : (⟨S524288, .i32⟩ : BufTy).Contents (Elt F) → (⟨S524288, .i32⟩ : BufTy).Contents (Elt F) → (⟨S524288, .i1⟩ : BufTy).Contents (Elt F)),
    nullary main_c_12 (constantI S_ 32 8000#32),
    unary main_c_12 main_v65 (broadcastInDim S524288 ![] bcast_S_S524288 : (⟨S_, .i32⟩ : BufTy).Contents (Elt F) → (⟨S524288, .i32⟩ : BufTy).Contents (Elt F)),
    binary main_v42 main_v65 main_v66 (addi : (⟨S524288, .i32⟩ : BufTy).Contents (Elt F) → (⟨S524288, .i32⟩ : BufTy).Contents (Elt F) → (⟨S524288, .i32⟩ : BufTy).Contents (Elt F)),
    ternary main_v64 main_v66 main_v42 main_v67 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v67 main_v68 (broadcastInDim S524288x1 ![0] bcast_S524288_S524288x1_0 : (⟨S524288, .i32⟩ : BufTy).Contents (Elt F) → (⟨S524288x1, .i32⟩ : BufTy).Contents (Elt F)),
    binary main_v62 main_v68 main_v69 ((fun x i => Host.gather gather_S8000x64_S524288x1_S524288x64_1_0_n_n_0_1_164 x i) : (⟨S8000x64, .f32⟩ : BufTy).Contents (Elt F) → (⟨S524288x1, .i32⟩ : BufTy).Contents (Elt F) → (⟨S524288x64, .f32⟩ : BufTy).Contents (Elt F)),
    nullary main_cst_13 (constant S_ .f32 0x00000000#32),
    unary main_cst_13 main_v70 (broadcastInDim S8000x64 ![] bcast_S_S8000x64 : (⟨S_, .f32⟩ : BufTy).Contents (Elt F) → (⟨S8000x64, .f32⟩ : BufTy).Contents (Elt F)),
    unary main_v44 main_v71 (broadcastInDim S524288x1 ![0] bcast_S524288_S524288x1_0 : (⟨S524288, .i32⟩ : BufTy).Contents (Elt F) → (⟨S524288x1, .i32⟩ : BufTy).Contents (Elt F)),
    ternary main_v70 main_v71 main_v69 main_v72 ((fun x i u => Host.scatterAdd scatter_S8000x64_S524288x1_S524288x64_1_0_0_1 x i u) : (⟨S8000x64, .f32⟩ : BufTy).Contents (Elt F) → (⟨S524288x1, .i32⟩ : BufTy).Contents (Elt F) → (⟨S524288x64, .f32⟩ : BufTy).Contents (Elt F) → (⟨S8000x64, .f32⟩ : BufTy).Contents (Elt F)),
    unary main_v57 main_v73 (Host.rsqrt : (⟨S8000, .f32⟩ : BufTy).Contents (Elt F) → (⟨S8000, .f32⟩ : BufTy).Contents (Elt F)),
    unary main_v73 main_v74 (broadcastInDim S8000x1 ![0] bcast_S8000_S8000x1_0 : (⟨S8000, .f32⟩ : BufTy).Contents (Elt F) → (⟨S8000x1, .f32⟩ : BufTy).Contents (Elt F)),
    unary main_v74 main_v75 (broadcastInDim S8000x64 ![0, 1] bcast_S8000x1_S8000x64_0_1 : (⟨S8000x1, .f32⟩ : BufTy).Contents (Elt F) → (⟨S8000x64, .f32⟩ : BufTy).Contents (Elt F)),
    binary main_v72 main_v75 main_v76 (mulf : (⟨S8000x64, .f32⟩ : BufTy).Contents (Elt F) → (⟨S8000x64, .f32⟩ : BufTy).Contents (Elt F) → (⟨S8000x64, .f32⟩ : BufTy).Contents (Elt F)),
    unary main_v48 main_v77 (broadcastInDim S1x64 ![1] bcast_S64_S1x64_1 : (⟨S64, .f32⟩ : BufTy).Contents (Elt F) → (⟨S1x64, .f32⟩ : BufTy).Contents (Elt F)),
    unary main_v77 main_v78 (broadcastInDim S8000x64 ![0, 1] bcast_S1x64_S8000x64_0_1 : (⟨S1x64, .f32⟩ : BufTy).Contents (Elt F) → (⟨S8000x64, .f32⟩ : BufTy).Contents (Elt F)),
    binary main_v76 main_v78 main_v79 (addf : (⟨S8000x64, .f32⟩ : BufTy).Contents (Elt F) → (⟨S8000x64, .f32⟩ : BufTy).Contents (Elt F) → (⟨S8000x64, .f32⟩ : BufTy).Contents (Elt F)),
    binary main_v40 main_v79 main_v80 (addf : (⟨S8000x64, .f32⟩ : BufTy).Contents (Elt F) → (⟨S8000x64, .f32⟩ : BufTy).Contents (Elt F) → (⟨S8000x64, .f32⟩ : BufTy).Contents (Elt F)),
    unary main_arg9 main_v81 ((extractStridedSlice S1x524288 ![1, 0] · slices_S4x524288_S1x524288_1_0) : (⟨S4x524288, .i32⟩ : BufTy).Contents (Elt F) → (⟨S1x524288, .i32⟩ : BufTy).Contents (Elt F)),
    reshape main_v81 main_v82 rfl shapeCasts_S1x524288_S524288,
    unary main_arg10 main_v83 ((extractStridedSlice S1x524288 ![1, 0] · slices_S4x524288_S1x524288_1_0) : (⟨S4x524288, .i32⟩ : BufTy).Contents (Elt F) → (⟨S1x524288, .i32⟩ : BufTy).Contents (Elt F)),
    reshape main_v83 main_v84 rfl shapeCasts_S1x524288_S524288,
    unary main_arg4 main_v85 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v85 main_v86 rfl shapeCasts_S1x64x64_S64x64,
    unary main_arg5 main_v87 ((extractStridedSlice S1x64 ![1, 0] · slices_S4x64_S1x64_1_0) : (⟨S4x64, .f32⟩ : BufTy).Contents (Elt F) → (⟨S1x64, .f32⟩ : BufTy).Contents (Elt F)),
    reshape main_v87 main_v88 rfl shapeCasts_S1x64_S64,
    nullary main_cst_14 (constant S_ .f32 0x3F800000#32),
    unary main_cst_14 main_v89 (broadcastInDim S524288 ![] bcast_S_S524288 : (⟨S_, .f32⟩ : BufTy).Contents (Elt F) → (⟨S524288, .f32⟩ : BufTy).Contents (Elt F)),
    nullary main_cst_15 (constant S_ .f32 0x00000000#32),
    unary main_cst_15 main_v90 (broadcastInDim S8000 ![] bcast_S_S8000 : (⟨S_, .f32⟩ : BufTy).Contents (Elt F) → (⟨S8000, .f32⟩ : BufTy).Contents (Elt F)),
    unary main_v82 main_v91 (broadcastInDim S524288x1 ![0] bcast_S524288_S524288x1_0 : (⟨S524288, .i32⟩ : BufTy).Contents (Elt F) → (⟨S524288x1, .i32⟩ : BufTy).Contents (Elt F)),
    ternary main_v90 main_v91 main_v89 main_v92 ((fun x i u => Host.scatterAdd scatter_S8000_S524288x1_S524288_n_0_0_1 x i u) : (⟨S8000, .f32⟩ : BufTy).Contents (Elt F) → (⟨S524288x1, .i32⟩ : BufTy).Contents (Elt F) → (⟨S524288, .f32⟩ : BufTy).Contents (Elt F) → (⟨S8000, .f32⟩ : BufTy).Contents (Elt F)),
    nullary main_cst_16 (constant S_ .f32 0x3F800000#32),
    TRef.unary (TRef.of (T := ⟨S_, .f32⟩) main_cst_16) (TRef.of (T := ⟨S_, .f32⟩) main_call4_v0) id,
    TRef.unary (TRef.of (T := ⟨S_, .f32⟩) main_call4_v0) (TRef.of (T := ⟨S8000, .f32⟩) main_call4_v1) (broadcastInDim S8000 ![] bcast_S_S8000) ]
theorem midOps2_sub : (midOps2 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., unary_bufs_sub .., binary_bufs_sub .., unary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub ..⟩
theorem midOps2_fresh : (midOps2 : List (HloOp τ sig (Elt F))).Forall fun op => op.fresh = ∅ := by
  simp only [List.Forall]; repeat' constructor
theorem midOps2_keeps (V : Valuation τ sig (Elt F)) (r : Ref sig .tc) (hr : r ∈ argRefs) :
    after midOps2 V (Proc.devRef .tc r) = V (Proc.devRef .tc r) := by
  simp only [argRefs, List.mem_cons, List.not_mem_nil, or_false] at hr
  rcases hr with rfl | rfl | rfl | rfl | rfl | rfl | rfl | rfl | rfl | rfl | rfl <;>
    (refine after_of_forall_not_mem _ _ (List.forall_iff_forall_mem.mp ?_)
     simp only [midOps2, List.Forall, StableHlo.nullary_writes, StableHlo.unary_writes, StableHlo.binary_writes, StableHlo.ternary_writes, StableHlo.quaternary_writes, StableHlo.reshape_writes, StableHlo.binaryIndexed_writes, Finset.mem_singleton]
     repeat' apply And.intro
     all_goals exact devRef_ne_of_ne (by decide))

/-- Operations 123 … 162 of the program, in order. -/
abbrev midOps3 : List (HloOp τ sig (Elt F)) :=
  [ TRef.binary (TRef.of (T := ⟨S8000, .f32⟩) main_call4_v1) (TRef.of (T := ⟨S8000, .f32⟩) main_v92) (TRef.of (T := ⟨S8000, .f32⟩) main_v93) maximumf,
    nullary main_cst_17 (constant S_ .f32 0x00000000#32),
    unary main_cst_17 main_v94 (broadcastInDim S8000 ![] bcast_S_S8000 : (⟨S_, .f32⟩ : BufTy).Contents (Elt F) → (⟨S8000, .f32⟩ : BufTy).Contents (Elt F)),
    unary main_v84 main_v95 (broadcastInDim S524288x1 ![0] bcast_S524288_S524288x1_0 : (⟨S524288, .i32⟩ : BufTy).Contents (Elt F) → (⟨S524288x1, .i32⟩ : BufTy).Contents (Elt F)),
    ternary main_v94 main_v95 main_v89 main_v96 ((fun x i u => Host.scatterAdd scatter_S8000_S524288x1_S524288_n_0_0_1 x i u) : (⟨S8000, .f32⟩ : BufTy).Contents (Elt F) → (⟨S524288x1, .i32⟩ : BufTy).Contents (Elt F) → (⟨S524288, .f32⟩ : BufTy).Contents (Elt F) → (⟨S8000, .f32⟩ : BufTy).Contents (Elt F)),
    nullary main_cst_18 (constant S_ .f32 0x3F800000#32),
    TRef.unary (TRef.of (T := ⟨S_, .f32⟩) main_cst_18) (TRef.of (T := ⟨S_, .f32⟩) main_call5_v0) id,
    TRef.unary (TRef.of (T := ⟨S_, .f32⟩) main_call5_v0) (TRef.of (T := ⟨S8000, .f32⟩) main_call5_v1) (broadcastInDim S8000 ![] bcast_S_S8000),
    TRef.binary (TRef.of (T := ⟨S8000, .f32⟩) main_call5_v1) (TRef.of (T := ⟨S8000, .f32⟩) main_v96) (TRef.of (T := ⟨S8000, .f32⟩) main_v97) maximumf,
    unary main_v93 main_v98 (Host.rsqrt : (⟨S8000, .f32⟩ : BufTy).Contents (Elt F) → (⟨S8000, .f32⟩ : BufTy).Contents (Elt F)),
    unary main_v98 main_v99 (broadcastInDim S8000x1 ![0] bcast_S8000_S8000x1_0 : (⟨S8000, .f32⟩ : BufTy).Contents (Elt F) → (⟨S8000x1, .f32⟩ : BufTy).Contents (Elt F)),
    unary main_v99 main_v100 (broadcastInDim S8000x64 ![0, 1] bcast_S8000x1_S8000x64_0_1 : (⟨S8000x1, .f32⟩ : BufTy).Contents (Elt F) → (⟨S8000x64, .f32⟩ : BufTy).Contents (Elt F)),
    binary main_v0 main_v100 main_v101 (mulf : (⟨S8000x64, .f32⟩ : BufTy).Contents (Elt F) → (⟨S8000x64, .f32⟩ : BufTy).Contents (Elt F) → (⟨S8000x64, .f32⟩ : BufTy).Contents (Elt F)),
    binary main_v101 main_v86 main_v102 ((fun l r => Host.dotGeneral dot_S8000x64_S64x64_S8000x64_1_0_0_1_n_n none l r) : (⟨S8000x64, .f32⟩ : BufTy).Contents (Elt F) → (⟨S64x64, .f32⟩ : BufTy).Contents (Elt F) → (⟨S8000x64, .f32⟩ : BufTy).Contents (Elt F)),
    nullary main_c_19 (constantI S_ 32 0#32),
    unary main_c_19 main_v103 (broadcastInDim S524288 ![] bcast_S_S524288 : (⟨S_, .i32⟩ : BufTy).Contents (Elt F) → (⟨S524288, .i32⟩ : BufTy).Contents (Elt F)),
    binary main_v82 main_v103 main_v104 (cmpi .slt : (⟨S524288, .i32⟩ : BufTy).Contents (Elt F) → (⟨S524288, .i32⟩ : BufTy).Contents (Elt F) → (⟨S524288, .i1⟩ : BufTy).Contents (Elt F)),
    nullary main_c_20 (constantI S_ 32 8000#32),
    unary main_c_20 main_v105 (broadcastInDim S524288 ![] bcast_S_S524288 : (⟨S_, .i32⟩ : BufTy).Contents (Elt F) → (⟨S524288, .i32⟩ : BufTy).Contents (Elt F)),
    binary main_v82 main_v105 main_v106 (addi : (⟨S524288, .i32⟩ : BufTy).Contents (Elt F) → (⟨S524288, .i32⟩ : BufTy).Contents (Elt F) → (⟨S524288, .i32⟩ : BufTy).Contents (Elt F)),
    ternary main_v104 main_v106 main_v82 main_v107 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v107 main_v108 (broadcastInDim S524288x1 ![0] bcast_S524288_S524288x1_0 : (⟨S524288, .i32⟩ : BufTy).Contents (Elt F) → (⟨S524288x1, .i32⟩ : BufTy).Contents (Elt F)),
    binary main_v102 main_v108 main_v109 ((fun x i => Host.gather gather_S8000x64_S524288x1_S524288x64_1_0_n_n_0_1_164 x i) : (⟨S8000x64, .f32⟩ : BufTy).Contents (Elt F) → (⟨S524288x1, .i32⟩ : BufTy).Contents (Elt F) → (⟨S524288x64, .f32⟩ : BufTy).Contents (Elt F)),
    nullary main_cst_21 (constant S_ .f32 0x00000000#32),
    unary main_cst_21 main_v110 (broadcastInDim S8000x64 ![] bcast_S_S8000x64 : (⟨S_, .f32⟩ : BufTy).Contents (Elt F) → (⟨S8000x64, .f32⟩ : BufTy).Contents (Elt F)),
    unary main_v84 main_v111 (broadcastInDim S524288x1 ![0] bcast_S524288_S524288x1_0 : (⟨S524288, .i32⟩ : BufTy).Contents (Elt F) → (⟨S524288x1, .i32⟩ : BufTy).Contents (Elt F)),
    ternary main_v110 main_v111 main_v109 main_v112 ((fun x i u => Host.scatterAdd scatter_S8000x64_S524288x1_S524288x64_1_0_0_1 x i u) : (⟨S8000x64, .f32⟩ : BufTy).Contents (Elt F) → (⟨S524288x1, .i32⟩ : BufTy).Contents (Elt F) → (⟨S524288x64, .f32⟩ : BufTy).Contents (Elt F) → (⟨S8000x64, .f32⟩ : BufTy).Contents (Elt F)),
    unary main_v97 main_v113 (Host.rsqrt : (⟨S8000, .f32⟩ : BufTy).Contents (Elt F) → (⟨S8000, .f32⟩ : BufTy).Contents (Elt F)),
    unary main_v113 main_v114 (broadcastInDim S8000x1 ![0] bcast_S8000_S8000x1_0 : (⟨S8000, .f32⟩ : BufTy).Contents (Elt F) → (⟨S8000x1, .f32⟩ : BufTy).Contents (Elt F)),
    unary main_v114 main_v115 (broadcastInDim S8000x64 ![0, 1] bcast_S8000x1_S8000x64_0_1 : (⟨S8000x1, .f32⟩ : BufTy).Contents (Elt F) → (⟨S8000x64, .f32⟩ : BufTy).Contents (Elt F)),
    binary main_v112 main_v115 main_v116 (mulf : (⟨S8000x64, .f32⟩ : BufTy).Contents (Elt F) → (⟨S8000x64, .f32⟩ : BufTy).Contents (Elt F) → (⟨S8000x64, .f32⟩ : BufTy).Contents (Elt F)),
    unary main_v88 main_v117 (broadcastInDim S1x64 ![1] bcast_S64_S1x64_1 : (⟨S64, .f32⟩ : BufTy).Contents (Elt F) → (⟨S1x64, .f32⟩ : BufTy).Contents (Elt F)),
    unary main_v117 main_v118 (broadcastInDim S8000x64 ![0, 1] bcast_S1x64_S8000x64_0_1 : (⟨S1x64, .f32⟩ : BufTy).Contents (Elt F) → (⟨S8000x64, .f32⟩ : BufTy).Contents (Elt F)),
    binary main_v116 main_v118 main_v119 (addf : (⟨S8000x64, .f32⟩ : BufTy).Contents (Elt F) → (⟨S8000x64, .f32⟩ : BufTy).Contents (Elt F) → (⟨S8000x64, .f32⟩ : BufTy).Contents (Elt F)),
    unary main_arg9 main_v120 ((extractStridedSlice S1x524288 ![3, 0] · slices_S4x524288_S1x524288_3_0) : (⟨S4x524288, .i32⟩ : BufTy).Contents (Elt F) → (⟨S1x524288, .i32⟩ : BufTy).Contents (Elt F)),
    reshape main_v120 main_v121 rfl shapeCasts_S1x524288_S524288,
    unary main_arg10 main_v122 ((extractStridedSlice S1x524288 ![3, 0] · slices_S4x524288_S1x524288_3_0) : (⟨S4x524288, .i32⟩ : BufTy).Contents (Elt F) → (⟨S1x524288, .i32⟩ : BufTy).Contents (Elt F)),
    reshape main_v122 main_v123 rfl shapeCasts_S1x524288_S524288,
    unary main_arg4 main_v124 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v124 main_v125 rfl shapeCasts_S1x64x64_S64x64 ]
theorem midOps3_sub : (midOps3 : List (HloOp τ sig (Elt F))).Forall fun op => op.bufs ⊆ tcRefs τ sig :=
  ⟨binary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub ..⟩
theorem midOps3_fresh : (midOps3 : List (HloOp τ sig (Elt F))).Forall fun op => op.fresh = ∅ := by
  simp only [List.Forall]; repeat' constructor
theorem midOps3_keeps (V : Valuation τ sig (Elt F)) (r : Ref sig .tc) (hr : r ∈ argRefs) :
    after midOps3 V (Proc.devRef .tc r) = V (Proc.devRef .tc r) := by
  simp only [argRefs, List.mem_cons, List.not_mem_nil, or_false] at hr
  rcases hr with rfl | rfl | rfl | rfl | rfl | rfl | rfl | rfl | rfl | rfl | rfl <;>
    (refine after_of_forall_not_mem _ _ (List.forall_iff_forall_mem.mp ?_)
     simp only [midOps3, List.Forall, StableHlo.nullary_writes, StableHlo.unary_writes, StableHlo.binary_writes, StableHlo.ternary_writes, StableHlo.quaternary_writes, StableHlo.reshape_writes, StableHlo.binaryIndexed_writes, Finset.mem_singleton]
     repeat' apply And.intro
     all_goals exact devRef_ne_of_ne (by decide))

/-- Operations 163 … 202 of the program, in order. -/
abbrev midOps4 : List (HloOp τ sig (Elt F)) :=
  [ unary main_arg5 main_v126 ((extractStridedSlice S1x64 ![3, 0] · slices_S4x64_S1x64_3_0) : (⟨S4x64, .f32⟩ : BufTy).Contents (Elt F) → (⟨S1x64, .f32⟩ : BufTy).Contents (Elt F)),
    reshape main_v126 main_v127 rfl shapeCasts_S1x64_S64,
    nullary main_cst_22 (constant S_ .f32 0x3F800000#32),
    unary main_cst_22 main_v128 (broadcastInDim S524288 ![] bcast_S_S524288 : (⟨S_, .f32⟩ : BufTy).Contents (Elt F) → (⟨S524288, .f32⟩ : BufTy).Contents (Elt F)),
    nullary main_cst_23 (constant S_ .f32 0x00000000#32),
    unary main_cst_23 main_v129 (broadcastInDim S8000 ![] bcast_S_S8000 : (⟨S_, .f32⟩ : BufTy).Contents (Elt F) → (⟨S8000, .f32⟩ : BufTy).Contents (Elt F)),
    unary main_v121 main_v130 (broadcastInDim S524288x1 ![0] bcast_S524288_S524288x1_0 : (⟨S524288, .i32⟩ : BufTy).Contents (Elt F) → (⟨S524288x1, .i32⟩ : BufTy).Contents (Elt F)),
    ternary main_v129 main_v130 main_v128 main_v131 ((fun x i u => Host.scatterAdd scatter_S8000_S524288x1_S524288_n_0_0_1 x i u) : (⟨S8000, .f32⟩ : BufTy).Contents (Elt F) → (⟨S524288x1, .i32⟩ : BufTy).Contents (Elt F) → (⟨S524288, .f32⟩ : BufTy).Contents (Elt F) → (⟨S8000, .f32⟩ : BufTy).Contents (Elt F)),
    nullary main_cst_24 (constant S_ .f32 0x3F800000#32),
    TRef.unary (TRef.of (T := ⟨S_, .f32⟩) main_cst_24) (TRef.of (T := ⟨S_, .f32⟩) main_call6_v0) id,
    TRef.unary (TRef.of (T := ⟨S_, .f32⟩) main_call6_v0) (TRef.of (T := ⟨S8000, .f32⟩) main_call6_v1) (broadcastInDim S8000 ![] bcast_S_S8000),
    TRef.binary (TRef.of (T := ⟨S8000, .f32⟩) main_call6_v1) (TRef.of (T := ⟨S8000, .f32⟩) main_v131) (TRef.of (T := ⟨S8000, .f32⟩) main_v132) maximumf,
    nullary main_cst_25 (constant S_ .f32 0x00000000#32),
    unary main_cst_25 main_v133 (broadcastInDim S8000 ![] bcast_S_S8000 : (⟨S_, .f32⟩ : BufTy).Contents (Elt F) → (⟨S8000, .f32⟩ : BufTy).Contents (Elt F)),
    unary main_v123 main_v134 (broadcastInDim S524288x1 ![0] bcast_S524288_S524288x1_0 : (⟨S524288, .i32⟩ : BufTy).Contents (Elt F) → (⟨S524288x1, .i32⟩ : BufTy).Contents (Elt F)),
    ternary main_v133 main_v134 main_v128 main_v135 ((fun x i u => Host.scatterAdd scatter_S8000_S524288x1_S524288_n_0_0_1 x i u) : (⟨S8000, .f32⟩ : BufTy).Contents (Elt F) → (⟨S524288x1, .i32⟩ : BufTy).Contents (Elt F) → (⟨S524288, .f32⟩ : BufTy).Contents (Elt F) → (⟨S8000, .f32⟩ : BufTy).Contents (Elt F)),
    nullary main_cst_26 (constant S_ .f32 0x3F800000#32),
    TRef.unary (TRef.of (T := ⟨S_, .f32⟩) main_cst_26) (TRef.of (T := ⟨S_, .f32⟩) main_call7_v0) id,
    TRef.unary (TRef.of (T := ⟨S_, .f32⟩) main_call7_v0) (TRef.of (T := ⟨S8000, .f32⟩) main_call7_v1) (broadcastInDim S8000 ![] bcast_S_S8000),
    TRef.binary (TRef.of (T := ⟨S8000, .f32⟩) main_call7_v1) (TRef.of (T := ⟨S8000, .f32⟩) main_v135) (TRef.of (T := ⟨S8000, .f32⟩) main_v136) maximumf,
    unary main_v132 main_v137 (Host.rsqrt : (⟨S8000, .f32⟩ : BufTy).Contents (Elt F) → (⟨S8000, .f32⟩ : BufTy).Contents (Elt F)),
    unary main_v137 main_v138 (broadcastInDim S8000x1 ![0] bcast_S8000_S8000x1_0 : (⟨S8000, .f32⟩ : BufTy).Contents (Elt F) → (⟨S8000x1, .f32⟩ : BufTy).Contents (Elt F)),
    unary main_v138 main_v139 (broadcastInDim S8000x64 ![0, 1] bcast_S8000x1_S8000x64_0_1 : (⟨S8000x1, .f32⟩ : BufTy).Contents (Elt F) → (⟨S8000x64, .f32⟩ : BufTy).Contents (Elt F)),
    binary main_v1 main_v139 main_v140 (mulf : (⟨S8000x64, .f32⟩ : BufTy).Contents (Elt F) → (⟨S8000x64, .f32⟩ : BufTy).Contents (Elt F) → (⟨S8000x64, .f32⟩ : BufTy).Contents (Elt F)),
    binary main_v140 main_v125 main_v141 ((fun l r => Host.dotGeneral dot_S8000x64_S64x64_S8000x64_1_0_0_1_n_n none l r) : (⟨S8000x64, .f32⟩ : BufTy).Contents (Elt F) → (⟨S64x64, .f32⟩ : BufTy).Contents (Elt F) → (⟨S8000x64, .f32⟩ : BufTy).Contents (Elt F)),
    nullary main_c_27 (constantI S_ 32 0#32),
    unary main_c_27 main_v142 (broadcastInDim S524288 ![] bcast_S_S524288 : (⟨S_, .i32⟩ : BufTy).Contents (Elt F) → (⟨S524288, .i32⟩ : BufTy).Contents (Elt F)),
    binary main_v121 main_v142 main_v143 (cmpi .slt : (⟨S524288, .i32⟩ : BufTy).Contents (Elt F) → (⟨S524288, .i32⟩ : BufTy).Contents (Elt F) → (⟨S524288, .i1⟩ : BufTy).Contents (Elt F)),
    nullary main_c_28 (constantI S_ 32 8000#32),
    unary main_c_28 main_v144 (broadcastInDim S524288 ![] bcast_S_S524288 : (⟨S_, .i32⟩ : BufTy).Contents (Elt F) → (⟨S524288, .i32⟩ : BufTy).Contents (Elt F)),
    binary main_v121 main_v144 main_v145 (addi : (⟨S524288, .i32⟩ : BufTy).Contents (Elt F) → (⟨S524288, .i32⟩ : BufTy).Contents (Elt F) → (⟨S524288, .i32⟩ : BufTy).Contents (Elt F)),
    ternary main_v143 main_v145 main_v121 main_v146 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v146 main_v147 (broadcastInDim S524288x1 ![0] bcast_S524288_S524288x1_0 : (⟨S524288, .i32⟩ : BufTy).Contents (Elt F) → (⟨S524288x1, .i32⟩ : BufTy).Contents (Elt F)),
    binary main_v141 main_v147 main_v148 ((fun x i => Host.gather gather_S8000x64_S524288x1_S524288x64_1_0_n_n_0_1_164 x i) : (⟨S8000x64, .f32⟩ : BufTy).Contents (Elt F) → (⟨S524288x1, .i32⟩ : BufTy).Contents (Elt F) → (⟨S524288x64, .f32⟩ : BufTy).Contents (Elt F)),
    nullary main_cst_29 (constant S_ .f32 0x00000000#32),
    unary main_cst_29 main_v149 (broadcastInDim S8000x64 ![] bcast_S_S8000x64 : (⟨S_, .f32⟩ : BufTy).Contents (Elt F) → (⟨S8000x64, .f32⟩ : BufTy).Contents (Elt F)),
    unary main_v123 main_v150 (broadcastInDim S524288x1 ![0] bcast_S524288_S524288x1_0 : (⟨S524288, .i32⟩ : BufTy).Contents (Elt F) → (⟨S524288x1, .i32⟩ : BufTy).Contents (Elt F)),
    ternary main_v149 main_v150 main_v148 main_v151 ((fun x i u => Host.scatterAdd scatter_S8000x64_S524288x1_S524288x64_1_0_0_1 x i u) : (⟨S8000x64, .f32⟩ : BufTy).Contents (Elt F) → (⟨S524288x1, .i32⟩ : BufTy).Contents (Elt F) → (⟨S524288x64, .f32⟩ : BufTy).Contents (Elt F) → (⟨S8000x64, .f32⟩ : BufTy).Contents (Elt F)),
    unary main_v136 main_v152 (Host.rsqrt : (⟨S8000, .f32⟩ : BufTy).Contents (Elt F) → (⟨S8000, .f32⟩ : BufTy).Contents (Elt F)),
    unary main_v152 main_v153 (broadcastInDim S8000x1 ![0] bcast_S8000_S8000x1_0 : (⟨S8000, .f32⟩ : BufTy).Contents (Elt F) → (⟨S8000x1, .f32⟩ : BufTy).Contents (Elt F)) ]
theorem midOps4_sub : (midOps4 : List (HloOp τ sig (Elt F))).Forall fun op => op.bufs ⊆ tcRefs τ sig :=
  ⟨unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub ..⟩
theorem midOps4_fresh : (midOps4 : List (HloOp τ sig (Elt F))).Forall fun op => op.fresh = ∅ := by
  simp only [List.Forall]; repeat' constructor
theorem midOps4_keeps (V : Valuation τ sig (Elt F)) (r : Ref sig .tc) (hr : r ∈ argRefs) :
    after midOps4 V (Proc.devRef .tc r) = V (Proc.devRef .tc r) := by
  simp only [argRefs, List.mem_cons, List.not_mem_nil, or_false] at hr
  rcases hr with rfl | rfl | rfl | rfl | rfl | rfl | rfl | rfl | rfl | rfl | rfl <;>
    (refine after_of_forall_not_mem _ _ (List.forall_iff_forall_mem.mp ?_)
     simp only [midOps4, List.Forall, StableHlo.nullary_writes, StableHlo.unary_writes, StableHlo.binary_writes, StableHlo.ternary_writes, StableHlo.quaternary_writes, StableHlo.reshape_writes, StableHlo.binaryIndexed_writes, Finset.mem_singleton]
     repeat' apply And.intro
     all_goals exact devRef_ne_of_ne (by decide))

/-- Operations 203 … 242 of the program, in order. -/
abbrev midOps5 : List (HloOp τ sig (Elt F)) :=
  [ unary main_v153 main_v154 (broadcastInDim S8000x64 ![0, 1] bcast_S8000x1_S8000x64_0_1 : (⟨S8000x1, .f32⟩ : BufTy).Contents (Elt F) → (⟨S8000x64, .f32⟩ : BufTy).Contents (Elt F)),
    binary main_v151 main_v154 main_v155 (mulf : (⟨S8000x64, .f32⟩ : BufTy).Contents (Elt F) → (⟨S8000x64, .f32⟩ : BufTy).Contents (Elt F) → (⟨S8000x64, .f32⟩ : BufTy).Contents (Elt F)),
    unary main_v127 main_v156 (broadcastInDim S1x64 ![1] bcast_S64_S1x64_1 : (⟨S64, .f32⟩ : BufTy).Contents (Elt F) → (⟨S1x64, .f32⟩ : BufTy).Contents (Elt F)),
    unary main_v156 main_v157 (broadcastInDim S8000x64 ![0, 1] bcast_S1x64_S8000x64_0_1 : (⟨S1x64, .f32⟩ : BufTy).Contents (Elt F) → (⟨S8000x64, .f32⟩ : BufTy).Contents (Elt F)),
    binary main_v155 main_v157 main_v158 (addf : (⟨S8000x64, .f32⟩ : BufTy).Contents (Elt F) → (⟨S8000x64, .f32⟩ : BufTy).Contents (Elt F) → (⟨S8000x64, .f32⟩ : BufTy).Contents (Elt F)),
    binary main_v119 main_v158 main_v159 (addf : (⟨S8000x64, .f32⟩ : BufTy).Contents (Elt F) → (⟨S8000x64, .f32⟩ : BufTy).Contents (Elt F) → (⟨S8000x64, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S8000x64, .f32⟩) main_call8_v0) (broadcastInDim S8000x64 ![] bcast_S_S8000x64),
    TRef.binary (TRef.of (T := ⟨S8000x64, .f32⟩) main_v80) (TRef.of (T := ⟨S8000x64, .f32⟩) main_call8_v0) (TRef.of (T := ⟨S8000x64, .f32⟩) main_v160) maximumf,
    TRef.nullary (TRef.of (T := ⟨S_, .f32⟩) main_call9_cst) (constant S_ .f32 0x00000000#32),
    TRef.unary (TRef.of (T := ⟨S_, .f32⟩) main_call9_cst) (TRef.of (T := ⟨S8000x64, .f32⟩) main_call9_v0) (broadcastInDim S8000x64 ![] bcast_S_S8000x64),
    TRef.binary (TRef.of (T := ⟨S8000x64, .f32⟩) main_v159) (TRef.of (T := ⟨S8000x64, .f32⟩) main_call9_v0) (TRef.of (T := ⟨S8000x64, .f32⟩) main_v161) maximumf,
    unary main_arg9 main_v162 ((extractStridedSlice S1x524288 ![0, 0] · slices_S4x524288_S1x524288_0_0) : (⟨S4x524288, .i32⟩ : BufTy).Contents (Elt F) → (⟨S1x524288, .i32⟩ : BufTy).Contents (Elt F)),
    reshape main_v162 main_v163 rfl shapeCasts_S1x524288_S524288,
    unary main_arg10 main_v164 ((extractStridedSlice S1x524288 ![0, 0] · slices_S4x524288_S1x524288_0_0) : (⟨S4x524288, .i32⟩ : BufTy).Contents (Elt F) → (⟨S1x524288, .i32⟩ : BufTy).Contents (Elt F)),
    reshape main_v164 main_v165 rfl shapeCasts_S1x524288_S524288,
    unary main_arg6 main_v166 ((extractStridedSlice S1x64x32 ![0, 0, 0] · slices_S4x64x32_S1x64x32_0_0_0) : (⟨S4x64x32, .f32⟩ : BufTy).Contents (Elt F) → (⟨S1x64x32, .f32⟩ : BufTy).Contents (Elt F)),
    reshape main_v166 main_v167 rfl shapeCasts_S1x64x32_S64x32,
    unary main_arg7 main_v168 ((extractStridedSlice S1x32 ![0, 0] · slices_S4x32_S1x32_0_0) : (⟨S4x32, .f32⟩ : BufTy).Contents (Elt F) → (⟨S1x32, .f32⟩ : BufTy).Contents (Elt F)),
    reshape main_v168 main_v169 rfl shapeCasts_S1x32_S32,
    nullary main_cst_30 (constant S_ .f32 0x3F800000#32),
    unary main_cst_30 main_v170 (broadcastInDim S524288 ![] bcast_S_S524288 : (⟨S_, .f32⟩ : BufTy).Contents (Elt F) → (⟨S524288, .f32⟩ : BufTy).Contents (Elt F)),
    nullary main_cst_31 (constant S_ .f32 0x00000000#32),
    unary main_cst_31 main_v171 (broadcastInDim S8000 ![] bcast_S_S8000 : (⟨S_, .f32⟩ : BufTy).Contents (Elt F) → (⟨S8000, .f32⟩ : BufTy).Contents (Elt F)),
    unary main_v163 main_v172 (broadcastInDim S524288x1 ![0] bcast_S524288_S524288x1_0 : (⟨S524288, .i32⟩ : BufTy).Contents (Elt F) → (⟨S524288x1, .i32⟩ : BufTy).Contents (Elt F)),
    ternary main_v171 main_v172 main_v170 main_v173 ((fun x i u => Host.scatterAdd scatter_S8000_S524288x1_S524288_n_0_0_1 x i u) : (⟨S8000, .f32⟩ : BufTy).Contents (Elt F) → (⟨S524288x1, .i32⟩ : BufTy).Contents (Elt F) → (⟨S524288, .f32⟩ : BufTy).Contents (Elt F) → (⟨S8000, .f32⟩ : BufTy).Contents (Elt F)),
    nullary main_cst_32 (constant S_ .f32 0x3F800000#32),
    TRef.unary (TRef.of (T := ⟨S_, .f32⟩) main_cst_32) (TRef.of (T := ⟨S_, .f32⟩) main_call10_v0) id,
    TRef.unary (TRef.of (T := ⟨S_, .f32⟩) main_call10_v0) (TRef.of (T := ⟨S8000, .f32⟩) main_call10_v1) (broadcastInDim S8000 ![] bcast_S_S8000),
    TRef.binary (TRef.of (T := ⟨S8000, .f32⟩) main_call10_v1) (TRef.of (T := ⟨S8000, .f32⟩) main_v173) (TRef.of (T := ⟨S8000, .f32⟩) main_v174) maximumf,
    nullary main_cst_33 (constant S_ .f32 0x00000000#32),
    unary main_cst_33 main_v175 (broadcastInDim S8000 ![] bcast_S_S8000 : (⟨S_, .f32⟩ : BufTy).Contents (Elt F) → (⟨S8000, .f32⟩ : BufTy).Contents (Elt F)),
    unary main_v165 main_v176 (broadcastInDim S524288x1 ![0] bcast_S524288_S524288x1_0 : (⟨S524288, .i32⟩ : BufTy).Contents (Elt F) → (⟨S524288x1, .i32⟩ : BufTy).Contents (Elt F)),
    ternary main_v175 main_v176 main_v170 main_v177 ((fun x i u => Host.scatterAdd scatter_S8000_S524288x1_S524288_n_0_0_1 x i u) : (⟨S8000, .f32⟩ : BufTy).Contents (Elt F) → (⟨S524288x1, .i32⟩ : BufTy).Contents (Elt F) → (⟨S524288, .f32⟩ : BufTy).Contents (Elt F) → (⟨S8000, .f32⟩ : BufTy).Contents (Elt F)),
    nullary main_cst_34 (constant S_ .f32 0x3F800000#32),
    TRef.unary (TRef.of (T := ⟨S_, .f32⟩) main_cst_34) (TRef.of (T := ⟨S_, .f32⟩) main_call11_v0) id,
    TRef.unary (TRef.of (T := ⟨S_, .f32⟩) main_call11_v0) (TRef.of (T := ⟨S8000, .f32⟩) main_call11_v1) (broadcastInDim S8000 ![] bcast_S_S8000),
    TRef.binary (TRef.of (T := ⟨S8000, .f32⟩) main_call11_v1) (TRef.of (T := ⟨S8000, .f32⟩) main_v177) (TRef.of (T := ⟨S8000, .f32⟩) main_v178) maximumf,
    unary main_v174 main_v179 (Host.rsqrt : (⟨S8000, .f32⟩ : BufTy).Contents (Elt F) → (⟨S8000, .f32⟩ : BufTy).Contents (Elt F)),
    unary main_v179 main_v180 (broadcastInDim S8000x1 ![0] bcast_S8000_S8000x1_0 : (⟨S8000, .f32⟩ : BufTy).Contents (Elt F) → (⟨S8000x1, .f32⟩ : BufTy).Contents (Elt F)) ]
theorem midOps5_sub : (midOps5 : List (HloOp τ sig (Elt F))).Forall fun op => op.bufs ⊆ tcRefs τ sig :=
  ⟨unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub .., unary_bufs_sub .., unary_bufs_sub ..⟩
theorem midOps5_fresh : (midOps5 : List (HloOp τ sig (Elt F))).Forall fun op => op.fresh = ∅ := by
  simp only [List.Forall]; repeat' constructor
theorem midOps5_keeps (V : Valuation τ sig (Elt F)) (r : Ref sig .tc) (hr : r ∈ argRefs) :
    after midOps5 V (Proc.devRef .tc r) = V (Proc.devRef .tc r) := by
  simp only [argRefs, List.mem_cons, List.not_mem_nil, or_false] at hr
  rcases hr with rfl | rfl | rfl | rfl | rfl | rfl | rfl | rfl | rfl | rfl | rfl <;>
    (refine after_of_forall_not_mem _ _ (List.forall_iff_forall_mem.mp ?_)
     simp only [midOps5, List.Forall, StableHlo.nullary_writes, StableHlo.unary_writes, StableHlo.binary_writes, StableHlo.ternary_writes, StableHlo.quaternary_writes, StableHlo.reshape_writes, StableHlo.binaryIndexed_writes, Finset.mem_singleton]
     repeat' apply And.intro
     all_goals exact devRef_ne_of_ne (by decide))

/-- Operations 243 … 282 of the program, in order. -/
abbrev midOps6 : List (HloOp τ sig (Elt F)) :=
  [ unary main_v180 main_v181 (broadcastInDim S8000x64 ![0, 1] bcast_S8000x1_S8000x64_0_1 : (⟨S8000x1, .f32⟩ : BufTy).Contents (Elt F) → (⟨S8000x64, .f32⟩ : BufTy).Contents (Elt F)),
    binary main_v160 main_v181 main_v182 (mulf : (⟨S8000x64, .f32⟩ : BufTy).Contents (Elt F) → (⟨S8000x64, .f32⟩ : BufTy).Contents (Elt F) → (⟨S8000x64, .f32⟩ : BufTy).Contents (Elt F)),
    binary main_v182 main_v167 main_v183 ((fun l r => Host.dotGeneral dot_S8000x64_S64x32_S8000x32_1_0_0_1_n_n none l r) : (⟨S8000x64, .f32⟩ : BufTy).Contents (Elt F) → (⟨S64x32, .f32⟩ : BufTy).Contents (Elt F) → (⟨S8000x32, .f32⟩ : BufTy).Contents (Elt F)),
    nullary main_c_35 (constantI S_ 32 0#32),
    unary main_c_35 main_v184 (broadcastInDim S524288 ![] bcast_S_S524288 : (⟨S_, .i32⟩ : BufTy).Contents (Elt F) → (⟨S524288, .i32⟩ : BufTy).Contents (Elt F)),
    binary main_v163 main_v184 main_v185 (cmpi .slt : (⟨S524288, .i32⟩ : BufTy).Contents (Elt F) → (⟨S524288, .i32⟩ : BufTy).Contents (Elt F) → (⟨S524288, .i1⟩ : BufTy).Contents (Elt F)),
    nullary main_c_36 (constantI S_ 32 8000#32),
    unary main_c_36 main_v186 (broadcastInDim S524288 ![] bcast_S_S524288 : (⟨S_, .i32⟩ : BufTy).Contents (Elt F) → (⟨S524288, .i32⟩ : BufTy).Contents (Elt F)),
    binary main_v163 main_v186 main_v187 (addi : (⟨S524288, .i32⟩ : BufTy).Contents (Elt F) → (⟨S524288, .i32⟩ : BufTy).Contents (Elt F) → (⟨S524288, .i32⟩ : BufTy).Contents (Elt F)),
    ternary main_v185 main_v187 main_v163 main_v188 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v188 main_v189 (broadcastInDim S524288x1 ![0] bcast_S524288_S524288x1_0 : (⟨S524288, .i32⟩ : BufTy).Contents (Elt F) → (⟨S524288x1, .i32⟩ : BufTy).Contents (Elt F)),
    binary main_v183 main_v189 main_v190 ((fun x i => Host.gather gather_S8000x32_S524288x1_S524288x32_1_0_n_n_0_1_132 x i) : (⟨S8000x32, .f32⟩ : BufTy).Contents (Elt F) → (⟨S524288x1, .i32⟩ : BufTy).Contents (Elt F) → (⟨S524288x32, .f32⟩ : BufTy).Contents (Elt F)),
    nullary main_cst_37 (constant S_ .f32 0x00000000#32),
    unary main_cst_37 main_v191 (broadcastInDim S8000x32 ![] bcast_S_S8000x32 : (⟨S_, .f32⟩ : BufTy).Contents (Elt F) → (⟨S8000x32, .f32⟩ : BufTy).Contents (Elt F)),
    unary main_v165 main_v192 (broadcastInDim S524288x1 ![0] bcast_S524288_S524288x1_0 : (⟨S524288, .i32⟩ : BufTy).Contents (Elt F) → (⟨S524288x1, .i32⟩ : BufTy).Contents (Elt F)),
    ternary main_v191 main_v192 main_v190 main_v193 ((fun x i u => Host.scatterAdd scatter_S8000x32_S524288x1_S524288x32_1_0_0_1 x i u) : (⟨S8000x32, .f32⟩ : BufTy).Contents (Elt F) → (⟨S524288x1, .i32⟩ : BufTy).Contents (Elt F) → (⟨S524288x32, .f32⟩ : BufTy).Contents (Elt F) → (⟨S8000x32, .f32⟩ : BufTy).Contents (Elt F)),
    unary main_v178 main_v194 (Host.rsqrt : (⟨S8000, .f32⟩ : BufTy).Contents (Elt F) → (⟨S8000, .f32⟩ : BufTy).Contents (Elt F)),
    unary main_v194 main_v195 (broadcastInDim S8000x1 ![0] bcast_S8000_S8000x1_0 : (⟨S8000, .f32⟩ : BufTy).Contents (Elt F) → (⟨S8000x1, .f32⟩ : BufTy).Contents (Elt F)),
    unary main_v195 main_v196 (broadcastInDim S8000x32 ![0, 1] bcast_S8000x1_S8000x32_0_1 : (⟨S8000x1, .f32⟩ : BufTy).Contents (Elt F) → (⟨S8000x32, .f32⟩ : BufTy).Contents (Elt F)),
    binary main_v193 main_v196 main_v197 (mulf : (⟨S8000x32, .f32⟩ : BufTy).Contents (Elt F) → (⟨S8000x32, .f32⟩ : BufTy).Contents (Elt F) → (⟨S8000x32, .f32⟩ : BufTy).Contents (Elt F)),
    unary main_v169 main_v198 (broadcastInDim S1x32 ![1] bcast_S32_S1x32_1 : (⟨S32, .f32⟩ : BufTy).Contents (Elt F) → (⟨S1x32, .f32⟩ : BufTy).Contents (Elt F)),
    unary main_v198 main_v199 (broadcastInDim S8000x32 ![0, 1] bcast_S1x32_S8000x32_0_1 : (⟨S1x32, .f32⟩ : BufTy).Contents (Elt F) → (⟨S8000x32, .f32⟩ : BufTy).Contents (Elt F)),
    binary main_v197 main_v199 main_v200 (addf : (⟨S8000x32, .f32⟩ : BufTy).Contents (Elt F) → (⟨S8000x32, .f32⟩ : BufTy).Contents (Elt F) → (⟨S8000x32, .f32⟩ : BufTy).Contents (Elt F)),
    unary main_arg9 main_v201 ((extractStridedSlice S1x524288 ![2, 0] · slices_S4x524288_S1x524288_2_0) : (⟨S4x524288, .i32⟩ : BufTy).Contents (Elt F) → (⟨S1x524288, .i32⟩ : BufTy).Contents (Elt F)),
    reshape main_v201 main_v202 rfl shapeCasts_S1x524288_S524288,
    unary main_arg10 main_v203 ((extractStridedSlice S1x524288 ![2, 0] · slices_S4x524288_S1x524288_2_0) : (⟨S4x524288, .i32⟩ : BufTy).Contents (Elt F) → (⟨S1x524288, .i32⟩ : BufTy).Contents (Elt F)),
    reshape main_v203 main_v204 rfl shapeCasts_S1x524288_S524288,
    unary main_arg6 main_v205 ((extractStridedSlice S1x64x32 ![2, 0, 0] · slices_S4x64x32_S1x64x32_2_0_0) : (⟨S4x64x32, .f32⟩ : BufTy).Contents (Elt F) → (⟨S1x64x32, .f32⟩ : BufTy).Contents (Elt F)),
    reshape main_v205 main_v206 rfl shapeCasts_S1x64x32_S64x32,
    unary main_arg7 main_v207 ((extractStridedSlice S1x32 ![2, 0] · slices_S4x32_S1x32_2_0) : (⟨S4x32, .f32⟩ : BufTy).Contents (Elt F) → (⟨S1x32, .f32⟩ : BufTy).Contents (Elt F)),
    reshape main_v207 main_v208 rfl shapeCasts_S1x32_S32,
    nullary main_cst_38 (constant S_ .f32 0x3F800000#32),
    unary main_cst_38 main_v209 (broadcastInDim S524288 ![] bcast_S_S524288 : (⟨S_, .f32⟩ : BufTy).Contents (Elt F) → (⟨S524288, .f32⟩ : BufTy).Contents (Elt F)),
    nullary main_cst_39 (constant S_ .f32 0x00000000#32),
    unary main_cst_39 main_v210 (broadcastInDim S8000 ![] bcast_S_S8000 : (⟨S_, .f32⟩ : BufTy).Contents (Elt F) → (⟨S8000, .f32⟩ : BufTy).Contents (Elt F)),
    unary main_v202 main_v211 (broadcastInDim S524288x1 ![0] bcast_S524288_S524288x1_0 : (⟨S524288, .i32⟩ : BufTy).Contents (Elt F) → (⟨S524288x1, .i32⟩ : BufTy).Contents (Elt F)),
    ternary main_v210 main_v211 main_v209 main_v212 ((fun x i u => Host.scatterAdd scatter_S8000_S524288x1_S524288_n_0_0_1 x i u) : (⟨S8000, .f32⟩ : BufTy).Contents (Elt F) → (⟨S524288x1, .i32⟩ : BufTy).Contents (Elt F) → (⟨S524288, .f32⟩ : BufTy).Contents (Elt F) → (⟨S8000, .f32⟩ : BufTy).Contents (Elt F)),
    nullary main_cst_40 (constant S_ .f32 0x3F800000#32),
    TRef.unary (TRef.of (T := ⟨S_, .f32⟩) main_cst_40) (TRef.of (T := ⟨S_, .f32⟩) main_call12_v0) id,
    TRef.unary (TRef.of (T := ⟨S_, .f32⟩) main_call12_v0) (TRef.of (T := ⟨S8000, .f32⟩) main_call12_v1) (broadcastInDim S8000 ![] bcast_S_S8000) ]
theorem midOps6_sub : (midOps6 : List (HloOp τ sig (Elt F))).Forall fun op => op.bufs ⊆ tcRefs τ sig :=
  ⟨unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub ..⟩
theorem midOps6_fresh : (midOps6 : List (HloOp τ sig (Elt F))).Forall fun op => op.fresh = ∅ := by
  simp only [List.Forall]; repeat' constructor
theorem midOps6_keeps (V : Valuation τ sig (Elt F)) (r : Ref sig .tc) (hr : r ∈ argRefs) :
    after midOps6 V (Proc.devRef .tc r) = V (Proc.devRef .tc r) := by
  simp only [argRefs, List.mem_cons, List.not_mem_nil, or_false] at hr
  rcases hr with rfl | rfl | rfl | rfl | rfl | rfl | rfl | rfl | rfl | rfl | rfl <;>
    (refine after_of_forall_not_mem _ _ (List.forall_iff_forall_mem.mp ?_)
     simp only [midOps6, List.Forall, StableHlo.nullary_writes, StableHlo.unary_writes, StableHlo.binary_writes, StableHlo.ternary_writes, StableHlo.quaternary_writes, StableHlo.reshape_writes, StableHlo.binaryIndexed_writes, Finset.mem_singleton]
     repeat' apply And.intro
     all_goals exact devRef_ne_of_ne (by decide))

/-- Operations 283 … 322 of the program, in order. -/
abbrev midOps7 : List (HloOp τ sig (Elt F)) :=
  [ TRef.binary (TRef.of (T := ⟨S8000, .f32⟩) main_call12_v1) (TRef.of (T := ⟨S8000, .f32⟩) main_v212) (TRef.of (T := ⟨S8000, .f32⟩) main_v213) maximumf,
    nullary main_cst_41 (constant S_ .f32 0x00000000#32),
    unary main_cst_41 main_v214 (broadcastInDim S8000 ![] bcast_S_S8000 : (⟨S_, .f32⟩ : BufTy).Contents (Elt F) → (⟨S8000, .f32⟩ : BufTy).Contents (Elt F)),
    unary main_v204 main_v215 (broadcastInDim S524288x1 ![0] bcast_S524288_S524288x1_0 : (⟨S524288, .i32⟩ : BufTy).Contents (Elt F) → (⟨S524288x1, .i32⟩ : BufTy).Contents (Elt F)),
    ternary main_v214 main_v215 main_v209 main_v216 ((fun x i u => Host.scatterAdd scatter_S8000_S524288x1_S524288_n_0_0_1 x i u) : (⟨S8000, .f32⟩ : BufTy).Contents (Elt F) → (⟨S524288x1, .i32⟩ : BufTy).Contents (Elt F) → (⟨S524288, .f32⟩ : BufTy).Contents (Elt F) → (⟨S8000, .f32⟩ : BufTy).Contents (Elt F)),
    nullary main_cst_42 (constant S_ .f32 0x3F800000#32),
    TRef.unary (TRef.of (T := ⟨S_, .f32⟩) main_cst_42) (TRef.of (T := ⟨S_, .f32⟩) main_call13_v0) id,
    TRef.unary (TRef.of (T := ⟨S_, .f32⟩) main_call13_v0) (TRef.of (T := ⟨S8000, .f32⟩) main_call13_v1) (broadcastInDim S8000 ![] bcast_S_S8000),
    TRef.binary (TRef.of (T := ⟨S8000, .f32⟩) main_call13_v1) (TRef.of (T := ⟨S8000, .f32⟩) main_v216) (TRef.of (T := ⟨S8000, .f32⟩) main_v217) maximumf,
    unary main_v213 main_v218 (Host.rsqrt : (⟨S8000, .f32⟩ : BufTy).Contents (Elt F) → (⟨S8000, .f32⟩ : BufTy).Contents (Elt F)),
    unary main_v218 main_v219 (broadcastInDim S8000x1 ![0] bcast_S8000_S8000x1_0 : (⟨S8000, .f32⟩ : BufTy).Contents (Elt F) → (⟨S8000x1, .f32⟩ : BufTy).Contents (Elt F)),
    unary main_v219 main_v220 (broadcastInDim S8000x64 ![0, 1] bcast_S8000x1_S8000x64_0_1 : (⟨S8000x1, .f32⟩ : BufTy).Contents (Elt F) → (⟨S8000x64, .f32⟩ : BufTy).Contents (Elt F)),
    binary main_v161 main_v220 main_v221 (mulf : (⟨S8000x64, .f32⟩ : BufTy).Contents (Elt F) → (⟨S8000x64, .f32⟩ : BufTy).Contents (Elt F) → (⟨S8000x64, .f32⟩ : BufTy).Contents (Elt F)),
    binary main_v221 main_v206 main_v222 ((fun l r => Host.dotGeneral dot_S8000x64_S64x32_S8000x32_1_0_0_1_n_n none l r) : (⟨S8000x64, .f32⟩ : BufTy).Contents (Elt F) → (⟨S64x32, .f32⟩ : BufTy).Contents (Elt F) → (⟨S8000x32, .f32⟩ : BufTy).Contents (Elt F)),
    nullary main_c_43 (constantI S_ 32 0#32),
    unary main_c_43 main_v223 (broadcastInDim S524288 ![] bcast_S_S524288 : (⟨S_, .i32⟩ : BufTy).Contents (Elt F) → (⟨S524288, .i32⟩ : BufTy).Contents (Elt F)),
    binary main_v202 main_v223 main_v224 (cmpi .slt : (⟨S524288, .i32⟩ : BufTy).Contents (Elt F) → (⟨S524288, .i32⟩ : BufTy).Contents (Elt F) → (⟨S524288, .i1⟩ : BufTy).Contents (Elt F)),
    nullary main_c_44 (constantI S_ 32 8000#32),
    unary main_c_44 main_v225 (broadcastInDim S524288 ![] bcast_S_S524288 : (⟨S_, .i32⟩ : BufTy).Contents (Elt F) → (⟨S524288, .i32⟩ : BufTy).Contents (Elt F)),
    binary main_v202 main_v225 main_v226 (addi : (⟨S524288, .i32⟩ : BufTy).Contents (Elt F) → (⟨S524288, .i32⟩ : BufTy).Contents (Elt F) → (⟨S524288, .i32⟩ : BufTy).Contents (Elt F)),
    ternary main_v224 main_v226 main_v202 main_v227 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v227 main_v228 (broadcastInDim S524288x1 ![0] bcast_S524288_S524288x1_0 : (⟨S524288, .i32⟩ : BufTy).Contents (Elt F) → (⟨S524288x1, .i32⟩ : BufTy).Contents (Elt F)),
    binary main_v222 main_v228 main_v229 ((fun x i => Host.gather gather_S8000x32_S524288x1_S524288x32_1_0_n_n_0_1_132 x i) : (⟨S8000x32, .f32⟩ : BufTy).Contents (Elt F) → (⟨S524288x1, .i32⟩ : BufTy).Contents (Elt F) → (⟨S524288x32, .f32⟩ : BufTy).Contents (Elt F)),
    nullary main_cst_45 (constant S_ .f32 0x00000000#32),
    unary main_cst_45 main_v230 (broadcastInDim S8000x32 ![] bcast_S_S8000x32 : (⟨S_, .f32⟩ : BufTy).Contents (Elt F) → (⟨S8000x32, .f32⟩ : BufTy).Contents (Elt F)),
    unary main_v204 main_v231 (broadcastInDim S524288x1 ![0] bcast_S524288_S524288x1_0 : (⟨S524288, .i32⟩ : BufTy).Contents (Elt F) → (⟨S524288x1, .i32⟩ : BufTy).Contents (Elt F)),
    ternary main_v230 main_v231 main_v229 main_v232 ((fun x i u => Host.scatterAdd scatter_S8000x32_S524288x1_S524288x32_1_0_0_1 x i u) : (⟨S8000x32, .f32⟩ : BufTy).Contents (Elt F) → (⟨S524288x1, .i32⟩ : BufTy).Contents (Elt F) → (⟨S524288x32, .f32⟩ : BufTy).Contents (Elt F) → (⟨S8000x32, .f32⟩ : BufTy).Contents (Elt F)),
    unary main_v217 main_v233 (Host.rsqrt : (⟨S8000, .f32⟩ : BufTy).Contents (Elt F) → (⟨S8000, .f32⟩ : BufTy).Contents (Elt F)),
    unary main_v233 main_v234 (broadcastInDim S8000x1 ![0] bcast_S8000_S8000x1_0 : (⟨S8000, .f32⟩ : BufTy).Contents (Elt F) → (⟨S8000x1, .f32⟩ : BufTy).Contents (Elt F)),
    unary main_v234 main_v235 (broadcastInDim S8000x32 ![0, 1] bcast_S8000x1_S8000x32_0_1 : (⟨S8000x1, .f32⟩ : BufTy).Contents (Elt F) → (⟨S8000x32, .f32⟩ : BufTy).Contents (Elt F)),
    binary main_v232 main_v235 main_v236 (mulf : (⟨S8000x32, .f32⟩ : BufTy).Contents (Elt F) → (⟨S8000x32, .f32⟩ : BufTy).Contents (Elt F) → (⟨S8000x32, .f32⟩ : BufTy).Contents (Elt F)),
    unary main_v208 main_v237 (broadcastInDim S1x32 ![1] bcast_S32_S1x32_1 : (⟨S32, .f32⟩ : BufTy).Contents (Elt F) → (⟨S1x32, .f32⟩ : BufTy).Contents (Elt F)),
    unary main_v237 main_v238 (broadcastInDim S8000x32 ![0, 1] bcast_S1x32_S8000x32_0_1 : (⟨S1x32, .f32⟩ : BufTy).Contents (Elt F) → (⟨S8000x32, .f32⟩ : BufTy).Contents (Elt F)),
    binary main_v236 main_v238 main_v239 (addf : (⟨S8000x32, .f32⟩ : BufTy).Contents (Elt F) → (⟨S8000x32, .f32⟩ : BufTy).Contents (Elt F) → (⟨S8000x32, .f32⟩ : BufTy).Contents (Elt F)),
    binary main_v200 main_v239 main_v240 (addf : (⟨S8000x32, .f32⟩ : BufTy).Contents (Elt F) → (⟨S8000x32, .f32⟩ : BufTy).Contents (Elt F) → (⟨S8000x32, .f32⟩ : BufTy).Contents (Elt F)),
    unary main_arg9 main_v241 ((extractStridedSlice S1x524288 ![1, 0] · slices_S4x524288_S1x524288_1_0) : (⟨S4x524288, .i32⟩ : BufTy).Contents (Elt F) → (⟨S1x524288, .i32⟩ : BufTy).Contents (Elt F)),
    reshape main_v241 main_v242 rfl shapeCasts_S1x524288_S524288,
    unary main_arg10 main_v243 ((extractStridedSlice S1x524288 ![1, 0] · slices_S4x524288_S1x524288_1_0) : (⟨S4x524288, .i32⟩ : BufTy).Contents (Elt F) → (⟨S1x524288, .i32⟩ : BufTy).Contents (Elt F)),
    reshape main_v243 main_v244 rfl shapeCasts_S1x524288_S524288,
    unary main_arg6 main_v245 ((extractStridedSlice S1x64x32 ![1, 0, 0] · slices_S4x64x32_S1x64x32_1_0_0) : (⟨S4x64x32, .f32⟩ : BufTy).Contents (Elt F) → (⟨S1x64x32, .f32⟩ : BufTy).Contents (Elt F)) ]
theorem midOps7_sub : (midOps7 : List (HloOp τ sig (Elt F))).Forall fun op => op.bufs ⊆ tcRefs τ sig :=
  ⟨binary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., unary_bufs_sub .., binary_bufs_sub .., unary_bufs_sub .., unary_bufs_sub .., binary_bufs_sub .., binary_bufs_sub .., unary_bufs_sub .., reshape_bufs_sub .., unary_bufs_sub .., reshape_bufs_sub .., unary_bufs_sub ..⟩
theorem midOps7_fresh : (midOps7 : List (HloOp τ sig (Elt F))).Forall fun op => op.fresh = ∅ := by
  simp only [List.Forall]; repeat' constructor
theorem midOps7_keeps (V : Valuation τ sig (Elt F)) (r : Ref sig .tc) (hr : r ∈ argRefs) :
    after midOps7 V (Proc.devRef .tc r) = V (Proc.devRef .tc r) := by
  simp only [argRefs, List.mem_cons, List.not_mem_nil, or_false] at hr
  rcases hr with rfl | rfl | rfl | rfl | rfl | rfl | rfl | rfl | rfl | rfl | rfl <;>
    (refine after_of_forall_not_mem _ _ (List.forall_iff_forall_mem.mp ?_)
     simp only [midOps7, List.Forall, StableHlo.nullary_writes, StableHlo.unary_writes, StableHlo.binary_writes, StableHlo.ternary_writes, StableHlo.quaternary_writes, StableHlo.reshape_writes, StableHlo.binaryIndexed_writes, Finset.mem_singleton]
     repeat' apply And.intro
     all_goals exact devRef_ne_of_ne (by decide))

/-- Operations 323 … 362 of the program, in order. -/
abbrev midOps8 : List (HloOp τ sig (Elt F)) :=
  [ reshape main_v245 main_v246 rfl shapeCasts_S1x64x32_S64x32,
    unary main_arg7 main_v247 ((extractStridedSlice S1x32 ![1, 0] · slices_S4x32_S1x32_1_0) : (⟨S4x32, .f32⟩ : BufTy).Contents (Elt F) → (⟨S1x32, .f32⟩ : BufTy).Contents (Elt F)),
    reshape main_v247 main_v248 rfl shapeCasts_S1x32_S32,
    nullary main_cst_46 (constant S_ .f32 0x3F800000#32),
    unary main_cst_46 main_v249 (broadcastInDim S524288 ![] bcast_S_S524288 : (⟨S_, .f32⟩ : BufTy).Contents (Elt F) → (⟨S524288, .f32⟩ : BufTy).Contents (Elt F)),
    nullary main_cst_47 (constant S_ .f32 0x00000000#32),
    unary main_cst_47 main_v250 (broadcastInDim S8000 ![] bcast_S_S8000 : (⟨S_, .f32⟩ : BufTy).Contents (Elt F) → (⟨S8000, .f32⟩ : BufTy).Contents (Elt F)),
    unary main_v242 main_v251 (broadcastInDim S524288x1 ![0] bcast_S524288_S524288x1_0 : (⟨S524288, .i32⟩ : BufTy).Contents (Elt F) → (⟨S524288x1, .i32⟩ : BufTy).Contents (Elt F)),
    ternary main_v250 main_v251 main_v249 main_v252 ((fun x i u => Host.scatterAdd scatter_S8000_S524288x1_S524288_n_0_0_1 x i u) : (⟨S8000, .f32⟩ : BufTy).Contents (Elt F) → (⟨S524288x1, .i32⟩ : BufTy).Contents (Elt F) → (⟨S524288, .f32⟩ : BufTy).Contents (Elt F) → (⟨S8000, .f32⟩ : BufTy).Contents (Elt F)),
    nullary main_cst_48 (constant S_ .f32 0x3F800000#32),
    TRef.unary (TRef.of (T := ⟨S_, .f32⟩) main_cst_48) (TRef.of (T := ⟨S_, .f32⟩) main_call14_v0) id,
    TRef.unary (TRef.of (T := ⟨S_, .f32⟩) main_call14_v0) (TRef.of (T := ⟨S8000, .f32⟩) main_call14_v1) (broadcastInDim S8000 ![] bcast_S_S8000),
    TRef.binary (TRef.of (T := ⟨S8000, .f32⟩) main_call14_v1) (TRef.of (T := ⟨S8000, .f32⟩) main_v252) (TRef.of (T := ⟨S8000, .f32⟩) main_v253) maximumf,
    nullary main_cst_49 (constant S_ .f32 0x00000000#32),
    unary main_cst_49 main_v254 (broadcastInDim S8000 ![] bcast_S_S8000 : (⟨S_, .f32⟩ : BufTy).Contents (Elt F) → (⟨S8000, .f32⟩ : BufTy).Contents (Elt F)),
    unary main_v244 main_v255 (broadcastInDim S524288x1 ![0] bcast_S524288_S524288x1_0 : (⟨S524288, .i32⟩ : BufTy).Contents (Elt F) → (⟨S524288x1, .i32⟩ : BufTy).Contents (Elt F)),
    ternary main_v254 main_v255 main_v249 main_v256 ((fun x i u => Host.scatterAdd scatter_S8000_S524288x1_S524288_n_0_0_1 x i u) : (⟨S8000, .f32⟩ : BufTy).Contents (Elt F) → (⟨S524288x1, .i32⟩ : BufTy).Contents (Elt F) → (⟨S524288, .f32⟩ : BufTy).Contents (Elt F) → (⟨S8000, .f32⟩ : BufTy).Contents (Elt F)),
    nullary main_cst_50 (constant S_ .f32 0x3F800000#32),
    TRef.unary (TRef.of (T := ⟨S_, .f32⟩) main_cst_50) (TRef.of (T := ⟨S_, .f32⟩) main_call15_v0) id,
    TRef.unary (TRef.of (T := ⟨S_, .f32⟩) main_call15_v0) (TRef.of (T := ⟨S8000, .f32⟩) main_call15_v1) (broadcastInDim S8000 ![] bcast_S_S8000),
    TRef.binary (TRef.of (T := ⟨S8000, .f32⟩) main_call15_v1) (TRef.of (T := ⟨S8000, .f32⟩) main_v256) (TRef.of (T := ⟨S8000, .f32⟩) main_v257) maximumf,
    unary main_v253 main_v258 (Host.rsqrt : (⟨S8000, .f32⟩ : BufTy).Contents (Elt F) → (⟨S8000, .f32⟩ : BufTy).Contents (Elt F)),
    unary main_v258 main_v259 (broadcastInDim S8000x1 ![0] bcast_S8000_S8000x1_0 : (⟨S8000, .f32⟩ : BufTy).Contents (Elt F) → (⟨S8000x1, .f32⟩ : BufTy).Contents (Elt F)),
    unary main_v259 main_v260 (broadcastInDim S8000x64 ![0, 1] bcast_S8000x1_S8000x64_0_1 : (⟨S8000x1, .f32⟩ : BufTy).Contents (Elt F) → (⟨S8000x64, .f32⟩ : BufTy).Contents (Elt F)),
    binary main_v160 main_v260 main_v261 (mulf : (⟨S8000x64, .f32⟩ : BufTy).Contents (Elt F) → (⟨S8000x64, .f32⟩ : BufTy).Contents (Elt F) → (⟨S8000x64, .f32⟩ : BufTy).Contents (Elt F)),
    binary main_v261 main_v246 main_v262 ((fun l r => Host.dotGeneral dot_S8000x64_S64x32_S8000x32_1_0_0_1_n_n none l r) : (⟨S8000x64, .f32⟩ : BufTy).Contents (Elt F) → (⟨S64x32, .f32⟩ : BufTy).Contents (Elt F) → (⟨S8000x32, .f32⟩ : BufTy).Contents (Elt F)),
    nullary main_c_51 (constantI S_ 32 0#32),
    unary main_c_51 main_v263 (broadcastInDim S524288 ![] bcast_S_S524288 : (⟨S_, .i32⟩ : BufTy).Contents (Elt F) → (⟨S524288, .i32⟩ : BufTy).Contents (Elt F)),
    binary main_v242 main_v263 main_v264 (cmpi .slt : (⟨S524288, .i32⟩ : BufTy).Contents (Elt F) → (⟨S524288, .i32⟩ : BufTy).Contents (Elt F) → (⟨S524288, .i1⟩ : BufTy).Contents (Elt F)),
    nullary main_c_52 (constantI S_ 32 8000#32),
    unary main_c_52 main_v265 (broadcastInDim S524288 ![] bcast_S_S524288 : (⟨S_, .i32⟩ : BufTy).Contents (Elt F) → (⟨S524288, .i32⟩ : BufTy).Contents (Elt F)),
    binary main_v242 main_v265 main_v266 (addi : (⟨S524288, .i32⟩ : BufTy).Contents (Elt F) → (⟨S524288, .i32⟩ : BufTy).Contents (Elt F) → (⟨S524288, .i32⟩ : BufTy).Contents (Elt F)),
    ternary main_v264 main_v266 main_v242 main_v267 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v267 main_v268 (broadcastInDim S524288x1 ![0] bcast_S524288_S524288x1_0 : (⟨S524288, .i32⟩ : BufTy).Contents (Elt F) → (⟨S524288x1, .i32⟩ : BufTy).Contents (Elt F)),
    binary main_v262 main_v268 main_v269 ((fun x i => Host.gather gather_S8000x32_S524288x1_S524288x32_1_0_n_n_0_1_132 x i) : (⟨S8000x32, .f32⟩ : BufTy).Contents (Elt F) → (⟨S524288x1, .i32⟩ : BufTy).Contents (Elt F) → (⟨S524288x32, .f32⟩ : BufTy).Contents (Elt F)),
    nullary main_cst_53 (constant S_ .f32 0x00000000#32),
    unary main_cst_53 main_v270 (broadcastInDim S8000x32 ![] bcast_S_S8000x32 : (⟨S_, .f32⟩ : BufTy).Contents (Elt F) → (⟨S8000x32, .f32⟩ : BufTy).Contents (Elt F)),
    unary main_v244 main_v271 (broadcastInDim S524288x1 ![0] bcast_S524288_S524288x1_0 : (⟨S524288, .i32⟩ : BufTy).Contents (Elt F) → (⟨S524288x1, .i32⟩ : BufTy).Contents (Elt F)),
    ternary main_v270 main_v271 main_v269 main_v272 ((fun x i u => Host.scatterAdd scatter_S8000x32_S524288x1_S524288x32_1_0_0_1 x i u) : (⟨S8000x32, .f32⟩ : BufTy).Contents (Elt F) → (⟨S524288x1, .i32⟩ : BufTy).Contents (Elt F) → (⟨S524288x32, .f32⟩ : BufTy).Contents (Elt F) → (⟨S8000x32, .f32⟩ : BufTy).Contents (Elt F)),
    unary main_v257 main_v273 (Host.rsqrt : (⟨S8000, .f32⟩ : BufTy).Contents (Elt F) → (⟨S8000, .f32⟩ : BufTy).Contents (Elt F)) ]
theorem midOps8_sub : (midOps8 : List (HloOp τ sig (Elt F))).Forall fun op => op.bufs ⊆ tcRefs τ sig :=
  ⟨reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub ..⟩
theorem midOps8_fresh : (midOps8 : List (HloOp τ sig (Elt F))).Forall fun op => op.fresh = ∅ := by
  simp only [List.Forall]; repeat' constructor
theorem midOps8_keeps (V : Valuation τ sig (Elt F)) (r : Ref sig .tc) (hr : r ∈ argRefs) :
    after midOps8 V (Proc.devRef .tc r) = V (Proc.devRef .tc r) := by
  simp only [argRefs, List.mem_cons, List.not_mem_nil, or_false] at hr
  rcases hr with rfl | rfl | rfl | rfl | rfl | rfl | rfl | rfl | rfl | rfl | rfl <;>
    (refine after_of_forall_not_mem _ _ (List.forall_iff_forall_mem.mp ?_)
     simp only [midOps8, List.Forall, StableHlo.nullary_writes, StableHlo.unary_writes, StableHlo.binary_writes, StableHlo.ternary_writes, StableHlo.quaternary_writes, StableHlo.reshape_writes, StableHlo.binaryIndexed_writes, Finset.mem_singleton]
     repeat' apply And.intro
     all_goals exact devRef_ne_of_ne (by decide))

/-- Operations 363 … 402 of the program, in order. -/
abbrev midOps9 : List (HloOp τ sig (Elt F)) :=
  [ unary main_v273 main_v274 (broadcastInDim S8000x1 ![0] bcast_S8000_S8000x1_0 : (⟨S8000, .f32⟩ : BufTy).Contents (Elt F) → (⟨S8000x1, .f32⟩ : BufTy).Contents (Elt F)),
    unary main_v274 main_v275 (broadcastInDim S8000x32 ![0, 1] bcast_S8000x1_S8000x32_0_1 : (⟨S8000x1, .f32⟩ : BufTy).Contents (Elt F) → (⟨S8000x32, .f32⟩ : BufTy).Contents (Elt F)),
    binary main_v272 main_v275 main_v276 (mulf : (⟨S8000x32, .f32⟩ : BufTy).Contents (Elt F) → (⟨S8000x32, .f32⟩ : BufTy).Contents (Elt F) → (⟨S8000x32, .f32⟩ : BufTy).Contents (Elt F)),
    unary main_v248 main_v277 (broadcastInDim S1x32 ![1] bcast_S32_S1x32_1 : (⟨S32, .f32⟩ : BufTy).Contents (Elt F) → (⟨S1x32, .f32⟩ : BufTy).Contents (Elt F)),
    unary main_v277 main_v278 (broadcastInDim S8000x32 ![0, 1] bcast_S1x32_S8000x32_0_1 : (⟨S1x32, .f32⟩ : BufTy).Contents (Elt F) → (⟨S8000x32, .f32⟩ : BufTy).Contents (Elt F)),
    binary main_v276 main_v278 main_v279 (addf : (⟨S8000x32, .f32⟩ : BufTy).Contents (Elt F) → (⟨S8000x32, .f32⟩ : BufTy).Contents (Elt F) → (⟨S8000x32, .f32⟩ : BufTy).Contents (Elt F)),
    unary main_arg9 main_v280 ((extractStridedSlice S1x524288 ![3, 0] · slices_S4x524288_S1x524288_3_0) : (⟨S4x524288, .i32⟩ : BufTy).Contents (Elt F) → (⟨S1x524288, .i32⟩ : BufTy).Contents (Elt F)),
    reshape main_v280 main_v281 rfl shapeCasts_S1x524288_S524288,
    unary main_arg10 main_v282 ((extractStridedSlice S1x524288 ![3, 0] · slices_S4x524288_S1x524288_3_0) : (⟨S4x524288, .i32⟩ : BufTy).Contents (Elt F) → (⟨S1x524288, .i32⟩ : BufTy).Contents (Elt F)),
    reshape main_v282 main_v283 rfl shapeCasts_S1x524288_S524288,
    unary main_arg6 main_v284 ((extractStridedSlice S1x64x32 ![3, 0, 0] · slices_S4x64x32_S1x64x32_3_0_0) : (⟨S4x64x32, .f32⟩ : BufTy).Contents (Elt F) → (⟨S1x64x32, .f32⟩ : BufTy).Contents (Elt F)),
    reshape main_v284 main_v285 rfl shapeCasts_S1x64x32_S64x32,
    unary main_arg7 main_v286 ((extractStridedSlice S1x32 ![3, 0] · slices_S4x32_S1x32_3_0) : (⟨S4x32, .f32⟩ : BufTy).Contents (Elt F) → (⟨S1x32, .f32⟩ : BufTy).Contents (Elt F)),
    reshape main_v286 main_v287 rfl shapeCasts_S1x32_S32,
    nullary main_cst_54 (constant S_ .f32 0x3F800000#32),
    unary main_cst_54 main_v288 (broadcastInDim S524288 ![] bcast_S_S524288 : (⟨S_, .f32⟩ : BufTy).Contents (Elt F) → (⟨S524288, .f32⟩ : BufTy).Contents (Elt F)),
    nullary main_cst_55 (constant S_ .f32 0x00000000#32),
    unary main_cst_55 main_v289 (broadcastInDim S8000 ![] bcast_S_S8000 : (⟨S_, .f32⟩ : BufTy).Contents (Elt F) → (⟨S8000, .f32⟩ : BufTy).Contents (Elt F)),
    unary main_v281 main_v290 (broadcastInDim S524288x1 ![0] bcast_S524288_S524288x1_0 : (⟨S524288, .i32⟩ : BufTy).Contents (Elt F) → (⟨S524288x1, .i32⟩ : BufTy).Contents (Elt F)),
    ternary main_v289 main_v290 main_v288 main_v291 ((fun x i u => Host.scatterAdd scatter_S8000_S524288x1_S524288_n_0_0_1 x i u) : (⟨S8000, .f32⟩ : BufTy).Contents (Elt F) → (⟨S524288x1, .i32⟩ : BufTy).Contents (Elt F) → (⟨S524288, .f32⟩ : BufTy).Contents (Elt F) → (⟨S8000, .f32⟩ : BufTy).Contents (Elt F)),
    nullary main_cst_56 (constant S_ .f32 0x3F800000#32),
    TRef.unary (TRef.of (T := ⟨S_, .f32⟩) main_cst_56) (TRef.of (T := ⟨S_, .f32⟩) main_call16_v0) id,
    TRef.unary (TRef.of (T := ⟨S_, .f32⟩) main_call16_v0) (TRef.of (T := ⟨S8000, .f32⟩) main_call16_v1) (broadcastInDim S8000 ![] bcast_S_S8000),
    TRef.binary (TRef.of (T := ⟨S8000, .f32⟩) main_call16_v1) (TRef.of (T := ⟨S8000, .f32⟩) main_v291) (TRef.of (T := ⟨S8000, .f32⟩) main_v292) maximumf,
    nullary main_cst_57 (constant S_ .f32 0x00000000#32),
    unary main_cst_57 main_v293 (broadcastInDim S8000 ![] bcast_S_S8000 : (⟨S_, .f32⟩ : BufTy).Contents (Elt F) → (⟨S8000, .f32⟩ : BufTy).Contents (Elt F)),
    unary main_v283 main_v294 (broadcastInDim S524288x1 ![0] bcast_S524288_S524288x1_0 : (⟨S524288, .i32⟩ : BufTy).Contents (Elt F) → (⟨S524288x1, .i32⟩ : BufTy).Contents (Elt F)),
    ternary main_v293 main_v294 main_v288 main_v295 ((fun x i u => Host.scatterAdd scatter_S8000_S524288x1_S524288_n_0_0_1 x i u) : (⟨S8000, .f32⟩ : BufTy).Contents (Elt F) → (⟨S524288x1, .i32⟩ : BufTy).Contents (Elt F) → (⟨S524288, .f32⟩ : BufTy).Contents (Elt F) → (⟨S8000, .f32⟩ : BufTy).Contents (Elt F)),
    nullary main_cst_58 (constant S_ .f32 0x3F800000#32),
    TRef.unary (TRef.of (T := ⟨S_, .f32⟩) main_cst_58) (TRef.of (T := ⟨S_, .f32⟩) main_call17_v0) id,
    TRef.unary (TRef.of (T := ⟨S_, .f32⟩) main_call17_v0) (TRef.of (T := ⟨S8000, .f32⟩) main_call17_v1) (broadcastInDim S8000 ![] bcast_S_S8000),
    TRef.binary (TRef.of (T := ⟨S8000, .f32⟩) main_call17_v1) (TRef.of (T := ⟨S8000, .f32⟩) main_v295) (TRef.of (T := ⟨S8000, .f32⟩) main_v296) maximumf,
    unary main_v292 main_v297 (Host.rsqrt : (⟨S8000, .f32⟩ : BufTy).Contents (Elt F) → (⟨S8000, .f32⟩ : BufTy).Contents (Elt F)),
    unary main_v297 main_v298 (broadcastInDim S8000x1 ![0] bcast_S8000_S8000x1_0 : (⟨S8000, .f32⟩ : BufTy).Contents (Elt F) → (⟨S8000x1, .f32⟩ : BufTy).Contents (Elt F)),
    unary main_v298 main_v299 (broadcastInDim S8000x64 ![0, 1] bcast_S8000x1_S8000x64_0_1 : (⟨S8000x1, .f32⟩ : BufTy).Contents (Elt F) → (⟨S8000x64, .f32⟩ : BufTy).Contents (Elt F)),
    binary main_v161 main_v299 main_v300 (mulf : (⟨S8000x64, .f32⟩ : BufTy).Contents (Elt F) → (⟨S8000x64, .f32⟩ : BufTy).Contents (Elt F) → (⟨S8000x64, .f32⟩ : BufTy).Contents (Elt F)),
    binary main_v300 main_v285 main_v301 ((fun l r => Host.dotGeneral dot_S8000x64_S64x32_S8000x32_1_0_0_1_n_n none l r) : (⟨S8000x64, .f32⟩ : BufTy).Contents (Elt F) → (⟨S64x32, .f32⟩ : BufTy).Contents (Elt F) → (⟨S8000x32, .f32⟩ : BufTy).Contents (Elt F)),
    nullary main_c_59 (constantI S_ 32 0#32),
    unary main_c_59 main_v302 (broadcastInDim S524288 ![] bcast_S_S524288 : (⟨S_, .i32⟩ : BufTy).Contents (Elt F) → (⟨S524288, .i32⟩ : BufTy).Contents (Elt F)),
    binary main_v281 main_v302 main_v303 (cmpi .slt : (⟨S524288, .i32⟩ : BufTy).Contents (Elt F) → (⟨S524288, .i32⟩ : BufTy).Contents (Elt F) → (⟨S524288, .i1⟩ : BufTy).Contents (Elt F)) ]
theorem midOps9_sub : (midOps9 : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., binary_bufs_sub .., nullary_bufs_sub .., unary_bufs_sub .., binary_bufs_sub ..⟩
theorem midOps9_fresh : (midOps9 : List (HloOp τ sig (Elt F))).Forall fun op => op.fresh = ∅ := by
  simp only [List.Forall]; repeat' constructor
theorem midOps9_keeps (V : Valuation τ sig (Elt F)) (r : Ref sig .tc) (hr : r ∈ argRefs) :
    after midOps9 V (Proc.devRef .tc r) = V (Proc.devRef .tc r) := by
  simp only [argRefs, List.mem_cons, List.not_mem_nil, or_false] at hr
  rcases hr with rfl | rfl | rfl | rfl | rfl | rfl | rfl | rfl | rfl | rfl | rfl <;>
    (refine after_of_forall_not_mem _ _ (List.forall_iff_forall_mem.mp ?_)
     simp only [midOps9, List.Forall, StableHlo.nullary_writes, StableHlo.unary_writes, StableHlo.binary_writes, StableHlo.ternary_writes, StableHlo.quaternary_writes, StableHlo.reshape_writes, StableHlo.binaryIndexed_writes, Finset.mem_singleton]
     repeat' apply And.intro
     all_goals exact devRef_ne_of_ne (by decide))

/-- Operations 403 … 428 of the program, in order. -/
abbrev midOps10 : List (HloOp τ sig (Elt F)) :=
  [ nullary main_c_60 (constantI S_ 32 8000#32),
    unary main_c_60 main_v304 (broadcastInDim S524288 ![] bcast_S_S524288 : (⟨S_, .i32⟩ : BufTy).Contents (Elt F) → (⟨S524288, .i32⟩ : BufTy).Contents (Elt F)),
    binary main_v281 main_v304 main_v305 (addi : (⟨S524288, .i32⟩ : BufTy).Contents (Elt F) → (⟨S524288, .i32⟩ : BufTy).Contents (Elt F) → (⟨S524288, .i32⟩ : BufTy).Contents (Elt F)),
    ternary main_v303 main_v305 main_v281 main_v306 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v306 main_v307 (broadcastInDim S524288x1 ![0] bcast_S524288_S524288x1_0 : (⟨S524288, .i32⟩ : BufTy).Contents (Elt F) → (⟨S524288x1, .i32⟩ : BufTy).Contents (Elt F)),
    binary main_v301 main_v307 main_v308 ((fun x i => Host.gather gather_S8000x32_S524288x1_S524288x32_1_0_n_n_0_1_132 x i) : (⟨S8000x32, .f32⟩ : BufTy).Contents (Elt F) → (⟨S524288x1, .i32⟩ : BufTy).Contents (Elt F) → (⟨S524288x32, .f32⟩ : BufTy).Contents (Elt F)),
    nullary main_cst_61 (constant S_ .f32 0x00000000#32),
    unary main_cst_61 main_v309 (broadcastInDim S8000x32 ![] bcast_S_S8000x32 : (⟨S_, .f32⟩ : BufTy).Contents (Elt F) → (⟨S8000x32, .f32⟩ : BufTy).Contents (Elt F)),
    unary main_v283 main_v310 (broadcastInDim S524288x1 ![0] bcast_S524288_S524288x1_0 : (⟨S524288, .i32⟩ : BufTy).Contents (Elt F) → (⟨S524288x1, .i32⟩ : BufTy).Contents (Elt F)),
    ternary main_v309 main_v310 main_v308 main_v311 ((fun x i u => Host.scatterAdd scatter_S8000x32_S524288x1_S524288x32_1_0_0_1 x i u) : (⟨S8000x32, .f32⟩ : BufTy).Contents (Elt F) → (⟨S524288x1, .i32⟩ : BufTy).Contents (Elt F) → (⟨S524288x32, .f32⟩ : BufTy).Contents (Elt F) → (⟨S8000x32, .f32⟩ : BufTy).Contents (Elt F)),
    unary main_v296 main_v312 (Host.rsqrt : (⟨S8000, .f32⟩ : BufTy).Contents (Elt F) → (⟨S8000, .f32⟩ : BufTy).Contents (Elt F)),
    unary main_v312 main_v313 (broadcastInDim S8000x1 ![0] bcast_S8000_S8000x1_0 : (⟨S8000, .f32⟩ : BufTy).Contents (Elt F) → (⟨S8000x1, .f32⟩ : BufTy).Contents (Elt F)),
    unary main_v313 main_v314 (broadcastInDim S8000x32 ![0, 1] bcast_S8000x1_S8000x32_0_1 : (⟨S8000x1, .f32⟩ : BufTy).Contents (Elt F) → (⟨S8000x32, .f32⟩ : BufTy).Contents (Elt F)),
    binary main_v311 main_v314 main_v315 (mulf : (⟨S8000x32, .f32⟩ : BufTy).Contents (Elt F) → (⟨S8000x32, .f32⟩ : BufTy).Contents (Elt F) → (⟨S8000x32, .f32⟩ : BufTy).Contents (Elt F)),
    unary main_v287 main_v316 (broadcastInDim S1x32 ![1] bcast_S32_S1x32_1 : (⟨S32, .f32⟩ : BufTy).Contents (Elt F) → (⟨S1x32, .f32⟩ : BufTy).Contents (Elt F)),
    unary main_v316 main_v317 (broadcastInDim S8000x32 ![0, 1] bcast_S1x32_S8000x32_0_1 : (⟨S1x32, .f32⟩ : BufTy).Contents (Elt F) → (⟨S8000x32, .f32⟩ : BufTy).Contents (Elt F)),
    binary main_v315 main_v317 main_v318 (addf : (⟨S8000x32, .f32⟩ : BufTy).Contents (Elt F) → (⟨S8000x32, .f32⟩ : BufTy).Contents (Elt F) → (⟨S8000x32, .f32⟩ : BufTy).Contents (Elt F)),
    binary main_v279 main_v318 main_v319 (addf : (⟨S8000x32, .f32⟩ : BufTy).Contents (Elt F) → (⟨S8000x32, .f32⟩ : BufTy).Contents (Elt F) → (⟨S8000x32, .f32⟩ : BufTy).Contents (Elt F)),
    TRef.nullary (TRef.of (T := ⟨S_, .f32⟩) main_call18_cst) (constant S_ .f32 0x00000000#32),
    TRef.unary (TRef.of (T := ⟨S_, .f32⟩) main_call18_cst) (TRef.of (T := ⟨S8000x32, .f32⟩) main_call18_v0) (broadcastInDim S8000x32 ![] bcast_S_S8000x32),
    TRef.binary (TRef.of (T := ⟨S8000x32, .f32⟩) main_v240) (TRef.of (T := ⟨S8000x32, .f32⟩) main_call18_v0) (TRef.of (T := ⟨S8000x32, .f32⟩) main_v320) maximumf,
    TRef.nullary (TRef.of (T := ⟨S_, .f32⟩) main_call19_cst) (constant S_ .f32 0x00000000#32),
    TRef.unary (TRef.of (T := ⟨S_, .f32⟩) main_call19_cst) (TRef.of (T := ⟨S8000x32, .f32⟩) main_call19_v0) (broadcastInDim S8000x32 ![] bcast_S_S8000x32),
    TRef.binary (TRef.of (T := ⟨S8000x32, .f32⟩) main_v319) (TRef.of (T := ⟨S8000x32, .f32⟩) main_call19_v0) (TRef.of (T := ⟨S8000x32, .f32⟩) main_v321) maximumf,
    unary main_arg8 main_v322 ((transpose S32x32 [1, 0] · transposes_S32x32_S32x32_1_0) : (⟨S32x32, .f32⟩ : BufTy).Contents (Elt F) → (⟨S32x32, .f32⟩ : BufTy).Contents (Elt F)),
    binary main_v320 main_v322 main_v323 ((fun l r => Host.dotGeneral dot_S8000x32_S32x32_S8000x32_1_0_0_1_n_n none l r) : (⟨S8000x32, .f32⟩ : BufTy).Contents (Elt F) → (⟨S32x32, .f32⟩ : BufTy).Contents (Elt F) → (⟨S8000x32, .f32⟩ : BufTy).Contents (Elt F)) ]
theorem midOps10_sub : (midOps10 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., unary_bufs_sub .., binary_bufs_sub ..⟩
theorem midOps10_fresh : (midOps10 : List (HloOp τ sig (Elt F))).Forall fun op => op.fresh = ∅ := by
  simp only [List.Forall]; repeat' constructor
theorem midOps10_keeps (V : Valuation τ sig (Elt F)) (r : Ref sig .tc) (hr : r ∈ argRefs) :
    after midOps10 V (Proc.devRef .tc r) = V (Proc.devRef .tc r) := by
  simp only [argRefs, List.mem_cons, List.not_mem_nil, or_false] at hr
  rcases hr with rfl | rfl | rfl | rfl | rfl | rfl | rfl | rfl | rfl | rfl | rfl <;>
    (refine after_of_forall_not_mem _ _ (List.forall_iff_forall_mem.mp ?_)
     simp only [midOps10, List.Forall, StableHlo.nullary_writes, StableHlo.unary_writes, StableHlo.binary_writes, StableHlo.ternary_writes, StableHlo.quaternary_writes, StableHlo.reshape_writes, StableHlo.binaryIndexed_writes, Finset.mem_singleton]
     repeat' apply And.intro
     all_goals exact devRef_ne_of_ne (by decide))

/-- Operations 429 … 430 of the program, in order. -/
abbrev scoreOps : List (HloOp τ sig (Elt F)) :=
  [ unary main_v321 main_v324 ((transpose S32x8000 [1, 0] · transposes_S8000x32_S32x8000_1_0) : (⟨S8000x32, .f32⟩ : BufTy).Contents (Elt F) → (⟨S32x8000, .f32⟩ : BufTy).Contents (Elt F)),
    binary main_v323 main_v324 main_v325 ((fun l r => Host.dotGeneral dot_S8000x32_S32x8000_S8000x8000_1_0_0_1_n_n none l r) : (⟨S8000x32, .f32⟩ : BufTy).Contents (Elt F) → (⟨S32x8000, .f32⟩ : BufTy).Contents (Elt F) → (⟨S8000x8000, .f32⟩ : BufTy).Contents (Elt F)) ]
theorem scoreOps_sub : (scoreOps : List (HloOp τ sig (Elt F))).Forall fun op => op.bufs ⊆ tcRefs τ sig :=
  ⟨unary_bufs_sub .., binary_bufs_sub ..⟩
theorem scoreOps_fresh : (scoreOps : List (HloOp τ sig (Elt F))).Forall fun op => op.fresh = ∅ := by
  simp only [List.Forall]; repeat' constructor
theorem scoreOps_keeps (V : Valuation τ sig (Elt F)) (r : Ref sig .tc) (hr : r ∈ argRefs) :
    after scoreOps V (Proc.devRef .tc r) = V (Proc.devRef .tc r) := by
  simp only [argRefs, List.mem_cons, List.not_mem_nil, or_false] at hr
  rcases hr with rfl | rfl | rfl | rfl | rfl | rfl | rfl | rfl | rfl | rfl | rfl <;>
    (refine after_of_forall_not_mem _ _ (List.forall_iff_forall_mem.mp ?_)
     simp only [scoreOps, List.Forall, StableHlo.nullary_writes, StableHlo.unary_writes, StableHlo.binary_writes, StableHlo.ternary_writes, StableHlo.quaternary_writes, StableHlo.reshape_writes, StableHlo.binaryIndexed_writes, Finset.mem_singleton]
     repeat' apply And.intro
     all_goals exact devRef_ne_of_ne (by decide))

/-- The whole line. -/
abbrev ops : List (HloOp τ sig (Elt F)) := embedOps ++ (midOps0 ++ (midOps1 ++ (midOps2 ++ (midOps3 ++ (midOps4 ++ (midOps5 ++ (midOps6 ++ (midOps7 ++ (midOps8 ++ (midOps9 ++ (midOps10 ++ (scoreOps))))))))))))

set_option maxRecDepth 65536 in
set_option maxHeartbeats 16000000 in
/-- The printed program is the line, run in order. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  List.forall_append.mpr ⟨embedOps_sub, List.forall_append.mpr ⟨midOps0_sub, List.forall_append.mpr ⟨midOps1_sub, List.forall_append.mpr ⟨midOps2_sub, List.forall_append.mpr ⟨midOps3_sub, List.forall_append.mpr ⟨midOps4_sub, List.forall_append.mpr ⟨midOps5_sub, List.forall_append.mpr ⟨midOps6_sub, List.forall_append.mpr ⟨midOps7_sub, List.forall_append.mpr ⟨midOps8_sub, List.forall_append.mpr ⟨midOps9_sub, List.forall_append.mpr ⟨midOps10_sub, scoreOps_sub⟩⟩⟩⟩⟩⟩⟩⟩⟩⟩⟩⟩
theorem ops_fresh : (ops : List (HloOp τ sig (Elt F))).Forall fun op => op.fresh = ∅ :=
  List.forall_append.mpr ⟨embedOps_fresh, List.forall_append.mpr ⟨midOps0_fresh, List.forall_append.mpr ⟨midOps1_fresh, List.forall_append.mpr ⟨midOps2_fresh, List.forall_append.mpr ⟨midOps3_fresh, List.forall_append.mpr ⟨midOps4_fresh, List.forall_append.mpr ⟨midOps5_fresh, List.forall_append.mpr ⟨midOps6_fresh, List.forall_append.mpr ⟨midOps7_fresh, List.forall_append.mpr ⟨midOps8_fresh, List.forall_append.mpr ⟨midOps9_fresh, List.forall_append.mpr ⟨midOps10_fresh, scoreOps_fresh⟩⟩⟩⟩⟩⟩⟩⟩⟩⟩⟩⟩

/-- The two layers' stretches folded from contents B. -/
def layers (B : Valuation τ sig (Elt F)) : Valuation τ sig (Elt F) :=
  after midOps10 (after midOps9 (after midOps8 (after midOps7 (after midOps6 (after midOps5 (after midOps4 (after midOps3 (after midOps2 (after midOps1 (after midOps0 (B)))))))))))

/-- The whole line's fold: the score's operations over the layers' fold over the embeddings'. -/
theorem fold_ops (V : Valuation τ sig (Elt F)) : after ops V = after scoreOps (layers (after embedOps V)) := by
  unfold layers
  simp only [ops, fold_append]

/-- No operation writes an argument array. -/
theorem ops_keeps (V : Valuation τ sig (Elt F)) (r : Ref sig .tc) (hr : r ∈ argRefs) :
    after ops V (Proc.devRef .tc r) = V (Proc.devRef .tc r) := by
  rw [fold_ops]
  unfold layers
  rw [scoreOps_keeps _ r hr, midOps10_keeps _ r hr, midOps9_keeps _ r hr, midOps8_keeps _ r hr, midOps7_keeps _ r hr, midOps6_keeps _ r hr, midOps5_keeps _ r hr, midOps4_keeps _ r hr, midOps3_keeps _ r hr, midOps2_keeps _ r hr, midOps1_keeps _ r hr, midOps0_keeps _ r hr, embedOps_keeps _ r hr]

/-- The layers' stretches write no argument array either. -/
theorem layers_keeps (B : Valuation τ sig (Elt F)) (r : Ref sig .tc) (hr : r ∈ argRefs) :
    layers B (Proc.devRef .tc r) = B (Proc.devRef .tc r) := by
  unfold layers
  rw [midOps10_keeps _ r hr, midOps9_keeps _ r hr, midOps8_keeps _ r hr, midOps7_keeps _ r hr, midOps6_keeps _ r hr, midOps5_keeps _ r hr, midOps4_keeps _ r hr, midOps3_keeps _ r hr, midOps2_keeps _ r hr, midOps1_keeps _ r hr, midOps0_keeps _ r hr]

/-- The result is the score product of the layers' left factor with the transposed right factor. -/
theorem result_fold (V : Valuation τ sig (Elt F)) :
    after ops V (Proc.devRef .tc main_v325)
      = Host.dotGeneral dot_S8000x32_S32x8000_S8000x8000_1_0_0_1_n_n none
          (layers (after embedOps V) (Proc.devRef .tc main_v323))
          (transpose S32x8000 [1, 0] (layers (after embedOps V) (Proc.devRef .tc main_v321)) Facts₀.transposes_S8000x32_S32x8000_1_0) := by
  rw [fold_ops]
  simp only [scoreOps]
  after_results_simp

/-- The first embedding is the product of the first feature matrix with its weights. -/
theorem embed_first (V : Valuation τ sig (Elt F)) :
    after embedOps V (Proc.devRef .tc main_v0)
      = Host.dotGeneral dot_S8000x8000_S8000x64_S8000x64_1_0_0_1_n_n none (V (Proc.devRef .tc main_arg0)) (V (Proc.devRef .tc main_arg2)) := by
  simp only [embedOps]
  after_results_simp

/-- The second embedding is the product of the second feature matrix with its weights. -/
theorem embed_second (V : Valuation τ sig (Elt F)) :
    after embedOps V (Proc.devRef .tc main_v1)
      = Host.dotGeneral dot_S8000x8000_S8000x64_S8000x64_1_0_0_1_n_n none (V (Proc.devRef .tc main_arg1)) (V (Proc.devRef .tc main_arg3)) := by
  simp only [embedOps]
  after_results_simp

/-- On every device, from any memory with zero counters: every weakly fair execution terminates with the result at
    the fold of the line over the launch memory and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v325) = after ops (launchContents m c) (Proc.devRef .tc main_v325)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨h c main_v325,
      (h c main_arg0).trans (ops_keeps (launchContents m c) main_arg0 (by decide)),
      (h c main_arg1).trans (ops_keeps (launchContents m c) main_arg1 (by decide)),
      (h c main_arg2).trans (ops_keeps (launchContents m c) main_arg2 (by decide)),
      (h c main_arg3).trans (ops_keeps (launchContents m c) main_arg3 (by decide)),
      (h c main_arg4).trans (ops_keeps (launchContents m c) main_arg4 (by decide)),
      (h c main_arg5).trans (ops_keeps (launchContents m c) main_arg5 (by decide)),
      (h c main_arg6).trans (ops_keeps (launchContents m c) main_arg6 (by decide)),
      (h c main_arg7).trans (ops_keeps (launchContents m c) main_arg7 (by decide)),
      (h c main_arg8).trans (ops_keeps (launchContents m c) main_arg8 (by decide)),
      (h c main_arg9).trans (ops_keeps (launchContents m c) main_arg9 (by decide)),
      (h c main_arg10).trans (ops_keeps (launchContents m c) main_arg10 (by decide))⟩)
    (run_seq scopedRefs_eq scopedSems_eq defs main (fun _ => ops) main_eq (fun _ => ops_sub) m ρ
      (fun _ => List.forall_iff_forall_mem.mp ops_fresh))

end Cert.ReferenceIdeal.Whole

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.LibDotInnerHost.lean ====
/-
  The host's matrix product along the last axis of the first operand and the first axis of the second, read at an entry,
  and the six facts about a record of dimension numbers that both readings (the matrix unit's and the host's) ask for,
  bundled so that a caller proves them once per record.

  For a [M, K] matrix against a [K, N] matrix both products have at (p, f) the entry Σ_k x[p, k] · W[k, f] over the
  extended reals: the host's product carries no accumulator, the matrix unit's starts from the zero splat.
-/
import Idealize.ShloMosaic.PureOps.Ideal.Laws
import Idealize.ShloMosaic.Lib.ValueIdx
import proofs.«175275_j39522289058323_1_alg».proof.Proof.LibDotInner

noncomputable section

open scoped BigOperators

namespace Idealize.ShloMosaic.DotInner

open Idealize.ShloMosaic Idealize.ShloMosaic.ValueIdx

variable {M N K : ℕ} {φ₁ φ₂ : FTy}

/-- What a plain row-by-column product's dimension numbers say: one contracted axis of extent K; the left operand's
    coordinates are (result row, contraction index), the right operand's (contraction index, result column). -/
structure Plain (D : DotDims ⟨2, ![M, K]⟩ ⟨2, ![K, N]⟩ ⟨2, ![M, N]⟩) : Prop where
  rank : D.contr.rank = 1
  size : D.contr.size ⟨0, by omega⟩ = K
  l0 : ∀ j q, (D.lhsIdx j q 0).val = (j 0).val
  l1 : ∀ j q, (D.lhsIdx j q 1).val = (q ⟨0, by omega⟩).val
  r0 : ∀ j q, (D.rhsIdx j q 0).val = (q ⟨0, by omega⟩).val
  r1 : ∀ j q, (D.rhsIdx j q 1).val = (j 1).val

/-- The matrix unit from the zero splat, entry (p, f): Σ_k lhs[p, k] · rhs[k, f]. -/
theorem Plain.matmul_zero {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) :=
  matmul_zero_apply D h.rank h.size h.l0 h.l1 h.r0 h.r1 prec lhs rhs p f

/-- The host's product, entry (p, f): the same sum, with no accumulator. -/
theorem Plain.dotGeneral {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    Host.dotGeneral (F := Ideal) D prec lhs rhs (ix2 p f) = ∑ k : Fin K, lhs (ix2 p k) * rhs (ix2 k f) := by
  show FloatOps.dotGeneral D prec .single lhs rhs (ix2 p f) = _
  rw [Ideal.dotGeneral_apply, ← Equiv.sum_comp (contrEquiv1 D K h.rank h.size).symm]
  refine Finset.sum_congr rfl fun k _ => ?_
  obtain ⟨el, er⟩ := operand_idx D h.rank h.size h.l0 h.l1 h.r0 h.r1 p f k
  rw [el, er]

/-- The six facts of a record D whose lists say rows-by-columns (left operand of shape sl contracted on its axis 1, right
    operand of shape sr on its axis 0, no batch axes): the contraction's rank and extent compute; the contracted
    coordinates are the library's single-axis lemmas; the kept coordinates are read off the index maps' own case split,
    whose two membership tests are decided on the record's lists. -/
macro "plain_record " D:term ", " sl:term ", " sr:term : term => `(
  { rank := rfl
    size := rfl
    l0 := fun j q => by
      unfold DotDims.lhsIdx
      rw [dif_neg (show ¬(0 : Fin ($sl).rank) ∈ ($D).lhsBatch by decide),
        dif_pos (show (0 : Fin ($sl).rank) ∈ ($D).lhsNonContracting by decide)]
      rfl
    l1 := fun j q => DotDims.lhsIdx_val_of_single $D rfl j q
    r0 := fun j q => DotDims.rhsIdx_val_of_single $D rfl j q
    r1 := fun j q => by
      unfold DotDims.rhsIdx
      rw [dif_neg (show ¬(1 : Fin ($sr).rank) ∈ ($D).rhsBatch by decide),
        dif_pos (show (1 : Fin ($sr).rank) ∈ ($D).rhsNonContracting by decide)]
      rfl })

end Idealize.ShloMosaic.DotInner

end
-- ==== Proof.Embed0.lean ====
/-
  The first embedding product, tiled over rows.

  The launch walks twenty grid points; point t holds rows 400·t … 400·t + 399 of the feature matrix and the whole weight
  matrix, multiplies them on the matrix unit from a zero accumulator, and writes the 400 × 64 product back as rows
  400·t … 400·t + 399 of the result. A change of float format is the identity on extended reals, so entry (p, f) of
  the block is Σ_k x[400·t + p, k] · w[k, f]: block t of the whole product. The twenty blocks tile the result's rows,
  hence the array the launch leaves is the whole product x · w, whatever the arrays were when the launch began.
-/
import proofs.«175275_j39522289058323_1_alg».proof.Proof.Gen.KernelIdeal.Frame
import proofs.«175275_j39522289058323_1_alg».proof.Proof.LibDotInnerHost
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Embed0

open Cert.KernelIdeal Cert.KernelIdeal.Gen

/-- The whole product x · w of a feature matrix and a weight matrix, entry by entry. -/
def product (x : FVec Ideal S8000x8000 .f32) (w : FVec Ideal S8000x64 .f32) : FVec Ideal S8000x64 .f32 :=
  fun i => ∑ k : Fin 8000, x (ix2 (i 0) k) * w (ix2 k (i 1))

theorem zero_offsets : (![0, 0] : Fin 2 → Nat) = fun _ => 0 := funext fun a => by fin_cases a <;> rfl

/-- The block product's dimension numbers say rows by columns over one contracted axis of extent 8000. -/
theorem block_dims : DotInner.Plain dot_S400x8000_S8000x64_S400x64_1_0_0_1_n_n :=
  plain_record dot_S400x8000_S8000x64_S400x64_1_0_0_1_n_n, S400x8000, S8000x64

/-- What the body stores, at entry (p, f): the row p of its feature block against column f of the weights. -/
theorem stored_apply (x0 : FVec Ideal S400x8000 .f32) (x1 : FVec Ideal S8000x64 .f32) (p : Fin 400) (f : Fin 64) :
    k0_pay1 (F := Ideal) x0 x1 (ix2 p f) = ∑ k : Fin 8000, x0 (ix2 p k) * x1 (ix2 k f) := by
  unfold k0_pay1
  exact block_dims.matmul_zero none (truncf .bf16 x0 bitsLt_bf16_f32) (truncf .bf16 x1 bitsLt_bf16_f32) p f

/-- The printed index maps over the grid: the feature window and the result window sit on block row t, the weight
    window on block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The feature window's block at point t is rows 400·t … of the feature matrix. -/
theorem feature_block (c : Dev nD) (t : Fin cfg0.N) (y : S400x8000.Idx) (i : S8000x8000.Idx)
    (h0 : (i 0).val = 400 * t.val + (y 0).val) (h1 : (i 1).val = (y 1).val) :
    (iblk0 V c 0 t : FVec Ideal S400x8000 .f32) y = (V c main_arg0 : FVec Ideal S8000x8000 .f32) i := by
  obtain ⟨e0, e1, -, -, -, -⟩ := index_facts t
  unfold iblk0
  rw [View.read_apply]
  show V c main_arg0 (((cfg0.win 0).blk t).view.emb y) = V c main_arg0 i
  refine congrArg _ (funext fun a => Fin.ext ?_)
  match a with
  | ⟨0, _⟩ => show win0_0.index t (0 : Fin 2) * 400 + 1 * (y 0).val = (i 0).val; omega
  | ⟨1, _⟩ => show win0_0.index t (1 : Fin 2) * 8000 + 1 * (y 1).val = (i 1).val; omega

/-- The weight window's block at every point is the whole weight matrix. -/
theorem weight_block (c : Dev nD) (t : Fin cfg0.N) (y : S8000x64.Idx) :
    (iblk0 V c 1 t : FVec Ideal S8000x64 .f32) y = (V c main_arg2 : FVec Ideal S8000x64 .f32) y := by
  obtain ⟨-, -, e2, e3, -, -⟩ := index_facts t
  unfold iblk0
  rw [View.read_apply]
  show V c main_arg2 (((cfg0.win 1).blk t).view.emb y) = V c main_arg2 y
  refine congrArg _ (funext fun a => Fin.ext ?_)
  match a with
  | ⟨0, _⟩ => show win0_1.index t (0 : Fin 2) * 8000 + 1 * (y 0).val = (y 0).val; omega
  | ⟨1, _⟩ => show win0_1.index t (1 : Fin 2) * 64 + 1 * (y 1).val = (y 1).val; omega

/-- WHAT POINT t WRITES BACK is block t of the whole product of the arrays the launch found. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero zero_offsets]
  simp only [View.ld_unit_zero (S := S400x8000) zero_offsets, View.ld_unit_zero (S := S8000x64) zero_offsets]
  obtain ⟨-, -, -, -, e4, e5⟩ := index_facts t
  funext j
  obtain ⟨p, f, rfl⟩ : ∃ (p : Fin 400) (f : Fin 64), j = ix2 p f := ⟨j 0, j 1, eq_ix2 j⟩
  show k0_pay1 (F := Ideal) (iblk0 V c 0 t) (iblk0 V c 1 t) (ix2 p f)
    = product (V c main_arg0) (V c main_arg2) (((cfg0.win 2).blk t).view.emb (ix2 p f))
  refine (stored_apply _ _ p f).trans ?_
  unfold product
  refine Finset.sum_congr rfl fun k _ => ?_
  have hrow : ((((cfg0.win 2).blk t).view.emb (ix2 p f)) 0).val = 400 * t.val + p.val := by
    show win0_2.index t (0 : Fin 2) * 400 + 1 * p.val = _; omega
  have hcol : ((((cfg0.win 2).blk t).view.emb (ix2 p f)) 1).val = f.val := by
    show win0_2.index t (1 : Fin 2) * 64 + 1 * f.val = _; omega
  rw [feature_block V c t (ix2 p k) (ix2 ((((cfg0.win 2).blk t).view.emb (ix2 p f)) 0) k) hrow rfl,
    weight_block V c t (ix2 k f)]
  refine congrArg _ (congrArg _ (funext fun a => Fin.ext ?_))
  match a with
  | ⟨0, _⟩ => rfl
  | ⟨1, _⟩ => exact hcol.symm

/-- An index of the result is in point t's block iff each coordinate is in the block's range on its axis. -/
theorem mem_block (t : Fin cfg0.N) (i : S8000x64.Idx) :
    i ∈ ((cfg0.win 2).blk t).view.set ↔ ∀ a : Fin 2, win0_2.index t a * S400x64.size a ≤ (i a).val ∧ (i a).val < win0_2.index t a * S400x64.size a + S400x64.size a := by
  show i ∈ ((View.whole main_v0).slice (win0_2.rect t)).set ↔ _
  rw [View.set_slice_whole, Rect.mem_set_unit]
  exact Iff.rfl

/-- Every row of the result lies in the block of the point numbered by the row's quotient by 400. -/
theorem covered (i : S8000x64.Idx) :
    ∃ t : Fin cfg0.N, (cfg0.win 2).flush t = true ∧ i ∈ ((cfg0.win 2).blk t).view.set := by
  have hN : cfg0.N = 20 := N_0
  have hi0 : (i 0).val < 8000 := (i 0).isLt
  have hi1 : (i 1).val < 64 := (i 1).isLt
  refine ⟨⟨(i 0).val / 400, by rw [hN]; omega⟩, flush0_2 _, ?_⟩
  rw [mem_block]
  obtain ⟨-, -, -, -, e4, e5⟩ := index_facts ⟨(i 0).val / 400, by rw [hN]; omega⟩
  intro a
  match a with
  | ⟨0, _⟩ =>
    show win0_2.index _ (0 : Fin 2) * 400 ≤ (i 0).val ∧ (i 0).val < win0_2.index _ (0 : Fin 2) * 400 + 400
    rw [e4]; show (i 0).val / 400 * 400 ≤ (i 0).val ∧ (i 0).val < (i 0).val / 400 * 400 + 400; omega
  | ⟨1, _⟩ =>
    show win0_2.index _ (1 : Fin 2) * 64 ≤ (i 1).val ∧ (i 1).val < win0_2.index _ (1 : Fin 2) * 64 + 64
    rw [e5]; omega

/-- THE ARRAY the launch leaves is the whole product of the arrays it found. -/
theorem final (c : Dev nD) : (dat0 V c).arrAt 2 cfg0.N = product (V c main_arg0) (V c main_arg2) :=
  (dat0 V c).arrAt_eq_of_cover 2 (product (V c main_arg0) (V c main_arg2)) (fun t _ => flushed_eq V c t) covered

end Cert.KernelIdeal.Embed0

end
-- ==== Proof.Embed1.lean ====
/-
  The second embedding product, tiled over rows.

  The launch walks twenty grid points; point t holds rows 400·t … 400·t + 399 of the feature matrix and the whole weight
  matrix, multiplies them on the matrix unit from a zero accumulator, and writes the 400 × 64 product back as rows
  400·t … 400·t + 399 of the result. A change of float format is the identity on extended reals, so entry (p, f) of
  the block is Σ_k x[400·t + p, k] · w[k, f]: block t of the whole product. The twenty blocks tile the result's rows,
  hence the array the launch leaves is the whole product x · w, whatever the arrays were when the launch began.
-/
import proofs.«175275_j39522289058323_1_alg».proof.Proof.Gen.KernelIdeal.Frame
import proofs.«175275_j39522289058323_1_alg».proof.Proof.LibDotInnerHost
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Embed1

open Cert.KernelIdeal Cert.KernelIdeal.Gen

/-- The whole product x · w of a feature matrix and a weight matrix, entry by entry. -/
def product (x : FVec Ideal S8000x8000 .f32) (w : FVec Ideal S8000x64 .f32) : FVec Ideal S8000x64 .f32 :=
  fun i => ∑ k : Fin 8000, x (ix2 (i 0) k) * w (ix2 k (i 1))

theorem zero_offsets : (![0, 0] : Fin 2 → Nat) = fun _ => 0 := funext fun a => by fin_cases a <;> rfl

/-- The block product's dimension numbers say rows by columns over one contracted axis of extent 8000. -/
theorem block_dims : DotInner.Plain dot_S400x8000_S8000x64_S400x64_1_0_0_1_n_n :=
  plain_record dot_S400x8000_S8000x64_S400x64_1_0_0_1_n_n, S400x8000, S8000x64

/-- What the body stores, at entry (p, f): the row p of its feature block against column f of the weights. -/
theorem stored_apply (x0 : FVec Ideal S400x8000 .f32) (x1 : FVec Ideal S8000x64 .f32) (p : Fin 400) (f : Fin 64) :
    k1_pay1 (F := Ideal) x0 x1 (ix2 p f) = ∑ k : Fin 8000, x0 (ix2 p k) * x1 (ix2 k f) := by
  unfold k1_pay1
  exact block_dims.matmul_zero none (truncf .bf16 x0 bitsLt_bf16_f32) (truncf .bf16 x1 bitsLt_bf16_f32) p f

/-- The printed index maps over the grid: the feature window and the result window sit on block row t, the weight
    window on block (0, 0). -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The feature window's block at point t is rows 400·t … of the feature matrix. -/
theorem feature_block (c : Dev nD) (t : Fin cfg1.N) (y : S400x8000.Idx) (i : S8000x8000.Idx)
    (h0 : (i 0).val = 400 * t.val + (y 0).val) (h1 : (i 1).val = (y 1).val) :
    (iblk1 V c 0 t : FVec Ideal S400x8000 .f32) y = (V c main_arg1 : FVec Ideal S8000x8000 .f32) i := by
  obtain ⟨e0, e1, -, -, -, -⟩ := index_facts t
  unfold iblk1
  rw [View.read_apply]
  show V c main_arg1 (((cfg1.win 0).blk t).view.emb y) = V c main_arg1 i
  refine congrArg _ (funext fun a => Fin.ext ?_)
  match a with
  | ⟨0, _⟩ => show win1_0.index t (0 : Fin 2) * 400 + 1 * (y 0).val = (i 0).val; omega
  | ⟨1, _⟩ => show win1_0.index t (1 : Fin 2) * 8000 + 1 * (y 1).val = (i 1).val; omega

/-- The weight window's block at every point is the whole weight matrix. -/
theorem weight_block (c : Dev nD) (t : Fin cfg1.N) (y : S8000x64.Idx) :
    (iblk1 V c 1 t : FVec Ideal S8000x64 .f32) y = (V c main_arg3 : FVec Ideal S8000x64 .f32) y := by
  obtain ⟨-, -, e2, e3, -, -⟩ := index_facts t
  unfold iblk1
  rw [View.read_apply]
  show V c main_arg3 (((cfg1.win 1).blk t).view.emb y) = V c main_arg3 y
  refine congrArg _ (funext fun a => Fin.ext ?_)
  match a with
  | ⟨0, _⟩ => show win1_1.index t (0 : Fin 2) * 8000 + 1 * (y 0).val = (y 0).val; omega
  | ⟨1, _⟩ => show win1_1.index t (1 : Fin 2) * 64 + 1 * (y 1).val = (y 1).val; omega

/-- WHAT POINT t WRITES BACK is block t of the whole product of the arrays the launch found. -/
theorem flushed_eq (c : Dev nD) (t : Fin cfg1.N) :
    (dat1 V c).flushed 2 t = ((cfg1.win 2).blk t).view.read (Elt Ideal) (product (V c main_arg1) (V c main_arg3)) := by
  show (cfg1.win 2).cut (grid1.coords t) ((dat1 V c).after 2 t) = _
  rw [after1_2]
  unfold out1_2
  rw [View.canon_unit_zero zero_offsets]
  simp only [View.ld_unit_zero (S := S400x8000) zero_offsets, View.ld_unit_zero (S := S8000x64) zero_offsets]
  obtain ⟨-, -, -, -, e4, e5⟩ := index_facts t
  funext j
  obtain ⟨p, f, rfl⟩ : ∃ (p : Fin 400) (f : Fin 64), j = ix2 p f := ⟨j 0, j 1, eq_ix2 j⟩
  show k1_pay1 (F := Ideal) (iblk1 V c 0 t) (iblk1 V c 1 t) (ix2 p f)
    = product (V c main_arg1) (V c main_arg3) (((cfg1.win 2).blk t).view.emb (ix2 p f))
  refine (stored_apply _ _ p f).trans ?_
  unfold product
  refine Finset.sum_congr rfl fun k _ => ?_
  have hrow : ((((cfg1.win 2).blk t).view.emb (ix2 p f)) 0).val = 400 * t.val + p.val := by
    show win1_2.index t (0 : Fin 2) * 400 + 1 * p.val = _; omega
  have hcol : ((((cfg1.win 2).blk t).view.emb (ix2 p f)) 1).val = f.val := by
    show win1_2.index t (1 : Fin 2) * 64 + 1 * f.val = _; omega
  rw [feature_block V c t (ix2 p k) (ix2 ((((cfg1.win 2).blk t).view.emb (ix2 p f)) 0) k) hrow rfl,
    weight_block V c t (ix2 k f)]
  refine congrArg _ (congrArg _ (funext fun a => Fin.ext ?_))
  match a with
  | ⟨0, _⟩ => rfl
  | ⟨1, _⟩ => exact hcol.symm

/-- An index of the result is in point t's block iff each coordinate is in the block's range on its axis. -/
theorem mem_block (t : Fin cfg1.N) (i : S8000x64.Idx) :
    i ∈ ((cfg1.win 2).blk t).view.set ↔ ∀ a : Fin 2, win1_2.index t a * S400x64.size a ≤ (i a).val ∧ (i a).val < win1_2.index t a * S400x64.size a + S400x64.size a := by
  show i ∈ ((View.whole main_v1).slice (win1_2.rect t)).set ↔ _
  rw [View.set_slice_whole, Rect.mem_set_unit]
  exact Iff.rfl

/-- Every row of the result lies in the block of the point numbered by the row's quotient by 400. -/
theorem covered (i : S8000x64.Idx) :
    ∃ t : Fin cfg1.N, (cfg1.win 2).flush t = true ∧ i ∈ ((cfg1.win 2).blk t).view.set := by
  have hN : cfg1.N = 20 := N_1
  have hi0 : (i 0).val < 8000 := (i 0).isLt
  have hi1 : (i 1).val < 64 := (i 1).isLt
  refine ⟨⟨(i 0).val / 400, by rw [hN]; omega⟩, flush1_2 _, ?_⟩
  rw [mem_block]
  obtain ⟨-, -, -, -, e4, e5⟩ := index_facts ⟨(i 0).val / 400, by rw [hN]; omega⟩
  intro a
  match a with
  | ⟨0, _⟩ =>
    show win1_2.index _ (0 : Fin 2) * 400 ≤ (i 0).val ∧ (i 0).val < win1_2.index _ (0 : Fin 2) * 400 + 400
    rw [e4]; show (i 0).val / 400 * 400 ≤ (i 0).val ∧ (i 0).val < (i 0).val / 400 * 400 + 400; omega
  | ⟨1, _⟩ =>
    show win1_2.index _ (1 : Fin 2) * 64 ≤ (i 1).val ∧ (i 1).val < win1_2.index _ (1 : Fin 2) * 64 + 64
    rw [e5]; omega

/-- THE ARRAY the launch leaves is the whole product of the arrays it found. -/
theorem final (c : Dev nD) : (dat1 V c).arrAt 2 cfg1.N = product (V c main_arg1) (V c main_arg3) :=
  (dat1 V c).arrAt_eq_of_cover 2 (product (V c main_arg1) (V c main_arg3)) (fun t _ => flushed_eq V c t) covered

end Cert.KernelIdeal.Embed1

end
-- ==== Proof.LibDotLastAxes.lean ====
/-
  A product of two matrices along the LAST axis of both, read at an entry.

  `x @ W.T` — a [M, K] matrix against a [N, K] matrix, contracting the K axis of each — has at (p, f) the entry
  Σ_k x[p, k] · W[f, k]. Over the extended reals this holds of the kernel's matrix unit started from the zero splat and of the
  host's `dot_general` alike, whatever order either sums in. The dimension numbers enter only through four coordinate facts
  (which operand coordinate is the result's row, the result's column, the contraction's index); a caller proves them of its
  own record and gets the entry as a sum over `Fin K`.
-/
import Idealize.ShloMosaic.PureOps.Ideal.Laws
import Idealize.ShloMosaic.Lib.ValueIdx

noncomputable section

open scoped BigOperators

namespace Idealize.ShloMosaic.DotLastAxes

open Idealize.ShloMosaic Idealize.ShloMosaic.ValueIdx

variable {M N K : ℕ} {φ₁ φ₂ : FTy}

/-- The two operand indices at result entry (p, f) and contraction coordinate k are (p, k) and (f, k). -/
theorem operand_idx (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (p : Fin M) (f : Fin N) (k : Fin K) :
    D.lhsIdx (ix2 p f) ((contrEquiv1 D K hr hs).symm k) = ix2 p k
      ∧ D.rhsIdx (ix2 p f) ((contrEquiv1 D K hr hs).symm k) = ix2 f k := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact hr0 _ _
    | ⟨1, _⟩ => exact (hr1 _ _).trans hk

/-- THE MATRIX UNIT from the zero splat: entry (p, f) is Σ_k lhs[p, k] · rhs[f, k]. -/
theorem matmul_zero_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (lhs : FVec Ideal ⟨2, ![M, K]⟩ φ₁) (rhs : FVec Ideal ⟨2, ![N, K]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 f k) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

/-- THE HOST'S `dot_general`: the same entry, the same sum. -/
theorem dotGeneral_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (sched : HostSchedule)
    (lhs : FVec Ideal ⟨2, ![M, K]⟩ φ₁) (rhs : FVec Ideal ⟨2, ![N, K]⟩ φ₂) (p : Fin M) (f : Fin N) :
    FloatOps.dotGeneral D prec sched lhs rhs (ix2 p f) = ∑ k : Fin K, lhs (ix2 p k) * rhs (ix2 f k) := by
  rw [Ideal.dotGeneral_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotLastAxes

end
-- ==== Proof.Score.lean ====
/-
  The closing score, tiled over rows.

  The launch walks twenty grid points; point t holds rows 400·t … 400·t + 399 of the left factor (8000 × 32) and the whole
  right factor (8000 × 32), contracts the last axis of both on the matrix unit from a zero accumulator, and writes the
  400 × 8000 product back as rows 400·t … 400·t + 399 of the result. A change of float format and a cast between equal
  shapes are the identity, so entry (p, f) of the block is Σ_k a[400·t + p, k] · b[f, k]: block t of the whole product
  a · bᵀ. The twenty blocks tile the result's rows, hence the array the launch leaves is a · bᵀ of the arrays it found.
-/
import proofs.«175275_j39522289058323_1_alg».proof.Proof.Gen.KernelIdeal.Frame
import proofs.«175275_j39522289058323_1_alg».proof.Proof.LibDotLastAxes
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Score

open Cert.KernelIdeal Cert.KernelIdeal.Gen

/-- The whole product a · bᵀ of two 8000 × 32 matrices, entry by entry. -/
def product (a : FVec Ideal S8000x32 .f32) (b : FVec Ideal S8000x32 .f32) : FVec Ideal S8000x8000 .f32 :=
  fun i => ∑ k : Fin 32, a (ix2 (i 0) k) * b (ix2 (i 1) k)

theorem zero_offsets : (![0, 0] : Fin 2 → Nat) = fun _ => 0 := funext fun a => by fin_cases a <;> rfl

/-- What the body stores, at entry (p, f): row p of the left block against row f of the right factor. The block
    product's dimension numbers contract the last axis of each operand; its kept coordinates are the result's row and
    column. -/
theorem stored_apply (x0 : FVec Ideal S400x32 .f32) (x1 : FVec Ideal S8000x32 .f32) (p : Fin 400) (f : Fin 8000) :
    k2_pay1 (F := Ideal) x0 x1 (ix2 p f) = ∑ k : Fin 32, x0 (ix2 p k) * x1 (ix2 f k) := by
  unfold k2_pay1
  simp only [shapeCast_self]
  exact DotLastAxes.matmul_zero_apply dot_S400x32_S8000x32_S400x8000_1_1_0_0_n_n rfl rfl
    (fun j q => by
      unfold DotDims.lhsIdx
      rw [dif_neg (show ¬(0 : Fin S400x32.rank) ∈ dot_S400x32_S8000x32_S400x8000_1_1_0_0_n_n.lhsBatch by decide),
        dif_pos (show (0 : Fin S400x32.rank) ∈ dot_S400x32_S8000x32_S400x8000_1_1_0_0_n_n.lhsNonContracting by decide)]
      rfl)
    (fun j q => DotDims.lhsIdx_val_of_single dot_S400x32_S8000x32_S400x8000_1_1_0_0_n_n rfl j q)
    (fun j q => by
      unfold DotDims.rhsIdx
      rw [dif_neg (show ¬(0 : Fin S8000x32.rank) ∈ dot_S400x32_S8000x32_S400x8000_1_1_0_0_n_n.rhsBatch by decide),
        dif_pos (show (0 : Fin S8000x32.rank) ∈ dot_S400x32_S8000x32_S400x8000_1_1_0_0_n_n.rhsNonContracting by decide)]
      rfl)
    (fun j q => DotDims.rhsIdx_val_of_single dot_S400x32_S8000x32_S400x8000_1_1_0_0_n_n rfl j q)
    none (truncf .bf16 x0 bitsLt_bf16_f32) (truncf .bf16 x1 bitsLt_bf16_f32) p f

/-- The printed index maps over the grid: the left window and the result window sit on block row t, the right
    window on block (0, 0). -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- The left window's block at point t is rows 400·t … of the left factor. -/
theorem left_block (c : Dev nD) (t : Fin cfg2.N) (y : S400x32.Idx) (i : S8000x32.Idx)
    (h0 : (i 0).val = 400 * t.val + (y 0).val) (h1 : (i 1).val = (y 1).val) :
    (iblk2 V c 0 t : FVec Ideal S400x32 .f32) y = (V c main_v323 : FVec Ideal S8000x32 .f32) i := by
  obtain ⟨e0, e1, -, -, -, -⟩ := index_facts t
  unfold iblk2
  rw [View.read_apply]
  show V c main_v323 (((cfg2.win 0).blk t).view.emb y) = V c main_v323 i
  refine congrArg _ (funext fun a => Fin.ext ?_)
  match a with
  | ⟨0, _⟩ => show win2_0.index t (0 : Fin 2) * 400 + 1 * (y 0).val = (i 0).val; omega
  | ⟨1, _⟩ => show win2_0.index t (1 : Fin 2) * 32 + 1 * (y 1).val = (i 1).val; omega

/-- The right window's block at every point is the whole right factor. -/
theorem right_block (c : Dev nD) (t : Fin cfg2.N) (y : S8000x32.Idx) :
    (iblk2 V c 1 t : FVec Ideal S8000x32 .f32) y = (V c main_v321 : FVec Ideal S8000x32 .f32) y := by
  obtain ⟨-, -, e2, e3, -, -⟩ := index_facts t
  unfold iblk2
  rw [View.read_apply]
  show V c main_v321 (((cfg2.win 1).blk t).view.emb y) = V c main_v321 y
  refine congrArg _ (funext fun a => Fin.ext ?_)
  match a with
  | ⟨0, _⟩ => show win2_1.index t (0 : Fin 2) * 8000 + 1 * (y 0).val = (y 0).val; omega
  | ⟨1, _⟩ => show win2_1.index t (1 : Fin 2) * 32 + 1 * (y 1).val = (y 1).val; omega

/-- WHAT POINT t WRITES BACK is block t of the whole product of the arrays the launch found. -/
theorem flushed_eq (c : Dev nD) (t : Fin cfg2.N) :
    (dat2 V c).flushed 2 t = ((cfg2.win 2).blk t).view.read (Elt Ideal) (product (V c main_v323) (V c main_v321)) := by
  show (cfg2.win 2).cut (grid2.coords t) ((dat2 V c).after 2 t) = _
  rw [after2_2]
  unfold out2_2
  rw [View.canon_unit_zero zero_offsets]
  simp only [View.ld_unit_zero (S := S400x32) zero_offsets, View.ld_unit_zero (S := S8000x32) zero_offsets]
  obtain ⟨-, -, -, -, e4, e5⟩ := index_facts t
  funext j
  obtain ⟨p, f, rfl⟩ : ∃ (p : Fin 400) (f : Fin 8000), j = ix2 p f := ⟨j 0, j 1, eq_ix2 j⟩
  show k2_pay1 (F := Ideal) (iblk2 V c 0 t) (iblk2 V c 1 t) (ix2 p f)
    = product (V c main_v323) (V c main_v321) (((cfg2.win 2).blk t).view.emb (ix2 p f))
  refine (stored_apply _ _ p f).trans ?_
  unfold product
  refine Finset.sum_congr rfl fun k _ => ?_
  have hrow : ((((cfg2.win 2).blk t).view.emb (ix2 p f)) 0).val = 400 * t.val + p.val := by
    show win2_2.index t (0 : Fin 2) * 400 + 1 * p.val = _; omega
  have hcol : ((((cfg2.win 2).blk t).view.emb (ix2 p f)) 1).val = f.val := by
    show win2_2.index t (1 : Fin 2) * 8000 + 1 * f.val = _; omega
  rw [left_block V c t (ix2 p k) (ix2 ((((cfg2.win 2).blk t).view.emb (ix2 p f)) 0) k) hrow rfl,
    right_block V c t (ix2 f k)]
  refine congrArg _ (congrArg _ (funext fun a => Fin.ext ?_))
  match a with
  | ⟨0, _⟩ => exact hcol.symm
  | ⟨1, _⟩ => rfl

/-- An index of the result is in point t's block iff each coordinate is in the block's range on its axis. -/
theorem mem_block (t : Fin cfg2.N) (i : S8000x8000.Idx) :
    i ∈ ((cfg2.win 2).blk t).view.set ↔ ∀ a : Fin 2, win2_2.index t a * S400x8000.size a ≤ (i a).val ∧ (i a).val < win2_2.index t a * S400x8000.size a + S400x8000.size a := by
  show i ∈ ((View.whole main_v324).slice (win2_2.rect t)).set ↔ _
  rw [View.set_slice_whole, Rect.mem_set_unit]
  exact Iff.rfl

/-- Every row of the result lies in the block of the point numbered by the row's quotient by 400. -/
theorem covered (i : S8000x8000.Idx) :
    ∃ t : Fin cfg2.N, (cfg2.win 2).flush t = true ∧ i ∈ ((cfg2.win 2).blk t).view.set := by
  have hN : cfg2.N = 20 := N_2
  have hi0 : (i 0).val < 8000 := (i 0).isLt
  have hi1 : (i 1).val < 8000 := (i 1).isLt
  refine ⟨⟨(i 0).val / 400, by rw [hN]; omega⟩, flush2_2 _, ?_⟩
  rw [mem_block]
  obtain ⟨-, -, -, -, e4, e5⟩ := index_facts ⟨(i 0).val / 400, by rw [hN]; omega⟩
  intro a
  match a with
  | ⟨0, _⟩ =>
    show win2_2.index _ (0 : Fin 2) * 400 ≤ (i 0).val ∧ (i 0).val < win2_2.index _ (0 : Fin 2) * 400 + 400
    rw [e4]; show (i 0).val / 400 * 400 ≤ (i 0).val ∧ (i 0).val < (i 0).val / 400 * 400 + 400; omega
  | ⟨1, _⟩ =>
    show win2_2.index _ (1 : Fin 2) * 8000 ≤ (i 1).val ∧ (i 1).val < win2_2.index _ (1 : Fin 2) * 8000 + 8000
    rw [e5]; omega

/-- THE ARRAY the launch leaves is the whole product of the arrays it found. -/
theorem final (c : Dev nD) : (dat2 V c).arrAt 2 cfg2.N = product (V c main_v323) (V c main_v321) :=
  (dat2 V c).arrAt_eq_of_cover 2 (product (V c main_v323) (V c main_v321)) (fun t _ => flushed_eq V c t) covered

end Cert.KernelIdeal.Score

end
-- ==== Proof.HostProducts.lean ====
/-
  The three matrix products, as the reference writes them.

  The reference multiplies each feature matrix by its weight matrix in one product contracting the feature matrix's last
  axis with the weight matrix's first, and scores by multiplying the left factor by the transposed right factor the same
  way. Over the extended reals each entry of such a product is the plain sum over the contracted index, and a
  transposed matrix read at (k, f) is the matrix at (f, k); so the three whole products the launches leave are these.
-/
import proofs.«175275_j39522289058323_1_alg».proof.Proof.Gen.ReferenceIdeal
import proofs.«175275_j39522289058323_1_alg».proof.Proof.Embed0
import proofs.«175275_j39522289058323_1_alg».proof.Proof.Embed1
import proofs.«175275_j39522289058323_1_alg».proof.Proof.Score
import proofs.«175275_j39522289058323_1_alg».proof.Proof.LibDotInnerHost
import Idealize.ShloMosaic.Lib.ValueLayout
import Idealize.ShloMosaic.Lib.ValueIdx

set_option maxRecDepth 16384

noncomputable section

open scoped BigOperators
open Idealize.ShloMosaic Idealize.ShloMosaic.ValueIdx

namespace Cert.HostProducts

/-- The reference's embedding product contracts the feature matrix's last axis with the weight matrix's first. -/
theorem embed_dims : DotInner.Plain Cert.ReferenceIdeal.dot_S8000x8000_S8000x64_S8000x64_1_0_0_1_n_n :=
  plain_record Cert.ReferenceIdeal.dot_S8000x8000_S8000x64_S8000x64_1_0_0_1_n_n, Cert.ReferenceIdeal.S8000x8000, Cert.ReferenceIdeal.S8000x64

/-- The reference's score product contracts the left factor's last axis with the transposed right factor's first. -/
theorem score_dims : DotInner.Plain Cert.ReferenceIdeal.dot_S8000x32_S32x8000_S8000x8000_1_0_0_1_n_n :=
  plain_record Cert.ReferenceIdeal.dot_S8000x32_S32x8000_S8000x8000_1_0_0_1_n_n, Cert.ReferenceIdeal.S8000x32, Cert.ReferenceIdeal.S32x8000

/-- The first launch's whole product is the reference's product of the same two matrices. -/
theorem embed0_eq (x : FVec Ideal Cert.KernelIdeal.S8000x8000 .f32) (w : FVec Ideal Cert.KernelIdeal.S8000x64 .f32) :
    Cert.KernelIdeal.Embed0.product x w
      = Host.dotGeneral (F := Ideal) Cert.ReferenceIdeal.dot_S8000x8000_S8000x64_S8000x64_1_0_0_1_n_n none x w := by
  funext i
  obtain ⟨p, f, rfl⟩ : ∃ (p : Fin 8000) (f : Fin 64), i = ix2 p f := ⟨i 0, i 1, eq_ix2 i⟩
  exact (embed_dims.dotGeneral none x w p f).symm

/-- The second launch's whole product is the reference's product of the same two matrices. -/
theorem embed1_eq (x : FVec Ideal Cert.KernelIdeal.S8000x8000 .f32) (w : FVec Ideal Cert.KernelIdeal.S8000x64 .f32) :
    Cert.KernelIdeal.Embed1.product x w
      = Host.dotGeneral (F := Ideal) Cert.ReferenceIdeal.dot_S8000x8000_S8000x64_S8000x64_1_0_0_1_n_n none x w := by
  funext i
  obtain ⟨p, f, rfl⟩ : ∃ (p : Fin 8000) (f : Fin 64), i = ix2 p f := ⟨i 0, i 1, eq_ix2 i⟩
  exact (embed_dims.dotGeneral none x w p f).symm

/-- The last launch's whole product a · bᵀ is the reference's product of a with the transpose of b. -/
theorem score_eq (a b : FVec Ideal Cert.KernelIdeal.S8000x32 .f32) :
    Cert.KernelIdeal.Score.product a b
      = Host.dotGeneral (F := Ideal) Cert.ReferenceIdeal.dot_S8000x32_S32x8000_S8000x8000_1_0_0_1_n_n none a
          (transpose Cert.ReferenceIdeal.S32x8000 [1, 0] b Cert.ReferenceIdeal.Facts₀.transposes_S8000x32_S32x8000_1_0) := by
  funext i
  obtain ⟨p, f, rfl⟩ : ∃ (p : Fin 8000) (f : Fin 8000), i = ix2 p f := ⟨i 0, i 1, eq_ix2 i⟩
  refine Eq.trans ?_ (score_dims.dotGeneral none a
    (transpose Cert.ReferenceIdeal.S32x8000 [1, 0] b Cert.ReferenceIdeal.Facts₀.transposes_S8000x32_S32x8000_1_0) p f).symm
  show ∑ k : Fin 32, a (ix2 p k) * b (ix2 f k) = _
  refine Finset.sum_congr rfl fun k _ => ?_
  rw [transpose_ix2_apply]

end Cert.HostProducts

end
-- ==== Proof.Middle.lean ====
/-
  The two graph-convolution layers are the same computation in both programs.

  Between its embedding launches and its score launch the kernel program runs, as plain array operations, exactly the
  operations the reference runs between its embedding products and its score product: per relation the degree counts
  by segment sums of ones, clipped below at one, the reciprocal square roots, the normalised features times the
  relation's weights, the gather along the edges' sources and the segment sum over their destinations, the second
  normalisation and the bias; the sums per node type; the rectifier; twice; and the left factor times the transposed
  scoring matrix. Folding either line from contents that agree on the two embeddings, the relations' weights and
  biases, the scoring matrix and the edge lists therefore leaves the same two factors: each operation's result is the
  same function of the same operands, read one operation at a time down to the contents the fold starts from.
-/
import proofs.«175275_j39522289058323_1_alg».proof.Proof.Gen.KernelIdeal.Launch
import proofs.«175275_j39522289058323_1_alg».proof.Proof.ReferenceRun
import Idealize.ShloMosaic.Lib.StableHlo.Run
import Idealize.ShloMosaic.PureOps.Ideal

set_option maxRecDepth 65536

noncomputable section

namespace Cert.Layers

open Idealize.ShloMosaic Idealize.ShloMosaic.TcCoe Idealize.SL.Sem Idealize.ShloMosaic.StableHlo

/-- The kernel program's stretches between the embedding launches and the score launch, folded from contents B. -/
def kernelLayers (B : Valuation Cert.KernelIdeal.τ Cert.KernelIdeal.sig (Elt Ideal)) :
    Valuation Cert.KernelIdeal.τ Cert.KernelIdeal.sig (Elt Ideal) :=
  after (Cert.KernelIdeal.Gen.hostOps2_38 (F := Ideal)) (after (Cert.KernelIdeal.Gen.hostOps2_37 (F := Ideal)) (after (Cert.KernelIdeal.Gen.hostOps2_36 (F := Ideal)) (after (Cert.KernelIdeal.Gen.hostOps2_35 (F := Ideal)) (after (Cert.KernelIdeal.Gen.hostOps2_34 (F := Ideal)) (after (Cert.KernelIdeal.Gen.hostOps2_33 (F := Ideal)) (after (Cert.KernelIdeal.Gen.hostOps2_32 (F := Ideal)) (after (Cert.KernelIdeal.Gen.hostOps2_31 (F := Ideal)) (after (Cert.KernelIdeal.Gen.hostOps2_30 (F := Ideal)) (after (Cert.KernelIdeal.Gen.hostOps2_29 (F := Ideal)) (after (Cert.KernelIdeal.Gen.hostOps2_28 (F := Ideal)) (after (Cert.KernelIdeal.Gen.hostOps2_27 (F := Ideal)) (after (Cert.KernelIdeal.Gen.hostOps2_26 (F := Ideal)) (after (Cert.KernelIdeal.Gen.hostOps2_25 (F := Ideal)) (after (Cert.KernelIdeal.Gen.hostOps2_24 (F := Ideal)) (after (Cert.KernelIdeal.Gen.hostOps2_23 (F := Ideal)) (after (Cert.KernelIdeal.Gen.hostOps2_22 (F := Ideal)) (after (Cert.KernelIdeal.Gen.hostOps2_21 (F := Ideal)) (after (Cert.KernelIdeal.Gen.hostOps2_20 (F := Ideal)) (after (Cert.KernelIdeal.Gen.hostOps2_19 (F := Ideal)) (after (Cert.KernelIdeal.Gen.hostOps2_18 (F := Ideal)) (after (Cert.KernelIdeal.Gen.hostOps2_17 (F := Ideal)) (after (Cert.KernelIdeal.Gen.hostOps2_16 (F := Ideal)) (after (Cert.KernelIdeal.Gen.hostOps2_15 (F := Ideal)) (after (Cert.KernelIdeal.Gen.hostOps2_14 (F := Ideal)) (after (Cert.KernelIdeal.Gen.hostOps2_13 (F := Ideal)) (after (Cert.KernelIdeal.Gen.hostOps2_12 (F := Ideal)) (after (Cert.KernelIdeal.Gen.hostOps2_11 (F := Ideal)) (after (Cert.KernelIdeal.Gen.hostOps2_10 (F := Ideal)) (after (Cert.KernelIdeal.Gen.hostOps2_9 (F := Ideal)) (after (Cert.KernelIdeal.Gen.hostOps2_8 (F := Ideal)) (after (Cert.KernelIdeal.Gen.hostOps2_7 (F := Ideal)) (after (Cert.KernelIdeal.Gen.hostOps2_6 (F := Ideal)) (after (Cert.KernelIdeal.Gen.hostOps2_5 (F := Ideal)) (after (Cert.KernelIdeal.Gen.hostOps2_4 (F := Ideal)) (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) (B)))))))))))))))))))))))))))))))))))))))

set_option maxHeartbeats 2000000000 in
/-- From contents agreeing on what the layers read, the two programs' layers leave the same left and right factors. -/
theorem factors_agree (BK : Valuation Cert.KernelIdeal.τ Cert.KernelIdeal.sig (Elt Ideal))
    (BR : Valuation Cert.ReferenceIdeal.τ Cert.ReferenceIdeal.sig (Elt Ideal))
    (h0 : BK (Proc.devRef .tc Cert.KernelIdeal.main_v0) = BR (Proc.devRef .tc Cert.ReferenceIdeal.main_v0))
    (h1 : BK (Proc.devRef .tc Cert.KernelIdeal.main_v1) = BR (Proc.devRef .tc Cert.ReferenceIdeal.main_v1))
    (a4 : BK (Proc.devRef .tc Cert.KernelIdeal.main_arg4) = BR (Proc.devRef .tc Cert.ReferenceIdeal.main_arg4))
    (a5 : BK (Proc.devRef .tc Cert.KernelIdeal.main_arg5) = BR (Proc.devRef .tc Cert.ReferenceIdeal.main_arg5))
    (a6 : BK (Proc.devRef .tc Cert.KernelIdeal.main_arg6) = BR (Proc.devRef .tc Cert.ReferenceIdeal.main_arg6))
    (a7 : BK (Proc.devRef .tc Cert.KernelIdeal.main_arg7) = BR (Proc.devRef .tc Cert.ReferenceIdeal.main_arg7))
    (a8 : BK (Proc.devRef .tc Cert.KernelIdeal.main_arg8) = BR (Proc.devRef .tc Cert.ReferenceIdeal.main_arg8))
    (a9 : BK (Proc.devRef .tc Cert.KernelIdeal.main_arg9) = BR (Proc.devRef .tc Cert.ReferenceIdeal.main_arg9))
    (a10 : BK (Proc.devRef .tc Cert.KernelIdeal.main_arg10) = BR (Proc.devRef .tc Cert.ReferenceIdeal.main_arg10)) :
    kernelLayers BK (Proc.devRef .tc Cert.KernelIdeal.main_v323)
        = Cert.ReferenceIdeal.Whole.layers BR (Proc.devRef .tc Cert.ReferenceIdeal.main_v323)
      ∧ kernelLayers BK (Proc.devRef .tc Cert.KernelIdeal.main_v321)
        = Cert.ReferenceIdeal.Whole.layers BR (Proc.devRef .tc Cert.ReferenceIdeal.main_v321) := by
  unfold kernelLayers Cert.ReferenceIdeal.Whole.layers
  simp only [Cert.KernelIdeal.Gen.hostOps2, Cert.KernelIdeal.Gen.hostOps2_1, Cert.KernelIdeal.Gen.hostOps2_2, Cert.KernelIdeal.Gen.hostOps2_3, Cert.KernelIdeal.Gen.hostOps2_4, Cert.KernelIdeal.Gen.hostOps2_5, Cert.KernelIdeal.Gen.hostOps2_6, Cert.KernelIdeal.Gen.hostOps2_7, Cert.KernelIdeal.Gen.hostOps2_8, Cert.KernelIdeal.Gen.hostOps2_9, Cert.KernelIdeal.Gen.hostOps2_10, Cert.KernelIdeal.Gen.hostOps2_11, Cert.KernelIdeal.Gen.hostOps2_12, Cert.KernelIdeal.Gen.hostOps2_13, Cert.KernelIdeal.Gen.hostOps2_14, Cert.KernelIdeal.Gen.hostOps2_15, Cert.KernelIdeal.Gen.hostOps2_16, Cert.KernelIdeal.Gen.hostOps2_17, Cert.KernelIdeal.Gen.hostOps2_18, Cert.KernelIdeal.Gen.hostOps2_19, Cert.KernelIdeal.Gen.hostOps2_20, Cert.KernelIdeal.Gen.hostOps2_21, Cert.KernelIdeal.Gen.hostOps2_22, Cert.KernelIdeal.Gen.hostOps2_23, Cert.KernelIdeal.Gen.hostOps2_24, Cert.KernelIdeal.Gen.hostOps2_25, Cert.KernelIdeal.Gen.hostOps2_26, Cert.KernelIdeal.Gen.hostOps2_27, Cert.KernelIdeal.Gen.hostOps2_28, Cert.KernelIdeal.Gen.hostOps2_29, Cert.KernelIdeal.Gen.hostOps2_30, Cert.KernelIdeal.Gen.hostOps2_31, Cert.KernelIdeal.Gen.hostOps2_32, Cert.KernelIdeal.Gen.hostOps2_33, Cert.KernelIdeal.Gen.hostOps2_34, Cert.KernelIdeal.Gen.hostOps2_35, Cert.KernelIdeal.Gen.hostOps2_36, Cert.KernelIdeal.Gen.hostOps2_37, Cert.KernelIdeal.Gen.hostOps2_38,
    Cert.ReferenceIdeal.Whole.midOps0, Cert.ReferenceIdeal.Whole.midOps1, Cert.ReferenceIdeal.Whole.midOps2, Cert.ReferenceIdeal.Whole.midOps3, Cert.ReferenceIdeal.Whole.midOps4, Cert.ReferenceIdeal.Whole.midOps5, Cert.ReferenceIdeal.Whole.midOps6, Cert.ReferenceIdeal.Whole.midOps7, Cert.ReferenceIdeal.Whole.midOps8, Cert.ReferenceIdeal.Whole.midOps9, Cert.ReferenceIdeal.Whole.midOps10]
  after_results_simp
  rw [h0, h1, a4, a5, a6, a7, a8, a9, a10]
  exact ⟨rfl, rfl⟩

end Cert.Layers

end
-- ==== Proof.KernelValue.lean ====
/-
  The kernel program's result is the reference's.

  The first two launches leave the two embedding products, which are the reference's two products of the same
  matrices; the stretches between leave, from those, the same two factors as the reference's layers; and the last
  launch leaves the product of the left factor with the transposed right factor, which is the reference's score.
  The arguments reach every segment unchanged, since nothing writes them.
-/
import proofs.«175275_j39522289058323_1_alg».proof.Proof.Gen.KernelIdeal.Frame
import proofs.«175275_j39522289058323_1_alg».proof.Proof.Embed0
import proofs.«175275_j39522289058323_1_alg».proof.Proof.Embed1
import proofs.«175275_j39522289058323_1_alg».proof.Proof.Score
import proofs.«175275_j39522289058323_1_alg».proof.Proof.HostProducts
import proofs.«175275_j39522289058323_1_alg».proof.Proof.ReferenceRun
import proofs.«175275_j39522289058323_1_alg».proof.Proof.Middle

set_option maxRecDepth 65536

noncomputable section

namespace Cert.KernelIdeal.Value

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

/-- The contents the score launch finds are the layers' stretches folded from the second launch's exit contents. -/
theorem entry_fold (c : Dev nD) : W41 m ρ c = Cert.Layers.kernelLayers (W2 m ρ c) := rfl

/-- The result buffer ends holding what the reference's line leaves in its result, when the two launch memories agree
    on the arguments. -/
theorem result_eq (c : Dev nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    W42 m ρ c (Proc.devRef .tc main_v324)
      = after Cert.ReferenceIdeal.Whole.ops (launchContents m' c) (Proc.devRef .tc Cert.ReferenceIdeal.main_v325) := by
  have H0 : W2 m ρ c (Proc.devRef .tc main_v0)
      = after Cert.ReferenceIdeal.Whole.embedOps (launchContents m' c) (Proc.devRef .tc Cert.ReferenceIdeal.main_v0) := by
    rw [Cert.ReferenceIdeal.Whole.embed_first]
    refine (W2_of_ne m ρ c main_v0 (by decide)).trans ((W1_arr m ρ c 2).trans ((Embed0.final (V0 m ρ) c).trans ?_))
    exact (Cert.HostProducts.embed0_eq _ _).trans
      (congrArg₂ (fun x w => Host.dotGeneral (F := Ideal) Cert.ReferenceIdeal.dot_S8000x8000_S8000x64_S8000x64_1_0_0_1_n_n none x w) e0.symm e2.symm)
  have H1 : W2 m ρ c (Proc.devRef .tc main_v1)
      = after Cert.ReferenceIdeal.Whole.embedOps (launchContents m' c) (Proc.devRef .tc Cert.ReferenceIdeal.main_v1) := by
    rw [Cert.ReferenceIdeal.Whole.embed_second]
    refine (W2_arr m ρ c 2).trans ((Embed1.final (V1 m ρ) c).trans ?_)
    have r1 : V1 m ρ c main_arg1 = m ((c.tc : Thread Cert.KernelIdeal.nD Cert.KernelIdeal.τ).loc Cert.KernelIdeal.main_arg1) := W1_of_ne m ρ c main_arg1 (by decide)
    have r3 : V1 m ρ c main_arg3 = m ((c.tc : Thread Cert.KernelIdeal.nD Cert.KernelIdeal.τ).loc Cert.KernelIdeal.main_arg3) := W1_of_ne m ρ c main_arg3 (by decide)
    rw [r1, r3]
    exact (Cert.HostProducts.embed1_eq _ _).trans
      (congrArg₂ (fun x w => Host.dotGeneral (F := Ideal) Cert.ReferenceIdeal.dot_S8000x8000_S8000x64_S8000x64_1_0_0_1_n_n none x w) e1.symm e3.symm)
  have A4 : W2 m ρ c (Proc.devRef .tc main_arg4)
      = after Cert.ReferenceIdeal.Whole.embedOps (launchContents m' c) (Proc.devRef .tc Cert.ReferenceIdeal.main_arg4) :=
    ((W2_of_ne m ρ c main_arg4 (by decide)).trans (W1_of_ne m ρ c main_arg4 (by decide))).trans
      (e4.symm.trans (Cert.ReferenceIdeal.Whole.embedOps_keeps (launchContents m' c) Cert.ReferenceIdeal.main_arg4 (by decide)).symm)
  have A5 : W2 m ρ c (Proc.devRef .tc main_arg5)
      = after Cert.ReferenceIdeal.Whole.embedOps (launchContents m' c) (Proc.devRef .tc Cert.ReferenceIdeal.main_arg5) :=
    ((W2_of_ne m ρ c main_arg5 (by decide)).trans (W1_of_ne m ρ c main_arg5 (by decide))).trans
      (e5.symm.trans (Cert.ReferenceIdeal.Whole.embedOps_keeps (launchContents m' c) Cert.ReferenceIdeal.main_arg5 (by decide)).symm)
  have A6 : W2 m ρ c (Proc.devRef .tc main_arg6)
      = after Cert.ReferenceIdeal.Whole.embedOps (launchContents m' c) (Proc.devRef .tc Cert.ReferenceIdeal.main_arg6) :=
    ((W2_of_ne m ρ c main_arg6 (by decide)).trans (W1_of_ne m ρ c main_arg6 (by decide))).trans
      (e6.symm.trans (Cert.ReferenceIdeal.Whole.embedOps_keeps (launchContents m' c) Cert.ReferenceIdeal.main_arg6 (by decide)).symm)
  have A7 : W2 m ρ c (Proc.devRef .tc main_arg7)
      = after Cert.ReferenceIdeal.Whole.embedOps (launchContents m' c) (Proc.devRef .tc Cert.ReferenceIdeal.main_arg7) :=
    ((W2_of_ne m ρ c main_arg7 (by decide)).trans (W1_of_ne m ρ c main_arg7 (by decide))).trans
      (e7.symm.trans (Cert.ReferenceIdeal.Whole.embedOps_keeps (launchContents m' c) Cert.ReferenceIdeal.main_arg7 (by decide)).symm)
  have A8 : W2 m ρ c (Proc.devRef .tc main_arg8)
      = after Cert.ReferenceIdeal.Whole.embedOps (launchContents m' c) (Proc.devRef .tc Cert.ReferenceIdeal.main_arg8) :=
    ((W2_of_ne m ρ c main_arg8 (by decide)).trans (W1_of_ne m ρ c main_arg8 (by decide))).trans
      (e8.symm.trans (Cert.ReferenceIdeal.Whole.embedOps_keeps (launchContents m' c) Cert.ReferenceIdeal.main_arg8 (by decide)).symm)
  have A9 : W2 m ρ c (Proc.devRef .tc main_arg9)
      = after Cert.ReferenceIdeal.Whole.embedOps (launchContents m' c) (Proc.devRef .tc Cert.ReferenceIdeal.main_arg9) :=
    ((W2_of_ne m ρ c main_arg9 (by decide)).trans (W1_of_ne m ρ c main_arg9 (by decide))).trans
      (e9.symm.trans (Cert.ReferenceIdeal.Whole.embedOps_keeps (launchContents m' c) Cert.ReferenceIdeal.main_arg9 (by decide)).symm)
  have A10 : W2 m ρ c (Proc.devRef .tc main_arg10)
      = after Cert.ReferenceIdeal.Whole.embedOps (launchContents m' c) (Proc.devRef .tc Cert.ReferenceIdeal.main_arg10) :=
    ((W2_of_ne m ρ c main_arg10 (by decide)).trans (W1_of_ne m ρ c main_arg10 (by decide))).trans
      (e10.symm.trans (Cert.ReferenceIdeal.Whole.embedOps_keeps (launchContents m' c) Cert.ReferenceIdeal.main_arg10 (by decide)).symm)
  obtain ⟨f323, f321⟩ := Cert.Layers.factors_agree (W2 m ρ c) (after Cert.ReferenceIdeal.Whole.embedOps (launchContents m' c))
    H0 H1 A4 A5 A6 A7 A8 A9 A10
  rw [Cert.ReferenceIdeal.Whole.result_fold, ← f323, ← f321, ← entry_fold m ρ c]
  refine (W42_arr m ρ c 2).trans ((Score.final (V41 m ρ) c).trans ?_)
  exact Cert.HostProducts.score_eq _ _

end Cert.KernelIdeal.Value

end
-- ==== Proof.lean ====
/-
  The certificate: the kernel program, its idealization and the idealized reference each run to the end with their
  arguments unchanged; the idealization rewrote nothing; and the idealized kernel program and the idealized reference,
  run from memories that agree on the arguments, end with the same score matrix.

  The kernel program computes the two input embeddings and the closing score by row-tiled launches on the matrix unit
  and the two graph-convolution layers between them by the same array operations as the reference. Over the extended
  reals a row-tiled product is the whole product, a change of float format is the identity, and the layers are the same
  function of the same operands; so the two results are one function of the arguments.
-/
import proofs.«175275_j39522289058323_1_alg».proof.Defs
import proofs.«175275_j39522289058323_1_alg».proof.Proof.Gen.Kernel
import proofs.«175275_j39522289058323_1_alg».proof.Proof.Gen.Kernel.Skeleton
import proofs.«175275_j39522289058323_1_alg».proof.Proof.Gen.Kernel.Launch
import proofs.«175275_j39522289058323_1_alg».proof.Proof.Gen.Kernel.Points
import proofs.«175275_j39522289058323_1_alg».proof.Proof.Gen.Kernel.Frame
import proofs.«175275_j39522289058323_1_alg».proof.Proof.Gen.KernelIdeal
import proofs.«175275_j39522289058323_1_alg».proof.Proof.Gen.KernelIdeal.Skeleton
import proofs.«175275_j39522289058323_1_alg».proof.Proof.Gen.KernelIdeal.Launch
import proofs.«175275_j39522289058323_1_alg».proof.Proof.Gen.KernelIdeal.Points
import proofs.«175275_j39522289058323_1_alg».proof.Proof.Gen.KernelIdeal.Frame
import proofs.«175275_j39522289058323_1_alg».proof.Proof.Gen.ReferenceIdeal
import proofs.«175275_j39522289058323_1_alg».proof.Proof.Gen.Pre_finite_inputs
import proofs.«175275_j39522289058323_1_alg».proof.Proof.KernelRun
import proofs.«175275_j39522289058323_1_alg».proof.Proof.ReferenceRun
import proofs.«175275_j39522289058323_1_alg».proof.Proof.KernelValue
import Idealize.ShloMosaic.Adequacy
import Idealize.ShloMosaic.Init

set_option maxRecDepth 65536

noncomputable section

namespace Cert.Proof

open Idealize.ShloMosaic Idealize.ShloMosaic.TcCoe Idealize.SL.Sem Idealize.ShloMosaic.StableHlo

/-- The reference runs to the end with its arguments unchanged: its run with the result dropped. -/
theorem frame_reference : Cert.frame_ReferenceIdeal := fun m ρ _ =>
  (θ_run Cert.ReferenceIdeal.defs _ _).mono (fun _ h c => (h c).2) (Cert.ReferenceIdeal.Whole.run (F := Ideal) m ρ)

/-- Both idealized programs end with the reference's line folded over the reference's launch memory in their result. -/
theorem algebraic : Cert.algebraic_KernelIdeal_ReferenceIdeal := fun m ρ m' ρ' _ hagree =>
  ⟨fun c => after Cert.ReferenceIdeal.Whole.ops (launchContents m' c) (Proc.devRef .tc Cert.ReferenceIdeal.main_v325),
    (θ_run Cert.KernelIdeal.defs _ _).mono
      (fun _ h c => ⟨(h c).1.trans (Cert.KernelIdeal.Value.result_eq m ρ m' c
          (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2), (h c).2⟩)
      (Cert.KernelIdeal.Whole.run_out (F := Ideal) m ρ),
    Cert.ReferenceIdeal.Whole.run (F := Ideal) m' ρ'⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
